-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x32x128 : Shape := ⟨4, ![4, 1, 32, 128]⟩
abbrev S4x32x64x128 : Shape := ⟨4, ![4, 32, 64, 128]⟩
abbrev S4x32x128x62 : Shape := ⟨4, ![4, 32, 128, 62]⟩
abbrev S4x32x3968x2 : Shape := ⟨4, ![4, 32, 3968, 2]⟩
abbrev S4x32x128x3968 : Shape := ⟨4, ![4, 32, 128, 3968]⟩
abbrev S4x32x3968x128 : Shape := ⟨4, ![4, 32, 3968, 128]⟩
abbrev S_ : Shape := ⟨0, ![]⟩

class Facts : Prop where
  bcast_S_S4x1x32x128 : S_.BroadcastsInDim S4x1x32x128 (![] : Fin 0 → Fin S4x1x32x128.rank)
  reducesTo_S4x1x32x128_S_d0_1_2_3 : S4x1x32x128.ReducesTo [0, 1, 2, 3] S_
  h_S_ : 0 < S_.numel
  bcast_S_S4x32x64x128 : S_.BroadcastsInDim S4x32x64x128 (![] : Fin 0 → Fin S4x32x64x128.rank)
  reducesTo_S4x32x64x128_S_d0_1_2_3 : S4x32x64x128.ReducesTo [0, 1, 2, 3] S_
  bcast_S_S4x32x128x62 : S_.BroadcastsInDim S4x32x128x62 (![] : Fin 0 → Fin S4x32x128x62.rank)
  reducesTo_S4x32x128x62_S_d0_1_2_3 : S4x32x128x62.ReducesTo [0, 1, 2, 3] S_
  bcast_S_S4x32x3968x2 : S_.BroadcastsInDim S4x32x3968x2 (![] : Fin 0 → Fin S4x32x3968x2.rank)
  reducesTo_S4x32x3968x2_S_d0_1_2_3 : S4x32x3968x2.ReducesTo [0, 1, 2, 3] S_

variable [Facts]

def fn_part2 {F : FTy → Type} [FloatOps F] (main_arg7 : FVec F S4x32x3968x2 .f32) (main_arg8 : FVec F S4x32x3968x2 .f32) (main_v33 : IVec S_ 1) : IVec S_ 1 :=
  let main_v34 : FVec F S4x32x3968x2 .f32 := Host.absf main_arg7
  let main_cst_12 : FVec F S_ .f32 := constant S_ .f32 0x7F800000#32
  let main_v35 : FVec F S4x32x3968x2 .f32 := broadcastInDim S4x32x3968x2 ![] bcast_S_S4x32x3968x2 main_cst_12
  let main_v36 : IVec S4x32x3968x2 1 := cmpf .olt main_v34 main_v35
  let main_c_13 : IVec S_ 1 := constantI S_ 1 1#1
  let main_v37 : IVec S_ 1 := (fun x v => Host.reduce IntOp.andi x v reducesTo_S4x32x3968x2_S_d0_1_2_3 h_S_) main_v36 main_c_13
  let main_v38 : IVec S_ 1 := andi main_v33 main_v37
  let main_v39 : FVec F S4x32x3968x2 .f32 := Host.absf main_arg8
  let main_cst_14 : FVec F S_ .f32 := constant S_ .f32 0x7F800000#32
  let main_v40 : FVec F S4x32x3968x2 .f32 := broadcastInDim S4x32x3968x2 ![] bcast_S_S4x32x3968x2 main_cst_14
  let main_v41 : IVec S4x32x3968x2 1 := cmpf .olt main_v39 main_v40
  let main_c_15 : IVec S_ 1 := constantI S_ 1 1#1
  let main_v42 : IVec S_ 1 := (fun x v => Host.reduce IntOp.andi x v reducesTo_S4x32x3968x2_S_d0_1_2_3 h_S_) main_v41 main_c_15
  let main_v43 : IVec S_ 1 := andi main_v38 main_v42
  main_v43

def fn_part1 {F : FTy → Type} [FloatOps F] (main_arg4 : FVec F S4x32x64x128 .f32) (main_arg5 : FVec F S4x32x128x62 .f32) (main_arg6 : FVec F S4x32x128x62 .f32) (main_arg7 : FVec F S4x32x3968x2 .f32) (main_arg8 : FVec F S4x32x3968x2 .f32) (main_v13 : IVec S_ 1) (main_v16 : IVec S4x32x64x128 1) : IVec S_ 1 :=
  let main_c_5 : IVec S_ 1 := constantI S_ 1 1#1
  let main_v17 : IVec S_ 1 := (fun x v => Host.reduce IntOp.andi x v reducesTo_S4x32x64x128_S_d0_1_2_3 h_S_) main_v16 main_c_5
  let main_v18 : IVec S_ 1 := andi main_v13 main_v17
  let main_v19 : FVec F S4x32x64x128 .f32 := Host.absf main_arg4
  let main_cst_6 : FVec F S_ .f32 := constant S_ .f32 0x7F800000#32
  let main_v20 : FVec F S4x32x64x128 .f32 := broadcastInDim S4x32x64x128 ![] bcast_S_S4x32x64x128 main_cst_6
  let main_v21 : IVec S4x32x64x128 1 := cmpf .olt main_v19 main_v20
  let main_c_7 : IVec S_ 1 := constantI S_ 1 1#1
  let main_v22 : IVec S_ 1 := (fun x v => Host.reduce IntOp.andi x v reducesTo_S4x32x64x128_S_d0_1_2_3 h_S_) main_v21 main_c_7
  let main_v23 : IVec S_ 1 := andi main_v18 main_v22
  let main_v24 : FVec F S4x32x128x62 .f32 := Host.absf main_arg5
  let main_cst_8 : FVec F S_ .f32 := constant S_ .f32 0x7F800000#32
  let main_v25 : FVec F S4x32x128x62 .f32 := broadcastInDim S4x32x128x62 ![] bcast_S_S4x32x128x62 main_cst_8
  let main_v26 : IVec S4x32x128x62 1 := cmpf .olt main_v24 main_v25
  let main_c_9 : IVec S_ 1 := constantI S_ 1 1#1
  let main_v27 : IVec S_ 1 := (fun x v => Host.reduce IntOp.andi x v reducesTo_S4x32x128x62_S_d0_1_2_3 h_S_) main_v26 main_c_9
  let main_v28 : IVec S_ 1 := andi main_v23 main_v27
  let main_v29 : FVec F S4x32x128x62 .f32 := Host.absf main_arg6
  let main_cst_10 : FVec F S_ .f32 := constant S_ .f32 0x7F800000#32
  let main_v30 : FVec F S4x32x128x62 .f32 := broadcastInDim S4x32x128x62 ![] bcast_S_S4x32x128x62 main_cst_10
  let main_v31 : IVec S4x32x128x62 1 := cmpf .olt main_v29 main_v30
  let main_c_11 : IVec S_ 1 := constantI S_ 1 1#1
  let main_v32 : IVec S_ 1 := (fun x v => Host.reduce IntOp.andi x v reducesTo_S4x32x128x62_S_d0_1_2_3 h_S_) main_v31 main_c_11
  let main_v33 : IVec S_ 1 := andi main_v28 main_v32
  fn_part2 (F := F) main_arg7 main_arg8 main_v33

def fn {F : FTy → Type} [FloatOps F] (main_arg0 : FVec F S4x1x32x128 .f32) (main_arg1 : FVec F S4x1x32x128 .f32) (main_arg2 : FVec F S4x1x32x128 .f32) (main_arg3 : FVec F S4x32x64x128 .f32) (main_arg4 : FVec F S4x32x64x128 .f32) (main_arg5 : FVec F S4x32x128x62 .f32) (main_arg6 : FVec F S4x32x128x62 .f32) (main_arg7 : FVec F S4x32x3968x2 .f32) (main_arg8 : FVec F S4x32x3968x2 .f32) (main_arg9 : IVec S4x32x128x3968 32) (main_arg10 : IVec S4x32x3968x128 32) : IVec S_ 1 :=
  let main_v0 : FVec F S4x1x32x128 .f32 := Host.absf main_arg0
  let main_cst : FVec F S_ .f32 := constant S_ .f32 0x7F800000#32
  let main_v1 : FVec F S4x1x32x128 .f32 := broadcastInDim S4x1x32x128 ![] bcast_S_S4x1x32x128 main_cst
  let main_v2 : IVec S4x1x32x128 1 := cmpf .olt main_v0 main_v1
  let main_c : IVec S_ 1 := constantI S_ 1 1#1
  let main_v3 : IVec S_ 1 := (fun x v => Host.reduce IntOp.andi x v reducesTo_S4x1x32x128_S_d0_1_2_3 h_S_) main_v2 main_c
  let main_v4 : FVec F S4x1x32x128 .f32 := Host.absf main_arg1
  let main_cst_0 : FVec F S_ .f32 := constant S_ .f32 0x7F800000#32
  let main_v5 : FVec F S4x1x32x128 .f32 := broadcastInDim S4x1x32x128 ![] bcast_S_S4x1x32x128 main_cst_0
  let main_v6 : IVec S4x1x32x128 1 := cmpf .olt main_v4 main_v5
  let main_c_1 : IVec S_ 1 := constantI S_ 1 1#1
  let main_v7 : IVec S_ 1 := (fun x v => Host.reduce IntOp.andi x v reducesTo_S4x1x32x128_S_d0_1_2_3 h_S_) main_v6 main_c_1
  let main_v8 : IVec S_ 1 := andi main_v3 main_v7
  let main_v9 : FVec F S4x1x32x128 .f32 := Host.absf main_arg2
  let main_cst_2 : FVec F S_ .f32 := constant S_ .f32 0x7F800000#32
  let main_v10 : FVec F S4x1x32x128 .f32 := broadcastInDim S4x1x32x128 ![] bcast_S_S4x1x32x128 main_cst_2
  let main_v11 : IVec S4x1x32x128 1 := cmpf .olt main_v9 main_v10
  let main_c_3 : IVec S_ 1 := constantI S_ 1 1#1
  let main_v12 : IVec S_ 1 := (fun x v => Host.reduce IntOp.andi x v reducesTo_S4x1x32x128_S_d0_1_2_3 h_S_) main_v11 main_c_3
  let main_v13 : IVec S_ 1 := andi main_v8 main_v12
  let main_v14 : FVec F S4x32x64x128 .f32 := Host.absf main_arg3
  let main_cst_4 : FVec F S_ .f32 := constant S_ .f32 0x7F800000#32
  let main_v15 : FVec F S4x32x64x128 .f32 := broadcastInDim S4x32x64x128 ![] bcast_S_S4x32x64x128 main_cst_4
  let main_v16 : IVec S4x32x64x128 1 := cmpf .olt main_v14 main_v15
  fn_part1 (F := F) main_arg4 main_arg5 main_arg6 main_arg7 main_arg8 main_v13 main_v16
-- ==== Kernel.lean ====
abbrev S4x1x32x128 : Shape := ⟨4, ![4, 1, 32, 128]⟩
abbrev S4x32x64x128 : Shape := ⟨4, ![4, 32, 64, 128]⟩
abbrev S4x32x128x62 : Shape := ⟨4, ![4, 32, 128, 62]⟩
abbrev S4x32x3968x2 : Shape := ⟨4, ![4, 32, 3968, 2]⟩
abbrev S4x32x128x3968 : Shape := ⟨4, ![4, 32, 128, 3968]⟩
abbrev S4x32x3968x128 : Shape := ⟨4, ![4, 32, 3968, 128]⟩
abbrev S4x32x1x128 : Shape := ⟨4, ![4, 32, 1, 128]⟩
abbrev S1x2x1x128 : Shape := ⟨4, ![1, 2, 1, 128]⟩
abbrev S1x2x64x128 : Shape := ⟨4, ![1, 2, 64, 128]⟩
abbrev S1x2x128x62 : Shape := ⟨4, ![1, 2, 128, 62]⟩
abbrev S1x2x3968x2 : Shape := ⟨4, ![1, 2, 3968, 2]⟩
abbrev S1x2x128x3968 : Shape := ⟨4, ![1, 2, 128, 3968]⟩
abbrev S1x2x3968x128 : Shape := ⟨4, ![1, 2, 3968, 128]⟩
abbrev S1x1x1x128 : Shape := ⟨4, ![1, 1, 1, 128]⟩
abbrev S1x128 : Shape := ⟨2, ![1, 128]⟩
abbrev S1x1x64x128 : Shape := ⟨4, ![1, 1, 64, 128]⟩
abbrev S64x128 : Shape := ⟨2, ![64, 128]⟩
abbrev S1x1x128x62 : Shape := ⟨4, ![1, 1, 128, 62]⟩
abbrev S128x62 : Shape := ⟨2, ![128, 62]⟩
abbrev S1x1x3968x2 : Shape := ⟨4, ![1, 1, 3968, 2]⟩
abbrev S3968x2 : Shape := ⟨2, ![3968, 2]⟩
abbrev S1x1x128x3968 : Shape := ⟨4, ![1, 1, 128, 3968]⟩
abbrev S128x3968 : Shape := ⟨2, ![128, 3968]⟩
abbrev S1x1x3968x128 : Shape := ⟨4, ![1, 1, 3968, 128]⟩
abbrev S3968x128 : Shape := ⟨2, ![3968, 128]⟩
abbrev S128x62x1 : Shape := ⟨3, ![128, 62, 1]⟩
abbrev S128x62x64 : Shape := ⟨3, ![128, 62, 64]⟩
abbrev S1x3968 : Shape := ⟨2, ![1, 3968]⟩
abbrev S1x62 : Shape := ⟨2, ![1, 62]⟩
abbrev S1x62x1 : Shape := ⟨3, ![1, 62, 1]⟩
abbrev S1x62x64 : Shape := ⟨3, ![1, 62, 64]⟩
abbrev S128x64 : Shape := ⟨2, ![128, 64]⟩
abbrev S1x64 : Shape := ⟨2, ![1, 64]⟩
abbrev S1 : Shape := ⟨1, ![1]⟩
abbrev S1x1 : Shape := ⟨2, ![1, 1]⟩
abbrev S1x4033 : Shape := ⟨2, ![1, 4033]⟩
abbrev S3968x64 : Shape := ⟨2, ![3968, 64]⟩
abbrev S3968x1 : Shape := ⟨2, ![3968, 1]⟩

abbrev nBuf : Space → Nat
  | .hbm => 16
  | .vmem => 24
  | .smem => 0
  | _ => 0

abbrev bufTy : (tb : Table) → Fin (tcTables nBuf tb) → BufTy
  | .hbm, ⟨0, _⟩ => ⟨S4x1x32x128, .f32⟩
  | .hbm, ⟨1, _⟩ => ⟨S4x1x32x128, .f32⟩
  | .hbm, ⟨2, _⟩ => ⟨S4x1x32x128, .f32⟩
  | .hbm, ⟨3, _⟩ => ⟨S4x32x64x128, .f32⟩
  | .hbm, ⟨4, _⟩ => ⟨S4x32x64x128, .f32⟩
  | .hbm, ⟨5, _⟩ => ⟨S4x32x128x62, .f32⟩
  | .hbm, ⟨6, _⟩ => ⟨S4x32x128x62, .f32⟩
  | .hbm, ⟨7, _⟩ => ⟨S4x32x3968x2, .f32⟩
  | .hbm, ⟨8, _⟩ => ⟨S4x32x3968x2, .f32⟩
  | .hbm, ⟨9, _⟩ => ⟨S4x32x128x3968, .i32⟩
  | .hbm, ⟨10, _⟩ => ⟨S4x32x3968x128, .i32⟩
  | .hbm, ⟨11, _⟩ => ⟨S4x32x1x128, .f32⟩
  | .hbm, ⟨12, _⟩ => ⟨S4x32x1x128, .f32⟩
  | .hbm, ⟨13, _⟩ => ⟨S4x32x1x128, .f32⟩
  | .hbm, ⟨14, _⟩ => ⟨S4x32x1x128, .f32⟩
  | .hbm, ⟨15, _⟩ => ⟨S4x1x32x128, .f32⟩
  | .local _ .vmem, ⟨0, _⟩ => ⟨S1x2x1x128, .f32⟩
  | .local _ .vmem, ⟨1, _⟩ => ⟨S1x2x1x128, .f32⟩
  | .local _ .vmem, ⟨2, _⟩ => ⟨S1x2x1x128, .f32⟩
  | .local _ .vmem, ⟨3, _⟩ => ⟨S1x2x1x128, .f32⟩
  | .local _ .vmem, ⟨4, _⟩ => ⟨S1x2x1x128, .f32⟩
  | .local _ .vmem, ⟨5, _⟩ => ⟨S1x2x1x128, .f32⟩
  | .local _ .vmem, ⟨6, _⟩ => ⟨S1x2x64x128, .f32⟩
  | .local _ .vmem, ⟨7, _⟩ => ⟨S1x2x64x128, .f32⟩
  | .local _ .vmem, ⟨8, _⟩ => ⟨S1x2x64x128, .f32⟩
  | .local _ .vmem, ⟨9, _⟩ => ⟨S1x2x64x128, .f32⟩
  | .local _ .vmem, ⟨10, _⟩ => ⟨S1x2x128x62, .f32⟩
  | .local _ .vmem, ⟨11, _⟩ => ⟨S1x2x128x62, .f32⟩
  | .local _ .vmem, ⟨12, _⟩ => ⟨S1x2x128x62, .f32⟩
  | .local _ .vmem, ⟨13, _⟩ => ⟨S1x2x128x62, .f32⟩
  | .local _ .vmem, ⟨14, _⟩ => ⟨S1x2x3968x2, .f32⟩
  | .local _ .vmem, ⟨15, _⟩ => ⟨S1x2x3968x2, .f32⟩
  | .local _ .vmem, ⟨16, _⟩ => ⟨S1x2x3968x2, .f32⟩
  | .local _ .vmem, ⟨17, _⟩ => ⟨S1x2x3968x2, .f32⟩
  | .local _ .vmem, ⟨18, _⟩ => ⟨S1x2x128x3968, .i32⟩
  | .local _ .vmem, ⟨19, _⟩ => ⟨S1x2x128x3968, .i32⟩
  | .local _ .vmem, ⟨20, _⟩ => ⟨S1x2x3968x128, .i32⟩
  | .local _ .vmem, ⟨21, _⟩ => ⟨S1x2x3968x128, .i32⟩
  | .local _ .vmem, ⟨22, _⟩ => ⟨S1x2x1x128, .f32⟩
  | .local _ .vmem, ⟨23, _⟩ => ⟨S1x2x1x128, .f32⟩
  | _, _ => ⟨S4x1x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x62 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128x62 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x3968x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x3968x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x3968 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x3968x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S4x1x32x128_S4x32x1x128_0_2_1_3 : S4x1x32x128.Transposes [0, 2, 1, 3] S4x32x1x128
  inb_S1x2x1x128_S1x1x1x128_0_0_0_0 : ∀ a, (![0, 0, 0, 0] : Fin 4 → Nat) a + S1x1x1x128.size a ≤ S1x2x1x128.size a
  h_S1x1x1x128 : 0 < S1x1x1x128.numel
  shapeCasts_S1x1x1x128_S1x128 : S1x1x1x128.ShapeCasts S1x128
  inb_S1x2x64x128_S1x1x64x128_0_0_0_0 : ∀ a, (![0, 0, 0, 0] : Fin 4 → Nat) a + S1x1x64x128.size a ≤ S1x2x64x128.size a
  h_S1x1x64x128 : 0 < S1x1x64x128.numel
  shapeCasts_S1x1x64x128_S64x128 : S1x1x64x128.ShapeCasts S64x128
  inb_S1x2x128x62_S1x1x128x62_0_0_0_0 : ∀ a, (![0, 0, 0, 0] : Fin 4 → Nat) a + S1x1x128x62.size a ≤ S1x2x128x62.size a
  h_S1x1x128x62 : 0 < S1x1x128x62.numel
  shapeCasts_S1x1x128x62_S128x62 : S1x1x128x62.ShapeCasts S128x62
  inb_S1x2x3968x2_S1x1x3968x2_0_0_0_0 : ∀ a, (![0, 0, 0, 0] : Fin 4 → Nat) a + S1x1x3968x2.size a ≤ S1x2x3968x2.size a
  h_S1x1x3968x2 : 0 < S1x1x3968x2.numel
  shapeCasts_S1x1x3968x2_S3968x2 : S1x1x3968x2.ShapeCasts S3968x2
  inb_S1x2x128x3968_S1x1x128x3968_0_0_0_0 : ∀ a, (![0, 0, 0, 0] : Fin 4 → Nat) a + S1x1x128x3968.size a ≤ S1x2x128x3968.size a
  h_S1x1x128x3968 : 0 < S1x1x128x3968.numel
  shapeCasts_S1x1x128x3968_S128x3968 : S1x1x128x3968.ShapeCasts S128x3968
  inb_S1x2x3968x128_S1x1x3968x128_0_0_0_0 : ∀ a, (![0, 0, 0, 0] : Fin 4 → Nat) a + S1x1x3968x128.size a ≤ S1x2x3968x128.size a
  h_S1x1x3968x128 : 0 < S1x1x3968x128.numel
  shapeCasts_S1x1x3968x128_S3968x128 : S1x1x3968x128.ShapeCasts S3968x128
  shapeCasts_S128x62_S128x62x1 : S128x62.ShapeCasts S128x62x1
  shapeCasts_S128x62x1_S128x62x1 : S128x62x1.ShapeCasts S128x62x1
  broadcasts_S128x62x1_S128x62x64 : S128x62x1.Broadcasts S128x62x64
  shapeCasts_S128x62x64_S128x3968 : S128x62x64.ShapeCasts S128x3968
  shapeCasts_S1x62_S1x62x1 : S1x62.ShapeCasts S1x62x1
  shapeCasts_S1x62x1_S1x62x1 : S1x62x1.ShapeCasts S1x62x1
  broadcasts_S1x62x1_S1x62x64 : S1x62x1.Broadcasts S1x62x64
  shapeCasts_S1x62x64_S1x3968 : S1x62x64.ShapeCasts S1x3968
  transposes_S64x128_p1_0_S128x64 : S64x128.Transposes [1, 0] S128x64
  reduces_S1x128_S1 : S1x128.Reduces [1] S1
  shapeCasts_S1_S1x1 : S1.ShapeCasts S1x1
  concatenates_S1x3968_S1x64_S1x1_S1x4033_d1 : Shape.Concatenates [S1x3968, S1x64, S1x1] S1x4033 1
  reduces_S1x4033_S1 : S1x4033.Reduces [1] S1
  broadcasts_S1x1_S1x4033 : S1x1.Broadcasts S1x4033
  slices_S1x4033_o0_0_S1x3968 : S1x4033.Slices ![0, 0] S1x3968
  slices_S1x4033_o0_3968_S1x64 : S1x4033.Slices ![0, 3968] S1x64
  slices_S1x4033_o0_4032_S1x1 : S1x4033.Slices ![0, 4032] S1x1
  slices_S3968x128_o0_0_S3968x64 : S3968x128.Slices ![0, 0] S3968x64
  slices_S3968x128_o0_64_S3968x64 : S3968x128.Slices ![0, 64] S3968x64
  slices_S3968x2_o0_0_S3968x1 : S3968x2.Slices ![0, 0] S3968x1
  slices_S3968x2_o0_1_S3968x1 : S3968x2.Slices ![0, 1] S3968x1
  broadcasts_S3968x1_S3968x64 : S3968x1.Broadcasts S3968x64
  concatenates_S1x64_S1x64_S1x128_d1 : Shape.Concatenates [S1x64, S1x64] S1x128 1
  broadcasts_S1x1_S1x128 : S1x1.Broadcasts S1x128
  shapeCasts_S1x128_S1x1x1x128 : S1x128.ShapeCasts S1x1x1x128
  inb_S1x2x1x128_S1x1x1x128_0_1_0_0 : ∀ a, (![0, 1, 0, 0] : Fin 4 → Nat) a + S1x1x1x128.size a ≤ S1x2x1x128.size a
  inb_S1x2x64x128_S1x1x64x128_0_1_0_0 : ∀ a, (![0, 1, 0, 0] : Fin 4 → Nat) a + S1x1x64x128.size a ≤ S1x2x64x128.size a
  inb_S1x2x128x62_S1x1x128x62_0_1_0_0 : ∀ a, (![0, 1, 0, 0] : Fin 4 → Nat) a + S1x1x128x62.size a ≤ S1x2x128x62.size a
  inb_S1x2x3968x2_S1x1x3968x2_0_1_0_0 : ∀ a, (![0, 1, 0, 0] : Fin 4 → Nat) a + S1x1x3968x2.size a ≤ S1x2x3968x2.size a
  inb_S1x2x128x3968_S1x1x128x3968_0_1_0_0 : ∀ a, (![0, 1, 0, 0] : Fin 4 → Nat) a + S1x1x128x3968.size a ≤ S1x2x128x3968.size a
  inb_S1x2x3968x128_S1x1x3968x128_0_1_0_0 : ∀ a, (![0, 1, 0, 0] : Fin 4 → Nat) a + S1x1x3968x128.size a ≤ S1x2x3968x128.size a
  transposes_S4x32x1x128_S4x1x32x128_0_2_1_3 : S4x32x1x128.Transposes [0, 2, 1, 3] S4x1x32x128
  dot_S1x128_S128x3968_S1x3968_1_0_0_1_n_n_wf : DotDims.WF S1x128 S128x3968 S1x3968 [1] [0] [0] [1] [] []
  dot_S1x128_S128x62_S1x62_1_0_0_1_n_n_wf : DotDims.WF S1x128 S128x62 S1x62 [1] [0] [0] [1] [] []
  dot_S1x128_S128x64_S1x64_1_0_0_1_n_n_wf : DotDims.WF S1x128 S128x64 S1x64 [1] [0] [0] [1] [] []
  dot_S1x3968_S3968x64_S1x64_1_0_0_1_n_n_wf : DotDims.WF S1x3968 S3968x64 S1x64 [1] [0] [0] [1] [] []
  dot_S1x64_S64x128_S1x128_1_0_0_1_n_n_wf : DotDims.WF S1x64 S64x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1x128.size a ≤ S4x32x1x128.size a
  hwx0_0 : ∀ i : grid0.Coords, EltTy.bits .f32 = 32 ∨ (Rect.block (s := S4x32x1x128) S1x2x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1x128.size a ≤ S4x32x1x128.size a
  hwx0_1 : ∀ i : grid0.Coords, EltTy.bits .f32 = 32 ∨ (Rect.block (s := S4x32x1x128) S1x2x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1x128.size a ≤ S4x32x1x128.size a
  hwx0_2 : ∀ i : grid0.Coords, EltTy.bits .f32 = 32 ∨ (Rect.block (s := S4x32x1x128) S1x2x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x64x128.size a ≤ S4x32x64x128.size a
  hwx0_3 : ∀ i : grid0.Coords, EltTy.bits .f32 = 32 ∨ (Rect.block (s := S4x32x64x128) S1x2x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x64x128.size a ≤ S4x32x64x128.size a
  hwx0_4 : ∀ i : grid0.Coords, EltTy.bits .f32 = 32 ∨ (Rect.block (s := S4x32x64x128) S1x2x64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x128x62.size a ≤ S4x32x128x62.size a
  hwx0_5 : ∀ i : grid0.Coords, EltTy.bits .f32 = 32 ∨ (Rect.block (s := S4x32x128x62) S1x2x128x62.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x128x62.size a ≤ S4x32x128x62.size a
  hwx0_6 : ∀ i : grid0.Coords, EltTy.bits .f32 = 32 ∨ (Rect.block (s := S4x32x128x62) S1x2x128x62.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x3968x2.size a ≤ S4x32x3968x2.size a
  hwx0_7 : ∀ i : grid0.Coords, EltTy.bits .f32 = 32 ∨ (Rect.block (s := S4x32x3968x2) S1x2x3968x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2x3968x2.size a ≤ S4x32x3968x2.size a
  hwx0_8 : ∀ i : grid0.Coords, EltTy.bits .f32 = 32 ∨ (Rect.block (s := S4x32x3968x2) S1x2x3968x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2x128x3968.size a ≤ S4x32x128x3968.size a
  hwx0_9 : ∀ i : grid0.Coords, EltTy.bits .i32 = 32 ∨ (Rect.block (s := S4x32x128x3968) S1x2x128x3968.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x2x3968x128.size a ≤ S4x32x3968x128.size a
  hwx0_10 : ∀ i : grid0.Coords, EltTy.bits .i32 = 32 ∨ (Rect.block (s := S4x32x3968x128) S1x2x3968x128.size (cc0_transform_10 i) (hinb0_10 i)).WholeWords (EltTy.packing .i32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2x1x128.size a ≤ S4x32x1x128.size a
  hwx0_11 : ∀ i : grid0.Coords, EltTy.bits .f32 = 32 ∨ (Rect.block (s := S4x32x1x128) S1x2x1x128.size (cc0_transform_11 i) (hinb0_11 i)).WholeWords (EltTy.packing .f32)

variable [Facts₀]

def dot_S1x128_S128x3968_S1x3968_1_0_0_1_n_n : DotDims S1x128 S128x3968 S1x3968 where
  lhsContracting := [1]
  rhsContracting := [0]
  lhsNonContracting := [0]
  rhsNonContracting := [1]
  lhsBatch := []
  rhsBatch := []
  wf := dot_S1x128_S128x3968_S1x3968_1_0_0_1_n_n_wf
def dot_S1x128_S128x62_S1x62_1_0_0_1_n_n : DotDims S1x128 S128x62 S1x62 where
  lhsContracting := [1]
  rhsContracting := [0]
  lhsNonContracting := [0]
  rhsNonContracting := [1]
  lhsBatch := []
  rhsBatch := []
  wf := dot_S1x128_S128x62_S1x62_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x3968_S3968x64_S1x64_1_0_0_1_n_n : DotDims S1x3968 S3968x64 S1x64 where
  lhsContracting := [1]
  rhsContracting := [0]
  lhsNonContracting := [0]
  rhsNonContracting := [1]
  lhsBatch := []
  rhsBatch := []
  wf := dot_S1x3968_S3968x64_S1x64_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf

abbrev win0_0 : Pipeline.Window sig grid0 :=
  Pipeline.Window.ofSpec (Memref.whole main_v0) S1x2x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2x64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2x128x62.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x2x128x62.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x2x3968x2.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x2x3968x2.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x2x128x3968.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x2x3968x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x2x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x1x32x128 : Shape := ⟨4, ![4, 1, 32, 128]⟩
abbrev S4x32x64x128 : Shape := ⟨4, ![4, 32, 64, 128]⟩
abbrev S4x32x128x62 : Shape := ⟨4, ![4, 32, 128, 62]⟩
abbrev S4x32x3968x2 : Shape := ⟨4, ![4, 32, 3968, 2]⟩
abbrev S4x32x128x3968 : Shape := ⟨4, ![4, 32, 128, 3968]⟩
abbrev S4x32x3968x128 : Shape := ⟨4, ![4, 32, 3968, 128]⟩
abbrev S4x32x1x128 : Shape := ⟨4, ![4, 32, 1, 128]⟩
abbrev S4x32x128x62x64 : Shape := ⟨5, ![4, 32, 128, 62, 64]⟩
abbrev S4x32x128x62x1 : Shape := ⟨5, ![4, 32, 128, 62, 1]⟩
abbrev S4x32x1x3968 : Shape := ⟨4, ![4, 32, 1, 3968]⟩
abbrev S4x32x65x128 : Shape := ⟨4, ![4, 32, 65, 128]⟩
abbrev S4x32x1x65 : Shape := ⟨4, ![4, 32, 1, 65]⟩
abbrev S4x32x1x4033 : Shape := ⟨4, ![4, 32, 1, 4033]⟩
abbrev S_ : Shape := ⟨0, ![]⟩
abbrev S4x32x1 : Shape := ⟨3, ![4, 32, 1]⟩
abbrev S4x32x1x1 : Shape := ⟨4, ![4, 32, 1, 1]⟩
abbrev S4x32x3968x2x64 : Shape := ⟨5, ![4, 32, 3968, 2, 64]⟩
abbrev S4x32x3968x2x1 : Shape := ⟨5, ![4, 32, 3968, 2, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x1x32x128, .f32⟩
  | .hbm, ⟨1, _⟩ => ⟨S4x1x32x128, .f32⟩
  | .hbm, ⟨2, _⟩ => ⟨S4x1x32x128, .f32⟩
  | .hbm, ⟨3, _⟩ => ⟨S4x32x64x128, .f32⟩
  | .hbm, ⟨4, _⟩ => ⟨S4x32x64x128, .f32⟩
  | .hbm, ⟨5, _⟩ => ⟨S4x32x128x62, .f32⟩
  | .hbm, ⟨6, _⟩ => ⟨S4x32x128x62, .f32⟩
  | .hbm, ⟨7, _⟩ => ⟨S4x32x3968x2, .f32⟩
  | .hbm, ⟨8, _⟩ => ⟨S4x32x3968x2, .f32⟩
  | .hbm, ⟨9, _⟩ => ⟨S4x32x128x3968, .i32⟩
  | .hbm, ⟨10, _⟩ => ⟨S4x32x3968x128, .i32⟩
  | .hbm, ⟨11, _⟩ => ⟨S4x32x1x128, .f32⟩
  | .hbm, ⟨12, _⟩ => ⟨S4x32x1x128, .f32⟩
  | .hbm, ⟨13, _⟩ => ⟨S4x32x1x128, .f32⟩
  | .hbm, ⟨14, _⟩ => ⟨S4x32x128x3968, .f32⟩
  | .hbm, ⟨15, _⟩ => ⟨S4x32x128x62x64, .f32⟩
  | .hbm, ⟨16, _⟩ => ⟨S4x32x128x62x1, .f32⟩
  | .hbm, ⟨17, _⟩ => ⟨S4x32x128x62x64, .f32⟩
  | .hbm, ⟨18, _⟩ => ⟨S4x32x128x62x64, .f32⟩
  | .hbm, ⟨19, _⟩ => ⟨S4x32x128x62x1, .f32⟩
  | .hbm, ⟨20, _⟩ => ⟨S4x32x128x62x64, .f32⟩
  | .hbm, ⟨21, _⟩ => ⟨S4x32x128x62x64, .f32⟩
  | .hbm, ⟨22, _⟩ => ⟨S4x32x128x3968, .f32⟩
  | .hbm, ⟨23, _⟩ => ⟨S4x32x1x3968, .f32⟩
  | .hbm, ⟨24, _⟩ => ⟨S4x32x65x128, .f32⟩
  | .hbm, ⟨25, _⟩ => ⟨S4x32x1x65, .f32⟩
  | .hbm, ⟨26, _⟩ => ⟨S4x32x1x4033, .f32⟩
  | .hbm, ⟨27, _⟩ => ⟨S_, .f32⟩
  | .hbm, ⟨28, _⟩ => ⟨S4x32x1x4033, .f32⟩
  | .hbm, ⟨29, _⟩ => ⟨S4x32x1x4033, .f32⟩
  | .hbm, ⟨30, _⟩ => ⟨S_, .f32⟩
  | .hbm, ⟨31, _⟩ => ⟨S4x32x1, .f32⟩
  | .hbm, ⟨32, _⟩ => ⟨S_, .f32⟩
  | .hbm, ⟨33, _⟩ => ⟨S4x32x1, .f32⟩
  | .hbm, ⟨34, _⟩ => ⟨S4x32x1, .f32⟩
  | .hbm, ⟨35, _⟩ => ⟨S4x32x1x1, .f32⟩
  | .hbm, ⟨36, _⟩ => ⟨S4x32x1x4033, .f32⟩
  | .hbm, ⟨37, _⟩ => ⟨S4x32x1x4033, .f32⟩
  | .hbm, ⟨38, _⟩ => ⟨S4x32x1x4033, .f32⟩
  | .hbm, ⟨39, _⟩ => ⟨S_, .f32⟩
  | .hbm, ⟨40, _⟩ => ⟨S4x32x1, .f32⟩
  | .hbm, ⟨41, _⟩ => ⟨S4x32x1x1, .f32⟩
  | .hbm, ⟨42, _⟩ => ⟨S4x32x1x4033, .f32⟩
  | .hbm, ⟨43, _⟩ => ⟨S4x32x1x4033, .f32⟩
  | .hbm, ⟨44, _⟩ => ⟨S4x32x65x128, .f32⟩
  | .hbm, ⟨45, _⟩ => ⟨S4x32x3968x128, .f32⟩
  | .hbm, ⟨46, _⟩ => ⟨S4x32x3968x2x64, .f32⟩
  | .hbm, ⟨47, _⟩ => ⟨S4x32x3968x2x1, .f32⟩
  | .hbm, ⟨48, _⟩ => ⟨S4x32x3968x2x64, .f32⟩
  | .hbm, ⟨49, _⟩ => ⟨S4x32x3968x2x64, .f32⟩
  | .hbm, ⟨50, _⟩ => ⟨S4x32x3968x2x1, .f32⟩
  | .hbm, ⟨51, _⟩ => ⟨S4x32x3968x2x64, .f32⟩
  | .hbm, ⟨52, _⟩ => ⟨S4x32x3968x2x64, .f32⟩
  | .hbm, ⟨53, _⟩ => ⟨S4x32x3968x128, .f32⟩
  | .hbm, ⟨54, _⟩ => ⟨S4x32x1x3968, .f32⟩
  | .hbm, ⟨55, _⟩ => ⟨S4x32x1x128, .f32⟩
  | .hbm, ⟨56, _⟩ => ⟨S4x32x1x65, .f32⟩
  | .hbm, ⟨57, _⟩ => ⟨S4x32x1x128, .f32⟩
  | .hbm, ⟨58, _⟩ => ⟨S4x32x1x128, .f32⟩
  | .hbm, ⟨59, _⟩ => ⟨S4x1x32x128, .f32⟩
  | _, _ => ⟨S4x1x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  transposes_S4x1x32x128_S4x32x1x128_0_2_1_3 : S4x1x32x128.Transposes [0, 2, 1, 3] S4x32x1x128
  shapeCasts_S4x32x128x3968_S4x32x128x62x64 : S4x32x128x3968.ShapeCasts S4x32x128x62x64
  bcast_S4x32x128x62_S4x32x128x62x1_0_1_2_3 : S4x32x128x62.BroadcastsInDim S4x32x128x62x1 (![0, 1, 2, 3] : Fin 4 → Fin S4x32x128x62x1.rank)
  bcast_S4x32x128x62x1_S4x32x128x62x64_0_1_2_3_4 : S4x32x128x62x1.BroadcastsInDim S4x32x128x62x64 (![0, 1, 2, 3, 4] : Fin 5 → Fin S4x32x128x62x64.rank)
  shapeCasts_S4x32x128x62x64_S4x32x128x3968 : S4x32x128x62x64.ShapeCasts S4x32x128x3968
  concatenates_S4x32x64x128_S4x32x1x128_S4x32x65x128_d2 : Shape.Concatenates [S4x32x64x128, S4x32x1x128] S4x32x65x128 2
  concatenates_S4x32x1x3968_S4x32x1x65_S4x32x1x4033_d3 : Shape.Concatenates [S4x32x1x3968, S4x32x1x65] S4x32x1x4033 3
  bcast_S_S4x32x1x4033 : S_.BroadcastsInDim S4x32x1x4033 (![] : Fin 0 → Fin S4x32x1x4033.rank)
  reducesTo_S4x32x1x4033_S4x32x1_d3 : S4x32x1x4033.ReducesTo [3] S4x32x1
  h_S_ : 0 < S_.numel
  bcast_S_S4x32x1 : S_.BroadcastsInDim S4x32x1 (![] : Fin 0 → Fin S4x32x1.rank)
  bcast_S4x32x1_S4x32x1x1_0_1_2 : S4x32x1.BroadcastsInDim S4x32x1x1 (![0, 1, 2] : Fin 3 → Fin S4x32x1x1.rank)
  bcast_S4x32x1x1_S4x32x1x4033_0_1_2_3 : S4x32x1x1.BroadcastsInDim S4x32x1x4033 (![0, 1, 2, 3] : Fin 4 → Fin S4x32x1x4033.rank)
  shapeCasts_S4x32x3968x128_S4x32x3968x2x64 : S4x32x3968x128.ShapeCasts S4x32x3968x2x64
  bcast_S4x32x3968x2_S4x32x3968x2x1_0_1_2_3 : S4x32x3968x2.BroadcastsInDim S4x32x3968x2x1 (![0, 1, 2, 3] : Fin 4 → Fin S4x32x3968x2x1.rank)
  bcast_S4x32x3968x2x1_S4x32x3968x2x64_0_1_2_3_4 : S4x32x3968x2x1.BroadcastsInDim S4x32x3968x2x64 (![0, 1, 2, 3, 4] : Fin 5 → Fin S4x32x3968x2x64.rank)
  shapeCasts_S4x32x3968x2x64_S4x32x3968x128 : S4x32x3968x2x64.ShapeCasts S4x32x3968x128
  slices_S4x32x1x4033_S4x32x1x3968_0_0_0_0 : S4x32x1x4033.Slices ![0, 0, 0, 0] S4x32x1x3968
  slices_S4x32x1x4033_S4x32x1x65_0_0_0_3968 : S4x32x1x4033.Slices ![0, 0, 0, 3968] S4x32x1x65
  transposes_S4x32x1x128_S4x1x32x128_0_2_1_3 : S4x32x1x128.Transposes [0, 2, 1, 3] S4x1x32x128
  dot_S4x32x1x128_S4x32x128x3968_S4x32x1x3968_3_2_2_3_01_01_wf : DotDims.WF S4x32x1x128 S4x32x128x3968 S4x32x1x3968 [3] [2] [2] [3] [0, 1] [0, 1]
  dot_S4x32x1x128_S4x32x65x128_S4x32x1x65_3_3_2_2_01_01_wf : DotDims.WF S4x32x1x128 S4x32x65x128 S4x32x1x65 [3] [3] [2] [2] [0, 1] [0, 1]
  dot_S4x32x1x3968_S4x32x3968x128_S4x32x1x128_3_2_2_3_01_01_wf : DotDims.WF S4x32x1x3968 S4x32x3968x128 S4x32x1x128 [3] [2] [2] [3] [0, 1] [0, 1]
  dot_S4x32x1x65_S4x32x65x128_S4x32x1x128_3_2_2_3_01_01_wf : DotDims.WF S4x32x1x65 S4x32x65x128 S4x32x1x128 [3] [2] [2] [3] [0, 1] [0, 1]

variable [Facts₀]

def dot_S4x32x1x128_S4x32x128x3968_S4x32x1x3968_3_2_2_3_01_01 : DotDims S4x32x1x128 S4x32x128x3968 S4x32x1x3968 where
  lhsContracting := [3]
  rhsContracting := [2]
  lhsNonContracting := [2]
  rhsNonContracting := [3]
  lhsBatch := [0, 1]
  rhsBatch := [0, 1]
  wf := dot_S4x32x1x128_S4x32x128x3968_S4x32x1x3968_3_2_2_3_01_01_wf
def dot_S4x32x1x128_S4x32x65x128_S4x32x1x65_3_3_2_2_01_01 : DotDims S4x32x1x128 S4x32x65x128 S4x32x1x65 where
  lhsContracting := [3]
  rhsContracting := [3]
  lhsNonContracting := [2]
  rhsNonContracting := [2]
  lhsBatch := [0, 1]
  rhsBatch := [0, 1]
  wf := dot_S4x32x1x128_S4x32x65x128_S4x32x1x65_3_3_2_2_01_01_wf
def dot_S4x32x1x3968_S4x32x3968x128_S4x32x1x128_3_2_2_3_01_01 : DotDims S4x32x1x3968 S4x32x3968x128 S4x32x1x128 where
  lhsContracting := [3]
  rhsContracting := [2]
  lhsNonContracting := [2]
  rhsNonContracting := [3]
  lhsBatch := [0, 1]
  rhsBatch := [0, 1]
  wf := dot_S4x32x1x3968_S4x32x3968x128_S4x32x1x128_3_2_2_3_01_01_wf
def dot_S4x32x1x65_S4x32x65x128_S4x32x1x128_3_2_2_3_01_01 : DotDims S4x32x1x65 S4x32x65x128 S4x32x1x128 where
  lhsContracting := [3]
  rhsContracting := [2]
  lhsNonContracting := [2]
  rhsNonContracting := [3]
  lhsBatch := [0, 1]
  rhsBatch := [0, 1]
  wf := dot_S4x32x1x65_S4x32x65x128_S4x32x1x128_3_2_2_3_01_01_wf

class Facts : Prop extends Facts₀ where

variable [Facts]
-- ==== Proof.BlockRead.lean ====
/-
  Where the kernel's blocks sit in the arrays. The grid is 4 × 16: point (b, g) takes, of every operand, batch b
  and the two heads 2g and 2g + 1 (a block of extent 1 × 2 × … on the first two axes, whole on the last two), and
  writes the output's block at the same place. Three of the operands (query, new key, new value) reach the kernel
  with their two middle axes exchanged, and the kernel's result is exchanged back.
-/
import proofs.«110720_j77506979824107_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KerAttn

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

open ValueIdx

/-- The index maps over the grid: the output's block index stays within 4 × 16 on the first two axes and is zero on
    the last two, and every input window's block index is the output's. -/
theorem idx_facts : ∀ t : Fin cfg0.N,
    (win0_11.index t (0 : Fin 4) ≤ 3 ∧ win0_11.index t (1 : Fin 4) ≤ 15 ∧ win0_11.index t (2 : Fin 4) = 0 ∧ win0_11.index t (3 : Fin 4) = 0)
    ∧ (∀ a : Fin 4, win0_0.index t a = win0_11.index t a) ∧ (∀ a : Fin 4, win0_1.index t a = win0_11.index t a)
    ∧ (∀ a : Fin 4, win0_2.index t a = win0_11.index t a) ∧ (∀ a : Fin 4, win0_3.index t a = win0_11.index t a)
    ∧ (∀ a : Fin 4, win0_4.index t a = win0_11.index t a) ∧ (∀ a : Fin 4, win0_5.index t a = win0_11.index t a)
    ∧ (∀ a : Fin 4, win0_6.index t a = win0_11.index t a) ∧ (∀ a : Fin 4, win0_7.index t a = win0_11.index t a)
    ∧ (∀ a : Fin 4, win0_8.index t a = win0_11.index t a) ∧ (∀ a : Fin 4, win0_9.index t a = win0_11.index t a)
    ∧ (∀ a : Fin 4, win0_10.index t a = win0_11.index t a) :=
  (by decide +kernel : ∀ t : Fin grid0.N, _)

/-- Every block of the 4 × 16 box is some point's. -/
theorem idx_onto : ∀ (q0 : Fin 4) (q1 : Fin 16), ∃ t : Fin cfg0.N, win0_11.index t = ![q0.val, q1.val, 0, 0] :=
  (by decide +kernel : ∀ (q0 : Fin 4) (q1 : Fin 16), ∃ t : Fin grid0.N, win0_11.index t = ![q0.val, q1.val, 0, 0])

/-- Window 0 (the query): its block at point `t` holds the array's entries at block index × block size plus the
    coordinate inside the block, axis by axis. -/
theorem iblk0_apply (c : Dev nD) (t : Fin cfg0.N) (x : S1x2x1x128.Idx) (k : S4x32x1x128.Idx)
    (h0 : (k 0).val = win0_0.index t 0 * 1 + (x 0).val) (h1 : (k 1).val = win0_0.index t 1 * 2 + (x 1).val)
    (h2 : (k 2).val = win0_0.index t 2 * 1 + (x 2).val) (h3 : (k 3).val = win0_0.index t 3 * 128 + (x 3).val) :
    (iblk m c 0 t : Vec F S1x2x1x128 .f32) x = (V m c main_v0 : S4x32x1x128.Idx → Elt F .f32) k := by
  unfold iblk
  rw [View.read_apply]
  show V m c main_v0 _ = V m c main_v0 _
  congr 1
  funext a
  apply Fin.ext
  match a with
  | ⟨0, _⟩ => show win0_0.index t 0 * 1 + 1 * (x 0).val = (k 0).val; omega
  | ⟨1, _⟩ => show win0_0.index t 1 * 2 + 1 * (x 1).val = (k 1).val; omega
  | ⟨2, _⟩ => show win0_0.index t 2 * 1 + 1 * (x 2).val = (k 2).val; omega
  | ⟨3, _⟩ => show win0_0.index t 3 * 128 + 1 * (x 3).val = (k 3).val; omega

/-- Window 1 (the new key): its block at point `t` holds the array's entries at block index × block size plus the
    coordinate inside the block, axis by axis. -/
theorem iblk1_apply (c : Dev nD) (t : Fin cfg0.N) (x : S1x2x1x128.Idx) (k : S4x32x1x128.Idx)
    (h0 : (k 0).val = win0_1.index t 0 * 1 + (x 0).val) (h1 : (k 1).val = win0_1.index t 1 * 2 + (x 1).val)
    (h2 : (k 2).val = win0_1.index t 2 * 1 + (x 2).val) (h3 : (k 3).val = win0_1.index t 3 * 128 + (x 3).val) :
    (iblk m c 1 t : Vec F S1x2x1x128 .f32) x = (V m c main_v1 : S4x32x1x128.Idx → Elt F .f32) k := by
  unfold iblk
  rw [View.read_apply]
  show V m c main_v1 _ = V m c main_v1 _
  congr 1
  funext a
  apply Fin.ext
  match a with
  | ⟨0, _⟩ => show win0_1.index t 0 * 1 + 1 * (x 0).val = (k 0).val; omega
  | ⟨1, _⟩ => show win0_1.index t 1 * 2 + 1 * (x 1).val = (k 1).val; omega
  | ⟨2, _⟩ => show win0_1.index t 2 * 1 + 1 * (x 2).val = (k 2).val; omega
  | ⟨3, _⟩ => show win0_1.index t 3 * 128 + 1 * (x 3).val = (k 3).val; omega

/-- Window 2 (the new value): its block at point `t` holds the array's entries at block index × block size plus the
    coordinate inside the block, axis by axis. -/
theorem iblk2_apply (c : Dev nD) (t : Fin cfg0.N) (x : S1x2x1x128.Idx) (k : S4x32x1x128.Idx)
    (h0 : (k 0).val = win0_2.index t 0 * 1 + (x 0).val) (h1 : (k 1).val = win0_2.index t 1 * 2 + (x 1).val)
    (h2 : (k 2).val = win0_2.index t 2 * 1 + (x 2).val) (h3 : (k 3).val = win0_2.index t 3 * 128 + (x 3).val) :
    (iblk m c 2 t : Vec F S1x2x1x128 .f32) x = (V m c main_v2 : S4x32x1x128.Idx → Elt F .f32) k := by
  unfold iblk
  rw [View.read_apply]
  show V m c main_v2 _ = V m c main_v2 _
  congr 1
  funext a
  apply Fin.ext
  match a with
  | ⟨0, _⟩ => show win0_2.index t 0 * 1 + 1 * (x 0).val = (k 0).val; omega
  | ⟨1, _⟩ => show win0_2.index t 1 * 2 + 1 * (x 1).val = (k 1).val; omega
  | ⟨2, _⟩ => show win0_2.index t 2 * 1 + 1 * (x 2).val = (k 2).val; omega
  | ⟨3, _⟩ => show win0_2.index t 3 * 128 + 1 * (x 3).val = (k 3).val; omega

/-- Window 3 (the residual keys): its block at point `t` holds the array's entries at block index × block size plus the
    coordinate inside the block, axis by axis. -/
theorem iblk3_apply (c : Dev nD) (t : Fin cfg0.N) (x : S1x2x64x128.Idx) (k : S4x32x64x128.Idx)
    (h0 : (k 0).val = win0_3.index t 0 * 1 + (x 0).val) (h1 : (k 1).val = win0_3.index t 1 * 2 + (x 1).val)
    (h2 : (k 2).val = win0_3.index t 2 * 64 + (x 2).val) (h3 : (k 3).val = win0_3.index t 3 * 128 + (x 3).val) :
    (iblk m c 3 t : Vec F S1x2x64x128 .f32) x = (V m c main_arg3 : S4x32x64x128.Idx → Elt F .f32) k := by
  unfold iblk
  rw [View.read_apply]
  show V m c main_arg3 _ = V m c main_arg3 _
  congr 1
  funext a
  apply Fin.ext
  match a with
  | ⟨0, _⟩ => show win0_3.index t 0 * 1 + 1 * (x 0).val = (k 0).val; omega
  | ⟨1, _⟩ => show win0_3.index t 1 * 2 + 1 * (x 1).val = (k 1).val; omega
  | ⟨2, _⟩ => show win0_3.index t 2 * 64 + 1 * (x 2).val = (k 2).val; omega
  | ⟨3, _⟩ => show win0_3.index t 3 * 128 + 1 * (x 3).val = (k 3).val; omega

/-- Window 4 (the residual values): its block at point `t` holds the array's entries at block index × block size plus the
    coordinate inside the block, axis by axis. -/
theorem iblk4_apply (c : Dev nD) (t : Fin cfg0.N) (x : S1x2x64x128.Idx) (k : S4x32x64x128.Idx)
    (h0 : (k 0).val = win0_4.index t 0 * 1 + (x 0).val) (h1 : (k 1).val = win0_4.index t 1 * 2 + (x 1).val)
    (h2 : (k 2).val = win0_4.index t 2 * 64 + (x 2).val) (h3 : (k 3).val = win0_4.index t 3 * 128 + (x 3).val) :
    (iblk m c 4 t : Vec F S1x2x64x128 .f32) x = (V m c main_arg4 : S4x32x64x128.Idx → Elt F .f32) k := by
  unfold iblk
  rw [View.read_apply]
  show V m c main_arg4 _ = V m c main_arg4 _
  congr 1
  funext a
  apply Fin.ext
  match a with
  | ⟨0, _⟩ => show win0_4.index t 0 * 1 + 1 * (x 0).val = (k 0).val; omega
  | ⟨1, _⟩ => show win0_4.index t 1 * 2 + 1 * (x 1).val = (k 1).val; omega
  | ⟨2, _⟩ => show win0_4.index t 2 * 64 + 1 * (x 2).val = (k 2).val; omega
  | ⟨3, _⟩ => show win0_4.index t 3 * 128 + 1 * (x 3).val = (k 3).val; omega

/-- Window 5 (the key groups' scales): its block at point `t` holds the array's entries at block index × block size plus the
    coordinate inside the block, axis by axis. -/
theorem iblk5_apply (c : Dev nD) (t : Fin cfg0.N) (x : S1x2x128x62.Idx) (k : S4x32x128x62.Idx)
    (h0 : (k 0).val = win0_5.index t 0 * 1 + (x 0).val) (h1 : (k 1).val = win0_5.index t 1 * 2 + (x 1).val)
    (h2 : (k 2).val = win0_5.index t 2 * 128 + (x 2).val) (h3 : (k 3).val = win0_5.index t 3 * 62 + (x 3).val) :
    (iblk m c 5 t : Vec F S1x2x128x62 .f32) x = (V m c main_arg5 : S4x32x128x62.Idx → Elt F .f32) k := by
  unfold iblk
  rw [View.read_apply]
  show V m c main_arg5 _ = V m c main_arg5 _
  congr 1
  funext a
  apply Fin.ext
  match a with
  | ⟨0, _⟩ => show win0_5.index t 0 * 1 + 1 * (x 0).val = (k 0).val; omega
  | ⟨1, _⟩ => show win0_5.index t 1 * 2 + 1 * (x 1).val = (k 1).val; omega
  | ⟨2, _⟩ => show win0_5.index t 2 * 128 + 1 * (x 2).val = (k 2).val; omega
  | ⟨3, _⟩ => show win0_5.index t 3 * 62 + 1 * (x 3).val = (k 3).val; omega

/-- Window 6 (the key groups' offsets): its block at point `t` holds the array's entries at block index × block size plus the
    coordinate inside the block, axis by axis. -/
theorem iblk6_apply (c : Dev nD) (t : Fin cfg0.N) (x : S1x2x128x62.Idx) (k : S4x32x128x62.Idx)
    (h0 : (k 0).val = win0_6.index t 0 * 1 + (x 0).val) (h1 : (k 1).val = win0_6.index t 1 * 2 + (x 1).val)
    (h2 : (k 2).val = win0_6.index t 2 * 128 + (x 2).val) (h3 : (k 3).val = win0_6.index t 3 * 62 + (x 3).val) :
    (iblk m c 6 t : Vec F S1x2x128x62 .f32) x = (V m c main_arg6 : S4x32x128x62.Idx → Elt F .f32) k := by
  unfold iblk
  rw [View.read_apply]
  show V m c main_arg6 _ = V m c main_arg6 _
  congr 1
  funext a
  apply Fin.ext
  match a with
  | ⟨0, _⟩ => show win0_6.index t 0 * 1 + 1 * (x 0).val = (k 0).val; omega
  | ⟨1, _⟩ => show win0_6.index t 1 * 2 + 1 * (x 1).val = (k 1).val; omega
  | ⟨2, _⟩ => show win0_6.index t 2 * 128 + 1 * (x 2).val = (k 2).val; omega
  | ⟨3, _⟩ => show win0_6.index t 3 * 62 + 1 * (x 3).val = (k 3).val; omega

/-- Window 7 (the value groups' scales): its block at point `t` holds the array's entries at block index × block size plus the
    coordinate inside the block, axis by axis. -/
theorem iblk7_apply (c : Dev nD) (t : Fin cfg0.N) (x : S1x2x3968x2.Idx) (k : S4x32x3968x2.Idx)
    (h0 : (k 0).val = win0_7.index t 0 * 1 + (x 0).val) (h1 : (k 1).val = win0_7.index t 1 * 2 + (x 1).val)
    (h2 : (k 2).val = win0_7.index t 2 * 3968 + (x 2).val) (h3 : (k 3).val = win0_7.index t 3 * 2 + (x 3).val) :
    (iblk m c 7 t : Vec F S1x2x3968x2 .f32) x = (V m c main_arg7 : S4x32x3968x2.Idx → Elt F .f32) k := by
  unfold iblk
  rw [View.read_apply]
  show V m c main_arg7 _ = V m c main_arg7 _
  congr 1
  funext a
  apply Fin.ext
  match a with
  | ⟨0, _⟩ => show win0_7.index t 0 * 1 + 1 * (x 0).val = (k 0).val; omega
  | ⟨1, _⟩ => show win0_7.index t 1 * 2 + 1 * (x 1).val = (k 1).val; omega
  | ⟨2, _⟩ => show win0_7.index t 2 * 3968 + 1 * (x 2).val = (k 2).val; omega
  | ⟨3, _⟩ => show win0_7.index t 3 * 2 + 1 * (x 3).val = (k 3).val; omega

/-- Window 8 (the value groups' offsets): its block at point `t` holds the array's entries at block index × block size plus the
    coordinate inside the block, axis by axis. -/
theorem iblk8_apply (c : Dev nD) (t : Fin cfg0.N) (x : S1x2x3968x2.Idx) (k : S4x32x3968x2.Idx)
    (h0 : (k 0).val = win0_8.index t 0 * 1 + (x 0).val) (h1 : (k 1).val = win0_8.index t 1 * 2 + (x 1).val)
    (h2 : (k 2).val = win0_8.index t 2 * 3968 + (x 2).val) (h3 : (k 3).val = win0_8.index t 3 * 2 + (x 3).val) :
    (iblk m c 8 t : Vec F S1x2x3968x2 .f32) x = (V m c main_arg8 : S4x32x3968x2.Idx → Elt F .f32) k := by
  unfold iblk
  rw [View.read_apply]
  show V m c main_arg8 _ = V m c main_arg8 _
  congr 1
  funext a
  apply Fin.ext
  match a with
  | ⟨0, _⟩ => show win0_8.index t 0 * 1 + 1 * (x 0).val = (k 0).val; omega
  | ⟨1, _⟩ => show win0_8.index t 1 * 2 + 1 * (x 1).val = (k 1).val; omega
  | ⟨2, _⟩ => show win0_8.index t 2 * 3968 + 1 * (x 2).val = (k 2).val; omega
  | ⟨3, _⟩ => show win0_8.index t 3 * 2 + 1 * (x 3).val = (k 3).val; omega

/-- Window 9 (the key codes): its block at point `t` holds the array's entries at block index × block size plus the
    coordinate inside the block, axis by axis. -/
theorem iblk9_apply (c : Dev nD) (t : Fin cfg0.N) (x : S1x2x128x3968.Idx) (k : S4x32x128x3968.Idx)
    (h0 : (k 0).val = win0_9.index t 0 * 1 + (x 0).val) (h1 : (k 1).val = win0_9.index t 1 * 2 + (x 1).val)
    (h2 : (k 2).val = win0_9.index t 2 * 128 + (x 2).val) (h3 : (k 3).val = win0_9.index t 3 * 3968 + (x 3).val) :
    (iblk m c 9 t : Vec F S1x2x128x3968 .i32) x = (V m c main_arg9 : S4x32x128x3968.Idx → Elt F .i32) k := by
  unfold iblk
  rw [View.read_apply]
  show V m c main_arg9 _ = V m c main_arg9 _
  congr 1
  funext a
  apply Fin.ext
  match a with
  | ⟨0, _⟩ => show win0_9.index t 0 * 1 + 1 * (x 0).val = (k 0).val; omega
  | ⟨1, _⟩ => show win0_9.index t 1 * 2 + 1 * (x 1).val = (k 1).val; omega
  | ⟨2, _⟩ => show win0_9.index t 2 * 128 + 1 * (x 2).val = (k 2).val; omega
  | ⟨3, _⟩ => show win0_9.index t 3 * 3968 + 1 * (x 3).val = (k 3).val; omega

/-- Window 10 (the value codes): its block at point `t` holds the array's entries at block index × block size plus the
    coordinate inside the block, axis by axis. -/
theorem iblk10_apply (c : Dev nD) (t : Fin cfg0.N) (x : S1x2x3968x128.Idx) (k : S4x32x3968x128.Idx)
    (h0 : (k 0).val = win0_10.index t 0 * 1 + (x 0).val) (h1 : (k 1).val = win0_10.index t 1 * 2 + (x 1).val)
    (h2 : (k 2).val = win0_10.index t 2 * 3968 + (x 2).val) (h3 : (k 3).val = win0_10.index t 3 * 128 + (x 3).val) :
    (iblk m c 10 t : Vec F S1x2x3968x128 .i32) x = (V m c main_arg10 : S4x32x3968x128.Idx → Elt F .i32) k := by
  unfold iblk
  rw [View.read_apply]
  show V m c main_arg10 _ = V m c main_arg10 _
  congr 1
  funext a
  apply Fin.ext
  match a with
  | ⟨0, _⟩ => show win0_10.index t 0 * 1 + 1 * (x 0).val = (k 0).val; omega
  | ⟨1, _⟩ => show win0_10.index t 1 * 2 + 1 * (x 1).val = (k 1).val; omega
  | ⟨2, _⟩ => show win0_10.index t 2 * 3968 + 1 * (x 2).val = (k 2).val; omega
  | ⟨3, _⟩ => show win0_10.index t 3 * 128 + 1 * (x 3).val = (k 3).val; omega

/-- The array window 0 reads is argument 0 with its two middle axes exchanged. -/
theorem V_main_v0 (c : Dev nD) : (V m c main_v0 : S4x32x1x128.Idx → Elt F .f32)
    = transpose S4x32x1x128 [0, 2, 1, 3] (m ((c : Thread nD τ).loc main_arg0)) transposes_S4x1x32x128_S4x32x1x128_0_2_1_3 := by
  show StableHlo.after hostOps0 (fun b => m (c, b)) (Proc.devRef .tc main_v0) = _
  after_results

theorem V_main_v0_apply (c : Dev nD) (b : Fin 4) (h : Fin 32) (d : Fin 128) :
    (V m c main_v0 : S4x32x1x128.Idx → Elt F .f32) (ix4 b h 0 d)
      = (m ((c : Thread nD τ).loc main_arg0) : S4x1x32x128.Idx → Elt F .f32) (ix4 b 0 h d) := by
  rw [V_main_v0]
  exact transpose_apply [0, 2, 1, 3] _ transposes_S4x1x32x128_S4x32x1x128_0_2_1_3 _ (ix4 b 0 h d) (fun a => match a with
    | ⟨0, _⟩ => rfl
    | ⟨1, _⟩ => rfl
    | ⟨2, _⟩ => rfl
    | ⟨3, _⟩ => rfl)

/-- The array window 1 reads is argument 1 with its two middle axes exchanged. -/
theorem V_main_v1 (c : Dev nD) : (V m c main_v1 : S4x32x1x128.Idx → Elt F .f32)
    = transpose S4x32x1x128 [0, 2, 1, 3] (m ((c : Thread nD τ).loc main_arg1)) transposes_S4x1x32x128_S4x32x1x128_0_2_1_3 := by
  show StableHlo.after hostOps0 (fun b => m (c, b)) (Proc.devRef .tc main_v1) = _
  after_results

theorem V_main_v1_apply (c : Dev nD) (b : Fin 4) (h : Fin 32) (d : Fin 128) :
    (V m c main_v1 : S4x32x1x128.Idx → Elt F .f32) (ix4 b h 0 d)
      = (m ((c : Thread nD τ).loc main_arg1) : S4x1x32x128.Idx → Elt F .f32) (ix4 b 0 h d) := by
  rw [V_main_v1]
  exact transpose_apply [0, 2, 1, 3] _ transposes_S4x1x32x128_S4x32x1x128_0_2_1_3 _ (ix4 b 0 h d) (fun a => match a with
    | ⟨0, _⟩ => rfl
    | ⟨1, _⟩ => rfl
    | ⟨2, _⟩ => rfl
    | ⟨3, _⟩ => rfl)

/-- The array window 2 reads is argument 2 with its two middle axes exchanged. -/
theorem V_main_v2 (c : Dev nD) : (V m c main_v2 : S4x32x1x128.Idx → Elt F .f32)
    = transpose S4x32x1x128 [0, 2, 1, 3] (m ((c : Thread nD τ).loc main_arg2)) transposes_S4x1x32x128_S4x32x1x128_0_2_1_3 := by
  show StableHlo.after hostOps0 (fun b => m (c, b)) (Proc.devRef .tc main_v2) = _
  after_results

theorem V_main_v2_apply (c : Dev nD) (b : Fin 4) (h : Fin 32) (d : Fin 128) :
    (V m c main_v2 : S4x32x1x128.Idx → Elt F .f32) (ix4 b h 0 d)
      = (m ((c : Thread nD τ).loc main_arg2) : S4x1x32x128.Idx → Elt F .f32) (ix4 b 0 h d) := by
  rw [V_main_v2]
  exact transpose_apply [0, 2, 1, 3] _ transposes_S4x1x32x128_S4x32x1x128_0_2_1_3 _ (ix4 b 0 h d) (fun a => match a with
    | ⟨0, _⟩ => rfl
    | ⟨1, _⟩ => rfl
    | ⟨2, _⟩ => rfl
    | ⟨3, _⟩ => rfl)

/-- The program's result is the output array with its two middle axes exchanged back. -/
theorem tail_eq (c : Dev nD) : Pipeline.afterTail₀ cfgs (dats m) 0 (V0 m) [hostOps1] c main_v4
    = transpose S4x1x32x128 [0, 2, 1, 3] ((dats m 0 c).arrAt 11 cfg0.N) transposes_S4x32x1x128_S4x1x32x128_0_2_1_3 := by
  unfold Pipeline.afterTail₀
  show StableHlo.after hostOps1 _ (Proc.devRef .tc main_v4) = _
  after_results
  exact congrArg (fun X => transpose S4x1x32x128 [0, 2, 1, 3] X transposes_S4x32x1x128_S4x1x32x128_0_2_1_3)
    (Pipeline.withArrays_arr spec0 launch0.win.arr_inj c _ _ (11 : Fin 12))

end Cert.KerAttn

end
-- ==== Proof.Spec.lean ====
/-
  Single-query attention over a group-quantized key/value cache, as ONE function per head.

  For one head, with query `q`, new key `k`, new value `v` (vectors of 128), residual keys and values
  `Kf`, `Vf` (64 rows of 128), the quantized keys `kq` (128 × 3968 integer codes, stored transposed) with
  per-group scales and offsets `ksc`, `kmn` (128 × 62: one group per 64 consecutive positions) and the
  quantized values `vq` (3968 × 128 codes) with `vsc`, `vmn` (3968 × 2: one group per 64 consecutive lanes):

    logits    L : 4033 entries — 3968 against the dequantized keys, 64 against the residual keys, 1 against the
              new key —, each a dot product with the query, scaled by the word `scale`;
    weights   w j = exp (L j − M) / ∑ₖ exp (L k − M), with M the row's maximum (taken from −∞);
    output    out d = ∑ₜ w t · (code (vq t d) · vsc t g + vmn t g) + (∑ᵣ w (3968 + r) · Vf r d + w 4032 · v d),
              g = d / 64 the lane's group.

  The two programs differ only in how the logits are taken: `logitsFactored` multiplies the query by the
  scale first and splits the dequantized key into its scaled codes and its offset, `logitsPlain` dequantizes
  the key, takes the dot product and scales the result. On real entries they agree (`Algebra`).
-/
import Idealize.ShloMosaic.PureOps.Ideal
import Idealize.ShloMosaic.Lib.ValueIdx

noncomputable section

namespace Cert.Attn

open Idealize.ShloMosaic

/-- The word of −∞, the initial value both programs take the row maximum from. -/
def negInf : EReal := Ideal.ofBits .f32 0xFF800000#32
/-- The scale word both programs multiply by (the f32 nearest 1/√128; never evaluated). -/
def scale : EReal := Ideal.ofBits .f32 0x3DB504F3#32
/-- An integer code as an extended real. -/
def code (b : BitVec 32) : EReal := ((b.toInt : ℝ) : EReal)

/-- Position of quantized key `t` in the row of logits. -/
def posQ (t : Fin 3968) : Fin 4033 := ⟨t.val, by omega⟩
/-- Position of residual key `r`. -/
def posR (r : Fin 64) : Fin 4033 := ⟨3968 + r.val, by omega⟩
/-- Position of the new key. -/
def posN : Fin 4033 := ⟨4032, by omega⟩

/-- The group of 64 consecutive positions that holds position `t`. -/
def grpT (t : Fin 3968) : Fin 62 := ⟨t.val / 64, by omega⟩
/-- The group of 64 consecutive lanes that holds lane `d`. -/
def grpD (d : Fin 128) : Fin 2 := ⟨d.val / 64, by omega⟩

/-- A row of 4033 entries from its three stretches. -/
def row (a : Fin 3968 → EReal) (b : Fin 64 → EReal) (c : EReal) (j : Fin 4033) : EReal :=
  if h : j.val < 3968 then a ⟨j.val, h⟩
  else if h2 : j.val < 4032 then b ⟨j.val - 3968, by omega⟩ else c

theorem row_posQ (a : Fin 3968 → EReal) (b : Fin 64 → EReal) (c : EReal) (t : Fin 3968) : row a b c (posQ t) = a t := by
  unfold row posQ; rw [dif_pos t.isLt]
theorem row_posR (a : Fin 3968 → EReal) (b : Fin 64 → EReal) (c : EReal) (r : Fin 64) : row a b c (posR r) = b r := by
  unfold row posR
  rw [dif_neg (by simp), dif_pos (by simp; omega)]
  congr 1; apply Fin.ext; simp
theorem row_posN (a : Fin 3968 → EReal) (b : Fin 64 → EReal) (c : EReal) : row a b c posN = c := by
  unfold row posN; rw [dif_neg (by simp), dif_neg (by simp)]

/-- The row's maximum as both programs first take it: the fold of `max` from −∞ over the row. -/
def foldMax (L : Fin 4033 → EReal) : EReal := (Finset.univ : Finset (Fin 4033)).fold max negInf L
/-- The softmax weights of a row from a given maximum `M` (both programs take `max (−∞) M` once more before subtracting):
    `exp (L j − max (−∞) M) / ∑ₖ exp (L k − max (−∞) M)`. -/
def weightM (L : Fin 4033 → EReal) (M : EReal) (j : Fin 4033) : EReal :=
  Ideal.div (Ideal.exp (L j - max negInf M)) (∑ k : Fin 4033, Ideal.exp (L k - max negInf M))
/-- The softmax weights of a row of logits. -/
def weight (L : Fin 4033 → EReal) (j : Fin 4033) : EReal := weightM L (foldMax L) j

/-- The logits from an already scaled query `qs`, the dequantized key split into scaled codes and offset. -/
def logitsScaled (qs k : Fin 128 → EReal) (Kf : Fin 64 → Fin 128 → EReal) (ksc kmn : Fin 128 → Fin 62 → EReal)
    (kq : Fin 128 → Fin 3968 → BitVec 32) : Fin 4033 → EReal :=
  row (fun t => (∑ d : Fin 128, qs d * (code (kq d t) * ksc d (grpT t))) + ∑ d : Fin 128, qs d * kmn d (grpT t))
    (fun r => ∑ d : Fin 128, qs d * Kf r d)
    (∑ d : Fin 128, qs d * k d)

/-- The logits with the query scaled first. -/
def logitsFactored (q k : Fin 128 → EReal) (Kf : Fin 64 → Fin 128 → EReal) (ksc kmn : Fin 128 → Fin 62 → EReal)
    (kq : Fin 128 → Fin 3968 → BitVec 32) : Fin 4033 → EReal :=
  logitsScaled (fun d => q d * scale) k Kf ksc kmn kq

/-- The logits with the key dequantized, the dot product taken, and the result scaled. -/
def logitsPlain (q k : Fin 128 → EReal) (Kf : Fin 64 → Fin 128 → EReal) (ksc kmn : Fin 128 → Fin 62 → EReal)
    (kq : Fin 128 → Fin 3968 → BitVec 32) : Fin 4033 → EReal := fun j =>
  row (fun t => ∑ d : Fin 128, q d * (code (kq d t) * ksc d (grpT t) + kmn d (grpT t)))
    (fun r => ∑ d : Fin 128, q d * Kf r d)
    (∑ d : Fin 128, q d * k d) j * scale

/-- The head's output at lane `d` from a row of weights `w`. -/
def outOf (w : Fin 4033 → EReal) (v : Fin 128 → EReal) (Vf : Fin 64 → Fin 128 → EReal) (vsc vmn : Fin 3968 → Fin 2 → EReal)
    (vq : Fin 3968 → Fin 128 → BitVec 32) (d : Fin 128) : EReal :=
  (∑ t : Fin 3968, w (posQ t) * (code (vq t d) * vsc t (grpD d) + vmn t (grpD d)))
    + ((∑ r : Fin 64, w (posR r) * Vf r d) + w posN * v d)

/-- The head's output at lane `d` from its row of logits. -/
def headOut (L : Fin 4033 → EReal) (v : Fin 128 → EReal) (Vf : Fin 64 → Fin 128 → EReal) (vsc vmn : Fin 3968 → Fin 2 → EReal)
    (vq : Fin 3968 → Fin 128 → BitVec 32) (d : Fin 128) : EReal :=
  outOf (weight L) v Vf vsc vmn vq d

end Cert.Attn

end
-- ==== Proof.KerDefs.lean ====
/-
  The kernel body's arithmetic for ONE head, cut into its three stretches, each as one pure term of vectors:
  the row of 4033 logits from the scaled query (`logitsVec`), the softmax of a row given its maximum
  (`softmaxVec`), and the head's output row of 128 lanes from the weights (`outVec`). The body runs the same
  three stretches for each of its two heads; the lemmas at the end say that the payloads the body stores are
  these terms (by unfolding only).
-/
import proofs.«110720_j77506979824107_2_alg».proof.Proof.Gen.KernelIdeal.Skeleton

noncomputable section

namespace Cert.KerAttn

open Idealize.ShloMosaic Idealize.SL.Sem Cert.KernelIdeal Cert.KernelIdeal.Gen

variable {F : FTy → Type} [FloatOps F]

/-- The row of logits: the scaled query `qs` against the scaled codes (a [128,3968] product, the scales repeated 64
    times along the positions), plus the query against the offsets (a [128,62] product, repeated likewise), then
    against the transposed residual keys, then the lane sum of its product with the new key; the three joined. -/
def logitsVec (qs kn : FVec F S1x128 .f32) (kf : FVec F S64x128 .f32) (ksc kmn : FVec F S128x62 .f32) (kq : IVec S128x3968 32) :
    FVec F S1x4033 .f32 :=
  have v24 : FVec F S128x3968 .f32 := sitofp .f32 kq
  have v25 : FVec F S128x62x1 .f32 := shapeCast S128x62x1 ksc shapeCasts_S128x62_S128x62x1
  have v26 : FVec F S128x62x1 .f32 := shapeCast S128x62x1 v25 shapeCasts_S128x62x1_S128x62x1
  have v27 : FVec F S128x62x64 .f32 := broadcastTo S128x62x64 v26 broadcasts_S128x62x1_S128x62x64
  have v28 : FVec F S128x3968 .f32 := shapeCast S128x3968 v27 shapeCasts_S128x62x64_S128x3968
  have v29 : FVec F S128x3968 .f32 := mulf v24 v28
  have cst_43 : FVec F S1x3968 .f32 := constant S1x3968 .f32 0x00000000#32
  have v30 : FVec F S1x3968 .f32 := matmul dot_S1x128_S128x3968_S1x3968_1_0_0_1_n_n none qs v29 cst_43
  have cst_44 : FVec F S1x62 .f32 := constant S1x62 .f32 0x00000000#32
  have v31 : FVec F S1x62 .f32 := matmul dot_S1x128_S128x62_S1x62_1_0_0_1_n_n none qs kmn cst_44
  have v32 : FVec F S1x62x1 .f32 := shapeCast S1x62x1 v31 shapeCasts_S1x62_S1x62x1
  have v33 : FVec F S1x62x1 .f32 := shapeCast S1x62x1 v32 shapeCasts_S1x62x1_S1x62x1
  have v34 : FVec F S1x62x64 .f32 := broadcastTo S1x62x64 v33 broadcasts_S1x62x1_S1x62x64
  have v35 : FVec F S1x3968 .f32 := shapeCast S1x3968 v34 shapeCasts_S1x62x64_S1x3968
  have v36 : FVec F S1x3968 .f32 := addf v30 v35
  have v37 : FVec F S128x64 .f32 := transpose S128x64 [1, 0] kf transposes_S64x128_p1_0_S128x64
  have cst_45 : FVec F S1x64 .f32 := constant S1x64 .f32 0x00000000#32
  have v38 : FVec F S1x64 .f32 := matmul dot_S1x128_S128x64_S1x64_1_0_0_1_n_n none qs v37 cst_45
  have v39 : FVec F S1x128 .f32 := mulf qs kn
  have v40 : FVec F S1 .f32 := multiReduction .add [1] S1 v39 0x00000000#32 reduces_S1x128_S1 (.inl rfl) rfl
  have v41 : FVec F S1x1 .f32 := shapeCast S1x1 v40 shapeCasts_S1_S1x1
  concatenate S1x4033 1 [⟨S1x3968, v36⟩, ⟨S1x64, v38⟩, ⟨S1x1, v41⟩] concatenates_S1x3968_S1x64_S1x1_S1x4033_d1

/-- The maximum of a row of logits, from −∞. -/
def maxVec (L : FVec F S1x4033 .f32) : FVec F S1 .f32 :=
  multiReduction .maximumf [1] S1 L 0xFF800000#32 reduces_S1x4033_S1 (.inl rfl) rfl

/-- The softmax of a row `L` given its maximum `M`: `exp (L − max (−∞) M)` over its lane sum. -/
def softmaxVec (L : FVec F S1x4033 .f32) (M : FVec F S1 .f32) : FVec F S1x4033 .f32 :=
  have cst_48 : F .f32 := Scalar.ofBits .f32 0xFF800000#32
  have v44 : FVec F S1 .f32 := broadcast S1 cst_48
  have v45 : FVec F S1 .f32 := maximumf v44 M
  have v46 : FVec F S1x1 .f32 := shapeCast S1x1 v45 shapeCasts_S1_S1x1
  have v47 : FVec F S1x4033 .f32 := broadcastTo S1x4033 v46 broadcasts_S1x1_S1x4033
  have v48 : FVec F S1x4033 .f32 := subf L v47
  have v49 : FVec F S1x4033 .f32 := exp v48
  have v50 : FVec F S1 .f32 := multiReduction .add [1] S1 v49 0x00000000#32 reduces_S1x4033_S1 (.inl rfl) rfl
  have v51 : FVec F S1x1 .f32 := shapeCast S1x1 v50 shapeCasts_S1_S1x1
  have v52 : FVec F S1x4033 .f32 := broadcastTo S1x4033 v51 broadcasts_S1x1_S1x4033
  divf v49 v52

/-- The head's output row from the weights `w`: the weights of the quantized positions against the dequantized
    values, taken in the two lane groups of 64 (codes times the group's scale plus its offset) and joined; plus the
    weights of the residual positions against the residual values; plus the new position's weight times the new
    value. -/
def outVec (w : FVec F S1x4033 .f32) (vn : FVec F S1x128 .f32) (vf : FVec F S64x128 .f32) (vsc vmn : FVec F S3968x2 .f32)
    (vq : IVec S3968x128 32) : FVec F S1x1x1x128 .f32 :=
  have v138 : FVec F S1x3968 .f32 := extractStridedSlice S1x3968 ![0, 0] w slices_S1x4033_o0_0_S1x3968
  have v139 : FVec F S1x64 .f32 := extractStridedSlice S1x64 ![0, 3968] w slices_S1x4033_o0_3968_S1x64
  have v140 : FVec F S1x1 .f32 := extractStridedSlice S1x1 ![0, 4032] w slices_S1x4033_o0_4032_S1x1
  have v141 : IVec S3968x64 32 := extractStridedSlice S3968x64 ![0, 0] vq slices_S3968x128_o0_0_S3968x64
  have v142 : FVec F S3968x64 .f32 := sitofp .f32 v141
  have v143 : IVec S3968x64 32 := extractStridedSlice S3968x64 ![0, 64] vq slices_S3968x128_o0_64_S3968x64
  have v144 : FVec F S3968x64 .f32 := sitofp .f32 v143
  have v145 : FVec F S3968x1 .f32 := extractStridedSlice S3968x1 ![0, 0] vsc slices_S3968x2_o0_0_S3968x1
  have v146 : FVec F S3968x1 .f32 := extractStridedSlice S3968x1 ![0, 1] vsc slices_S3968x2_o0_1_S3968x1
  have v147 : FVec F S3968x1 .f32 := extractStridedSlice S3968x1 ![0, 0] vmn slices_S3968x2_o0_0_S3968x1
  have v148 : FVec F S3968x1 .f32 := extractStridedSlice S3968x1 ![0, 1] vmn slices_S3968x2_o0_1_S3968x1
  have v149 : FVec F S3968x64 .f32 := broadcastTo S3968x64 v145 broadcasts_S3968x1_S3968x64
  have v150 : FVec F S3968x64 .f32 := mulf v142 v149
  have v151 : FVec F S3968x64 .f32 := broadcastTo S3968x64 v147 broadcasts_S3968x1_S3968x64
  have v152 : FVec F S3968x64 .f32 := addf v150 v151
  have v153 : FVec F S3968x64 .f32 := broadcastTo S3968x64 v146 broadcasts_S3968x1_S3968x64
  have v154 : FVec F S3968x64 .f32 := mulf v144 v153
  have v155 : FVec F S3968x64 .f32 := broadcastTo S3968x64 v148 broadcasts_S3968x1_S3968x64
  have v156 : FVec F S3968x64 .f32 := addf v154 v155
  have cst_108 : FVec F S1x64 .f32 := constant S1x64 .f32 0x00000000#32
  have v157 : FVec F S1x64 .f32 := matmul dot_S1x3968_S3968x64_S1x64_1_0_0_1_n_n none v138 v152 cst_108
  have cst_109 : FVec F S1x64 .f32 := constant S1x64 .f32 0x00000000#32
  have v158 : FVec F S1x64 .f32 := matmul dot_S1x3968_S3968x64_S1x64_1_0_0_1_n_n none v138 v156 cst_109
  have v159 : FVec F S1x128 .f32 := concatenate S1x128 1 [⟨S1x64, v157⟩, ⟨S1x64, v158⟩] concatenates_S1x64_S1x64_S1x128_d1
  have cst_110 : FVec F S1x128 .f32 := constant S1x128 .f32 0x00000000#32
  have v160 : FVec F S1x128 .f32 := matmul dot_S1x64_S64x128_S1x128_1_0_0_1_n_n none v139 vf cst_110
  have v161 : FVec F S1x128 .f32 := broadcastTo S1x128 v140 broadcasts_S1x1_S1x128
  have v162 : FVec F S1x128 .f32 := mulf v161 vn
  have v163 : FVec F S1x128 .f32 := addf v160 v162
  have v164 : FVec F S1x128 .f32 := addf v159 v163
  shapeCast S1x1x1x128 v164 shapeCasts_S1x128_S1x1x1x128

/-! ## The stored payloads are these terms -/

/-- The first head's weights. -/
theorem pay12_eq (v3 v5 : FVec F S1x128 .f32) (v9 : FVec F S64x128 .f32) (v13 v15 : FVec F S128x62 .f32) (v20 : Vec F S1x1x128x3968 .i32) :
    k0_pay12 v3 v5 v9 v13 v15 v20
      = softmaxVec (logitsVec v3 v5 v9 v13 v15 (shapeCast S128x3968 v20 shapeCasts_S1x1x128x3968_S128x3968))
          (maxVec (logitsVec v3 v5 v9 v13 v15 (shapeCast S128x3968 v20 shapeCasts_S1x1x128x3968_S128x3968))) := rfl

/-- The first head's stored row. -/
theorem pay22_eq (v7 : FVec F S1x128 .f32) (v11 : FVec F S64x128 .f32) (w : FVec F S1x4033 .f32) (v17 v19 : FVec F S3968x2 .f32)
    (v22 : Vec F S1x1x3968x128 .i32) :
    k0_pay22 v7 v11 (extractStridedSlice S1x3968 ![0, 0] w slices_S1x4033_o0_0_S1x3968)
        (extractStridedSlice S1x64 ![0, 3968] w slices_S1x4033_o0_3968_S1x64)
        (extractStridedSlice S1x1 ![0, 4032] w slices_S1x4033_o0_4032_S1x1)
        (k0_pay16 v22) (k0_pay17 v22) (k0_pay18 v17) (k0_pay19 v19) (k0_pay20 v19) (k0_pay21 v17)
      = outVec w v7 v11 v17 v19 (shapeCast S3968x128 v22 shapeCasts_S1x1x3968x128_S3968x128) := rfl

/-- The second head's logits. -/
theorem pay31_eq (v87 v89 : FVec F S1x128 .f32) (v93 : FVec F S64x128 .f32) (v96 v98 : Vec F S1x1x128x62 .f32) (v104 : Vec F S1x1x128x3968 .i32) :
    k0_pay31 v87 v89 v93 v96 v98 v104
      = logitsVec v87 v89 v93 (shapeCast S128x62 v96 shapeCasts_S1x1x128x62_S128x62) (shapeCast S128x62 v98 shapeCasts_S1x1x128x62_S128x62)
          (shapeCast S128x3968 v104 shapeCasts_S1x1x128x3968_S128x3968) := rfl

/-- Their maximum. -/
theorem pay32_eq (v87 v89 : FVec F S1x128 .f32) (v93 : FVec F S64x128 .f32) (v96 v98 : Vec F S1x1x128x62 .f32) (v104 : Vec F S1x1x128x3968 .i32) :
    k0_pay32 v87 v89 v93 v96 v98 v104 = maxVec (k0_pay31 v87 v89 v93 v96 v98 v104) := rfl

/-- The second head's stored row. -/
theorem pay1_eq (v91 : FVec F S1x128 .f32) (v95 : FVec F S64x128 .f32) (v101 v103 : FVec F S3968x2 .f32) (v107 : IVec S3968x128 32)
    (v126 : FVec F S1x4033 .f32) (v127 : FVec F S1 .f32) :
    k0_pay1 v91 v95 v101 v103 v107 v126 v127 = outVec (softmaxVec v126 v127) v91 v95 v101 v103 v107 := rfl

end Cert.KerAttn

end
-- ==== Proof.KerLogitsQuant.lean ====
/-
  The quantized stretch of the kernel's row of logits, read at a position: the scaled query against the scaled
  codes (each code times its group's scale, the scales repeated 64 times along the positions), plus the scaled
  query against the offsets (one product per group, repeated likewise).
-/
import proofs.«110720_j77506979824107_2_alg».proof.Proof.KerDefs
import proofs.«110720_j77506979824107_2_alg».proof.Proof.Spec
import Idealize.ShloMosaic.Lib.ValueLayout
import Idealize.ShloMosaic.PureOps.Ideal.Laws

noncomputable section

namespace Cert.KerAttn

open Idealize.ShloMosaic Cert.KernelIdeal Cert.KernelIdeal.Gen ValueIdx

/-- A [128,62] table repeated 64 times along the positions reads, at (d, t), the table at (d, t / 64). -/
theorem repeat128_apply {α : Type} (x : S128x62.Idx → α) (d : Fin 128) (t : Fin 3968) :
    shapeCast S128x3968 (broadcastTo S128x62x64 (shapeCast S128x62x1 (shapeCast S128x62x1 x shapeCasts_S128x62_S128x62x1)
        shapeCasts_S128x62x1_S128x62x1) broadcasts_S128x62x1_S128x62x64) shapeCasts_S128x62x64_S128x3968 (ix2 d t)
      = x (ix2 d (Cert.Attn.grpT t)) := by
  refine (shapeCast_apply _ _ (ix2 d t) (ix3 d (Cert.Attn.grpT t) (⟨t.val % 64, Nat.mod_lt _ (by omega)⟩ : Fin 64)) ?_).trans ?_
  · rw [Shape.rowMajor_val_three, Shape.rowMajor_val_two]
    show (d.val * 62 + t.val / 64) * 64 + t.val % 64 = d.val * 3968 + t.val
    omega
  refine (broadcastTo_apply _ _ _ (ix3 d (Cert.Attn.grpT t) (0 : Fin 1)) fun a => ?_).trans ?_
  · match a with
    | ⟨0, _⟩ => rfl
    | ⟨1, _⟩ => rfl
    | ⟨2, _⟩ => rfl
  rw [shapeCast_self]
  refine shapeCast_apply _ _ _ (ix2 d (Cert.Attn.grpT t)) ?_
  rw [Shape.rowMajor_val_two, Shape.rowMajor_val_three]
  show d.val * 62 + t.val / 64 = (d.val * 62 + t.val / 64) * 1 + 0
  omega

/-- A [1,62] row repeated 64 times along the positions reads, at (0, t), the row at (0, t / 64). -/
theorem repeat1_apply {α : Type} (x : S1x62.Idx → α) (t : Fin 3968) :
    shapeCast S1x3968 (broadcastTo S1x62x64 (shapeCast S1x62x1 (shapeCast S1x62x1 x shapeCasts_S1x62_S1x62x1)
        shapeCasts_S1x62x1_S1x62x1) broadcasts_S1x62x1_S1x62x64) shapeCasts_S1x62x64_S1x3968 (ix2 (0 : Fin 1) t)
      = x (ix2 (0 : Fin 1) (Cert.Attn.grpT t)) := by
  refine (shapeCast_apply _ _ (ix2 (0 : Fin 1) t) (ix3 (0 : Fin 1) (Cert.Attn.grpT t) (⟨t.val % 64, Nat.mod_lt _ (by omega)⟩ : Fin 64)) ?_).trans ?_
  · rw [Shape.rowMajor_val_three, Shape.rowMajor_val_two]
    show (0 * 62 + t.val / 64) * 64 + t.val % 64 = 0 * 3968 + t.val
    omega
  refine (broadcastTo_apply _ _ _ (ix3 (0 : Fin 1) (Cert.Attn.grpT t) (0 : Fin 1)) fun a => ?_).trans ?_
  · match a with
    | ⟨0, _⟩ => rfl
    | ⟨1, _⟩ => rfl
    | ⟨2, _⟩ => rfl
  rw [shapeCast_self]
  refine shapeCast_apply _ _ _ (ix2 (0 : Fin 1) (Cert.Attn.grpT t)) ?_
  rw [Shape.rowMajor_val_two, Shape.rowMajor_val_three]
  show 0 * 62 + t.val / 64 = (0 * 62 + t.val / 64) * 1 + 0
  omega

theorem lhs3968_0 (i : S1x3968.Idx) (q : dot_S1x128_S128x3968_S1x3968_1_0_0_1_n_n.contr.Idx) : (dot_S1x128_S128x3968_S1x3968_1_0_0_1_n_n.lhsIdx i q 0).val = (i 0).val := by
  unfold DotDims.lhsIdx
  rw [dif_neg (show ¬(0 : Fin S1x128.rank) ∈ dot_S1x128_S128x3968_S1x3968_1_0_0_1_n_n.lhsBatch by decide),
    dif_pos (show (0 : Fin S1x128.rank) ∈ dot_S1x128_S128x3968_S1x3968_1_0_0_1_n_n.lhsNonContracting by decide)]
  rfl
theorem rhs3968_1 (i : S1x3968.Idx) (q : dot_S1x128_S128x3968_S1x3968_1_0_0_1_n_n.contr.Idx) : (dot_S1x128_S128x3968_S1x3968_1_0_0_1_n_n.rhsIdx i q 1).val = (i 1).val := by
  unfold DotDims.rhsIdx
  rw [dif_neg (show ¬(1 : Fin S128x3968.rank) ∈ dot_S1x128_S128x3968_S1x3968_1_0_0_1_n_n.rhsBatch by decide),
    dif_pos (show (1 : Fin S128x3968.rank) ∈ dot_S1x128_S128x3968_S1x3968_1_0_0_1_n_n.rhsNonContracting by decide)]
  rfl

/-- The [1,128] × [128,3968] product into zero, at (0, t): the sum over the 128 lanes. -/
theorem matmul3968_apply (a : FVec Ideal S1x128 .f32) (b : FVec Ideal S128x3968 .f32) (t : Fin 3968) :
    matmul dot_S1x128_S128x3968_S1x3968_1_0_0_1_n_n none a b (constant (F := Ideal) S1x3968 .f32 0x00000000#32) (ix2 (0 : Fin 1) t)
      = ∑ d : Fin 128, a (ix2 (0 : Fin 1) d) * b (ix2 d t) := by
  simp only [matmul]
  rw [Ideal.matmul_constant_zero_apply, ← Equiv.sum_comp (contrEquiv1 dot_S1x128_S128x3968_S1x3968_1_0_0_1_n_n 128 rfl rfl).symm]
  refine Finset.sum_congr rfl fun k _ => ?_
  have hk := contrEquiv1_symm_val dot_S1x128_S128x3968_S1x3968_1_0_0_1_n_n 128 rfl rfl k
  have el : dot_S1x128_S128x3968_S1x3968_1_0_0_1_n_n.lhsIdx (ix2 (0 : Fin 1) t) ((contrEquiv1 dot_S1x128_S128x3968_S1x3968_1_0_0_1_n_n 128 rfl rfl).symm k) = ix2 (0 : Fin 1) k :=
    funext fun ax => Fin.ext (by
      match ax with
      | ⟨0, _⟩ => exact lhs3968_0 _ _
      | ⟨1, _⟩ => exact (dot_S1x128_S128x3968_S1x3968_1_0_0_1_n_n.lhsIdx_val_of_single rfl _ _).trans hk)
  have er : dot_S1x128_S128x3968_S1x3968_1_0_0_1_n_n.rhsIdx (ix2 (0 : Fin 1) t) ((contrEquiv1 dot_S1x128_S128x3968_S1x3968_1_0_0_1_n_n 128 rfl rfl).symm k) = ix2 k t :=
    funext fun ax => Fin.ext (by
      match ax with
      | ⟨0, _⟩ => exact (dot_S1x128_S128x3968_S1x3968_1_0_0_1_n_n.rhsIdx_val_of_single rfl _ _).trans hk
      | ⟨1, _⟩ => exact rhs3968_1 _ _)
  rw [el, er]

theorem lhs62_0 (i : S1x62.Idx) (q : dot_S1x128_S128x62_S1x62_1_0_0_1_n_n.contr.Idx) : (dot_S1x128_S128x62_S1x62_1_0_0_1_n_n.lhsIdx i q 0).val = (i 0).val := by
  unfold DotDims.lhsIdx
  rw [dif_neg (show ¬(0 : Fin S1x128.rank) ∈ dot_S1x128_S128x62_S1x62_1_0_0_1_n_n.lhsBatch by decide),
    dif_pos (show (0 : Fin S1x128.rank) ∈ dot_S1x128_S128x62_S1x62_1_0_0_1_n_n.lhsNonContracting by decide)]
  rfl
theorem rhs62_1 (i : S1x62.Idx) (q : dot_S1x128_S128x62_S1x62_1_0_0_1_n_n.contr.Idx) : (dot_S1x128_S128x62_S1x62_1_0_0_1_n_n.rhsIdx i q 1).val = (i 1).val := by
  unfold DotDims.rhsIdx
  rw [dif_neg (show ¬(1 : Fin S128x62.rank) ∈ dot_S1x128_S128x62_S1x62_1_0_0_1_n_n.rhsBatch by decide),
    dif_pos (show (1 : Fin S128x62.rank) ∈ dot_S1x128_S128x62_S1x62_1_0_0_1_n_n.rhsNonContracting by decide)]
  rfl

/-- The [1,128] × [128,62] product into zero, at (0, t): the sum over the 128 lanes. -/
theorem matmul62_apply (a : FVec Ideal S1x128 .f32) (b : FVec Ideal S128x62 .f32) (t : Fin 62) :
    matmul dot_S1x128_S128x62_S1x62_1_0_0_1_n_n none a b (constant (F := Ideal) S1x62 .f32 0x00000000#32) (ix2 (0 : Fin 1) t)
      = ∑ d : Fin 128, a (ix2 (0 : Fin 1) d) * b (ix2 d t) := by
  simp only [matmul]
  rw [Ideal.matmul_constant_zero_apply, ← Equiv.sum_comp (contrEquiv1 dot_S1x128_S128x62_S1x62_1_0_0_1_n_n 128 rfl rfl).symm]
  refine Finset.sum_congr rfl fun k _ => ?_
  have hk := contrEquiv1_symm_val dot_S1x128_S128x62_S1x62_1_0_0_1_n_n 128 rfl rfl k
  have el : dot_S1x128_S128x62_S1x62_1_0_0_1_n_n.lhsIdx (ix2 (0 : Fin 1) t) ((contrEquiv1 dot_S1x128_S128x62_S1x62_1_0_0_1_n_n 128 rfl rfl).symm k) = ix2 (0 : Fin 1) k :=
    funext fun ax => Fin.ext (by
      match ax with
      | ⟨0, _⟩ => exact lhs62_0 _ _
      | ⟨1, _⟩ => exact (dot_S1x128_S128x62_S1x62_1_0_0_1_n_n.lhsIdx_val_of_single rfl _ _).trans hk)
  have er : dot_S1x128_S128x62_S1x62_1_0_0_1_n_n.rhsIdx (ix2 (0 : Fin 1) t) ((contrEquiv1 dot_S1x128_S128x62_S1x62_1_0_0_1_n_n 128 rfl rfl).symm k) = ix2 k t :=
    funext fun ax => Fin.ext (by
      match ax with
      | ⟨0, _⟩ => exact (dot_S1x128_S128x62_S1x62_1_0_0_1_n_n.rhsIdx_val_of_single rfl _ _).trans hk
      | ⟨1, _⟩ => exact rhs62_1 _ _)
  rw [el, er]

end Cert.KerAttn

end
-- ==== Proof.KerLogitsResid.lean ====
/-
  The residual and the new stretch of the kernel's row of logits, read at a position: the scaled query against
  the transposed residual keys, and the lane sum of its product with the new key; and the row's maximum.
-/
import proofs.«110720_j77506979824107_2_alg».proof.Proof.KerDefs
import proofs.«110720_j77506979824107_2_alg».proof.Proof.Spec
import Idealize.ShloMosaic.Lib.ValueLayout
import Idealize.ShloMosaic.PureOps.Ideal.Laws

noncomputable section

namespace Cert.KerAttn

open Idealize.ShloMosaic Cert.KernelIdeal Cert.KernelIdeal.Gen ValueIdx

theorem lhs64_0 (i : S1x64.Idx) (q : dot_S1x128_S128x64_S1x64_1_0_0_1_n_n.contr.Idx) : (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide),
    dif_pos (show (0 : Fin S1x128.rank) ∈ dot_S1x128_S128x64_S1x64_1_0_0_1_n_n.lhsNonContracting by decide)]
  rfl
theorem rhs64_1 (i : S1x64.Idx) (q : dot_S1x128_S128x64_S1x64_1_0_0_1_n_n.contr.Idx) : (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide),
    dif_pos (show (1 : Fin S128x64.rank) ∈ dot_S1x128_S128x64_S1x64_1_0_0_1_n_n.rhsNonContracting by decide)]
  rfl

/-- The [1,128] × [128,64] product into zero, at (0, t): the sum over the 128 lanes. -/
theorem matmul64_apply (a : FVec Ideal S1x128 .f32) (b : FVec Ideal S128x64 .f32) (t : Fin 64) :
    matmul dot_S1x128_S128x64_S1x64_1_0_0_1_n_n none a b (constant (F := Ideal) S1x64 .f32 0x00000000#32) (ix2 (0 : Fin 1) t)
      = ∑ d : Fin 128, a (ix2 (0 : Fin 1) d) * b (ix2 d t) := by
  simp only [matmul]
  rw [Ideal.matmul_constant_zero_apply, ← Equiv.sum_comp (contrEquiv1 dot_S1x128_S128x64_S1x64_1_0_0_1_n_n 128 rfl rfl).symm]
  refine Finset.sum_congr rfl fun k _ => ?_
  have hk := contrEquiv1_symm_val dot_S1x128_S128x64_S1x64_1_0_0_1_n_n 128 rfl rfl k
  have el : dot_S1x128_S128x64_S1x64_1_0_0_1_n_n.lhsIdx (ix2 (0 : Fin 1) t) ((contrEquiv1 dot_S1x128_S128x64_S1x64_1_0_0_1_n_n 128 rfl rfl).symm k) = ix2 (0 : Fin 1) k :=
    funext fun ax => Fin.ext (by
      match ax with
      | ⟨0, _⟩ => exact lhs64_0 _ _
      | ⟨1, _⟩ => exact (dot_S1x128_S128x64_S1x64_1_0_0_1_n_n.lhsIdx_val_of_single rfl _ _).trans hk)
  have er : dot_S1x128_S128x64_S1x64_1_0_0_1_n_n.rhsIdx (ix2 (0 : Fin 1) t) ((contrEquiv1 dot_S1x128_S128x64_S1x64_1_0_0_1_n_n 128 rfl rfl).symm k) = ix2 k t :=
    funext fun ax => Fin.ext (by
      match ax with
      | ⟨0, _⟩ => exact (dot_S1x128_S128x64_S1x64_1_0_0_1_n_n.rhsIdx_val_of_single rfl _ _).trans hk
      | ⟨1, _⟩ => exact rhs64_1 _ _)
  rw [el, er]

/-- The scaled query against the transposed residual keys, at (0, r): the dot product with residual key r. -/
theorem resid_apply (qs : FVec Ideal S1x128 .f32) (kf : FVec Ideal S64x128 .f32) (r : Fin 64) :
    matmul dot_S1x128_S128x64_S1x64_1_0_0_1_n_n none qs (transpose S128x64 [1, 0] kf transposes_S64x128_p1_0_S128x64)
        (constant (F := Ideal) S1x64 .f32 0x00000000#32) (ix2 (0 : Fin 1) r)
      = ∑ d : Fin 128, qs (ix2 (0 : Fin 1) d) * kf (ix2 r d) := by
  rw [matmul64_apply]
  refine Finset.sum_congr rfl fun d _ => ?_
  rw [transpose_ix2_apply]

/-- The index the lane sum reads at lane k. -/
theorem lift128 (k : Fin 128) : reduces_S1x128_S1.lift (ix1 (0 : Fin 1)) k = ix2 (0 : Fin 1) k :=
  funext fun ax => Fin.ext (by
    match ax with
    | ⟨0, _⟩ => rfl
    | ⟨1, _⟩ => rfl)

/-- The lane sum of the scaled query times the new key, as a [1,1] entry. -/
theorem new_apply (qs kn : FVec Ideal S1x128 .f32) :
    shapeCast S1x1 (multiReduction (F := Ideal) .add [1] S1 (mulf qs kn) 0x00000000#32 reduces_S1x128_S1 (.inl rfl) rfl) shapeCasts_S1_S1x1
        (ix2 (0 : Fin 1) (0 : Fin 1))
      = ∑ d : Fin 128, qs (ix2 (0 : Fin 1) d) * kn (ix2 (0 : Fin 1) d) := by
  refine (shapeCast_a_1a_apply _ _ (0 : Fin 1) (0 : Fin 1)).trans ?_
  refine (Ideal.multiReduction_add_single (mulf qs kn) 0x00000000#32 reduces_S1x128_S1 (.inl rfl) rfl (ix1 (0 : Fin 1))).trans ?_
  show ∑ k : Fin 128, mulf qs kn (reduces_S1x128_S1.lift (ix1 (0 : Fin 1)) k) = _
  refine Finset.sum_congr rfl fun k _ => ?_
  rw [lift128, mulf_apply]

/-- The index the row maximum reads at position k. -/
theorem lift4033 (k : Fin 4033) : reduces_S1x4033_S1.lift (ix1 (0 : Fin 1)) k = ix2 (0 : Fin 1) k :=
  funext fun ax => Fin.ext (by
    match ax with
    | ⟨0, _⟩ => rfl
    | ⟨1, _⟩ => rfl)

/-- The maximum of a row, from −∞: the fold of max over its 4033 entries. -/
theorem maxVec_apply (L : FVec Ideal S1x4033 .f32) :
    maxVec (F := Ideal) L (ix1 (0 : Fin 1)) = Cert.Attn.foldMax (fun j => L (ix2 (0 : Fin 1) j)) := by
  unfold maxVec Cert.Attn.foldMax Cert.Attn.negInf
  refine (Ideal.multiReduction_maximumf_single L 0xFF800000#32 reduces_S1x4033_S1 (.inl rfl) rfl (ix1 (0 : Fin 1))).trans ?_
  show (Finset.univ : Finset (Fin 4033)).fold max (Ideal.ofBits .f32 0xFF800000#32) (L ∘ reduces_S1x4033_S1.lift (ix1 (0 : Fin 1))) = _
  have e : (L ∘ reduces_S1x4033_S1.lift (ix1 (0 : Fin 1))) = fun j => L (ix2 (0 : Fin 1) j) := funext fun (k : Fin 4033) => by
    show L (reduces_S1x4033_S1.lift (ix1 (0 : Fin 1)) k) = _
    rw [lift4033]
  rw [e]
  rfl

end Cert.KerAttn

end
-- ==== Proof.KerLogits.lean ====
/-
  The kernel's row of logits read at a position: its three stretches joined along the positions, each stretch
  as the dot products of the specification.
-/
import proofs.«110720_j77506979824107_2_alg».proof.Proof.KerLogitsQuant
import proofs.«110720_j77506979824107_2_alg».proof.Proof.KerLogitsResid

noncomputable section

namespace Cert.KerAttn

open Idealize.ShloMosaic Cert.KernelIdeal Cert.KernelIdeal.Gen ValueIdx

section Join
variable {α : Type} (x1 : S1x3968.Idx → α) (x2 : S1x64.Idx → α) (x3 : S1x1.Idx → α)

/-- Three rows of 3968, 64 and 1 entries joined: a position of the first stretch reads the first row. -/
theorem join_posQ (t : Fin 3968) :
    concatenate S1x4033 1 [⟨S1x3968, x1⟩, ⟨S1x64, x2⟩, ⟨S1x1, x3⟩] concatenates_S1x3968_S1x64_S1x1_S1x4033_d1
        (ix2 (0 : Fin 1) (Cert.Attn.posQ t)) = x1 (ix2 (0 : Fin 1) t) :=
  concatenate_apply_piece (t := S1x4033) (a := 1) (xs := [⟨S1x3968, x1⟩, ⟨S1x64, x2⟩, ⟨S1x1, x3⟩])
    (h := concatenates_S1x3968_S1x64_S1x1_S1x4033_d1) (j := ix2 (0 : Fin 1) (Cert.Attn.posQ t)) (k := 0) (hk := by show 0 < 3; omega)
    (s₁ := S1x3968) (x₁ := x1) (hxk := rfl) (hr := rfl) (pre := 0) (hpre := rfl) (i := ix2 (0 : Fin 1) t)
    (hi := fun b => match b with
      | ⟨0, _⟩ => fun _ => rfl
      | ⟨1, _⟩ => fun hb => absurd rfl hb)
    (ha := by show 0 + t.val = t.val; omega)

/-- A position of the second stretch reads the second row. -/
theorem join_posR (r : Fin 64) :
    concatenate S1x4033 1 [⟨S1x3968, x1⟩, ⟨S1x64, x2⟩, ⟨S1x1, x3⟩] concatenates_S1x3968_S1x64_S1x1_S1x4033_d1
        (ix2 (0 : Fin 1) (Cert.Attn.posR r)) = x2 (ix2 (0 : Fin 1) r) :=
  concatenate_apply_piece (t := S1x4033) (a := 1) (xs := [⟨S1x3968, x1⟩, ⟨S1x64, x2⟩, ⟨S1x1, x3⟩])
    (h := concatenates_S1x3968_S1x64_S1x1_S1x4033_d1) (j := ix2 (0 : Fin 1) (Cert.Attn.posR r)) (k := 1) (hk := by show 1 < 3; omega)
    (s₁ := S1x64) (x₁ := x2) (hxk := rfl) (hr := rfl) (pre := 3968) (hpre := rfl) (i := ix2 (0 : Fin 1) r)
    (hi := fun b => match b with
      | ⟨0, _⟩ => fun _ => rfl
      | ⟨1, _⟩ => fun hb => absurd rfl hb)
    (ha := by show 3968 + r.val = 3968 + r.val; rfl)

/-- The last position reads the third row. -/
theorem join_posN :
    concatenate S1x4033 1 [⟨S1x3968, x1⟩, ⟨S1x64, x2⟩, ⟨S1x1, x3⟩] concatenates_S1x3968_S1x64_S1x1_S1x4033_d1
        (ix2 (0 : Fin 1) Cert.Attn.posN) = x3 (ix2 (0 : Fin 1) (0 : Fin 1)) :=
  concatenate_apply_piece (t := S1x4033) (a := 1) (xs := [⟨S1x3968, x1⟩, ⟨S1x64, x2⟩, ⟨S1x1, x3⟩])
    (h := concatenates_S1x3968_S1x64_S1x1_S1x4033_d1) (j := ix2 (0 : Fin 1) Cert.Attn.posN) (k := 2) (hk := by show 2 < 3; omega)
    (s₁ := S1x1) (x₁ := x3) (hxk := rfl) (hr := rfl) (pre := 4032) (hpre := rfl) (i := ix2 (0 : Fin 1) (0 : Fin 1))
    (hi := fun b => match b with
      | ⟨0, _⟩ => fun _ => rfl
      | ⟨1, _⟩ => fun hb => absurd rfl hb)
    (ha := by show 4032 + 0 = 4032; rfl)

end Join

variable (qs kn : FVec Ideal S1x128 .f32) (kf : FVec Ideal S64x128 .f32) (ksc kmn : FVec Ideal S128x62 .f32) (kq : IVec S128x3968 32)

/-- At a quantized position: the scaled codes' product plus the offsets' product. -/
theorem logitsVec_posQ (t : Fin 3968) :
    logitsVec (F := Ideal) qs kn kf ksc kmn kq (ix2 (0 : Fin 1) (Cert.Attn.posQ t))
      = (∑ d : Fin 128, qs (ix2 (0 : Fin 1) d) * (Cert.Attn.code (kq (ix2 d t)) * ksc (ix2 d (Cert.Attn.grpT t))))
        + ∑ d : Fin 128, qs (ix2 (0 : Fin 1) d) * kmn (ix2 d (Cert.Attn.grpT t)) := by
  unfold logitsVec
  refine (join_posQ _ _ _ t).trans ?_
  refine (addf_apply _ _ _).trans ?_
  rw [matmul3968_apply, repeat1_apply, matmul62_apply]
  refine congrArg (· + _) (Finset.sum_congr rfl fun d _ => ?_)
  rw [mulf_apply, sitofp_apply, repeat128_apply]
  rfl

/-- At a residual position: the dot product with that residual key. -/
theorem logitsVec_posR (r : Fin 64) :
    logitsVec (F := Ideal) qs kn kf ksc kmn kq (ix2 (0 : Fin 1) (Cert.Attn.posR r))
      = ∑ d : Fin 128, qs (ix2 (0 : Fin 1) d) * kf (ix2 r d) := by
  unfold logitsVec
  refine (join_posR _ _ _ r).trans ?_
  exact resid_apply qs kf r

/-- At the new position: the dot product with the new key. -/
theorem logitsVec_posN :
    logitsVec (F := Ideal) qs kn kf ksc kmn kq (ix2 (0 : Fin 1) Cert.Attn.posN)
      = ∑ d : Fin 128, qs (ix2 (0 : Fin 1) d) * kn (ix2 (0 : Fin 1) d) := by
  unfold logitsVec
  refine (join_posN _ _ _).trans ?_
  exact new_apply qs kn

/-- The kernel's row of logits is the specification's, from the scaled query. -/
theorem logitsVec_apply (j : Fin 4033) :
    logitsVec (F := Ideal) qs kn kf ksc kmn kq (ix2 (0 : Fin 1) j)
      = Cert.Attn.logitsScaled (fun d => qs (ix2 (0 : Fin 1) d)) (fun d => kn (ix2 (0 : Fin 1) d)) (fun r d => kf (ix2 r d))
          (fun d g => ksc (ix2 d g)) (fun d g => kmn (ix2 d g)) (fun d t => kq (ix2 d t)) j := by
  unfold Cert.Attn.logitsScaled
  by_cases h1 : j.val < 3968
  · obtain ⟨t, rfl⟩ : ∃ t : Fin 3968, j = Cert.Attn.posQ t := ⟨⟨j.val, h1⟩, Fin.ext rfl⟩
    rw [Cert.Attn.row_posQ, logitsVec_posQ]
  · by_cases h2 : j.val < 4032
    · obtain ⟨r, rfl⟩ : ∃ r : Fin 64, j = Cert.Attn.posR r := ⟨⟨j.val - 3968, by omega⟩, Fin.ext (by show j.val = 3968 + (j.val - 3968); omega)⟩
      rw [Cert.Attn.row_posR, logitsVec_posR]
    · obtain rfl : j = Cert.Attn.posN := Fin.ext (by show j.val = 4032; omega)
      rw [Cert.Attn.row_posN, logitsVec_posN]

end Cert.KerAttn

end
-- ==== Proof.KerCasts.lean ====
/-
  The casts the body puts on what it loads, read at an index: each drops the two leading unit axes of a loaded
  block; the query is also multiplied by the scale word.
-/
import proofs.«110720_j77506979824107_2_alg».proof.Proof.KerDefs
import proofs.«110720_j77506979824107_2_alg».proof.Proof.Spec
import Idealize.ShloMosaic.Lib.ValueLayout

noncomputable section

namespace Cert.KerAttn

open Idealize.ShloMosaic Cert.KernelIdeal Cert.KernelIdeal.Gen ValueIdx

/-- A [1, 1, a, b] array cast to [a, b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The query, scaled -/

theorem pay2_apply (v : Vec Ideal S1x1x1x128 .f32) (d : Fin 128) :
    k0_pay2 (F := Ideal) v (ix2 (0 : Fin 1) d) = v (ix4 (0 : Fin 1) (0 : Fin 1) (0 : Fin 1) d) * Cert.Attn.scale := by
  unfold k0_pay2
  refine (mulf_apply _ _ _).trans ?_
  rw [shapeCast_11ab_ab_apply]
  rfl

theorem pay23_apply (v : Vec Ideal S1x1x1x128 .f32) (d : Fin 128) :
    k0_pay23 (F := Ideal) v (ix2 (0 : Fin 1) d) = v (ix4 (0 : Fin 1) (0 : Fin 1) (0 : Fin 1) d) * Cert.Attn.scale := by
  unfold k0_pay23
  refine (mulf_apply _ _ _).trans ?_
  rw [shapeCast_11ab_ab_apply]
  rfl

/-! ## The new key and value -/

theorem pay3_apply (v : Vec Ideal S1x1x1x128 .f32) (d : Fin 128) :
    k0_pay3 (F := Ideal) v (ix2 (0 : Fin 1) d) = v (ix4 (0 : Fin 1) (0 : Fin 1) (0 : Fin 1) d) :=
  shapeCast_11ab_ab_apply v _ _ _
theorem pay4_apply (v : Vec Ideal S1x1x1x128 .f32) (d : Fin 128) :
    k0_pay4 (F := Ideal) v (ix2 (0 : Fin 1) d) = v (ix4 (0 : Fin 1) (0 : Fin 1) (0 : Fin 1) d) :=
  shapeCast_11ab_ab_apply v _ _ _
theorem pay24_apply (v : Vec Ideal S1x1x1x128 .f32) (d : Fin 128) :
    k0_pay24 (F := Ideal) v (ix2 (0 : Fin 1) d) = v (ix4 (0 : Fin 1) (0 : Fin 1) (0 : Fin 1) d) :=
  shapeCast_11ab_ab_apply v _ _ _
theorem pay25_apply (v : Vec Ideal S1x1x1x128 .f32) (d : Fin 128) :
    k0_pay25 (F := Ideal) v (ix2 (0 : Fin 1) d) = v (ix4 (0 : Fin 1) (0 : Fin 1) (0 : Fin 1) d) :=
  shapeCast_11ab_ab_apply v _ _ _

/-! ## The residual keys and values -/

theorem pay5_apply (v : Vec Ideal S1x1x64x128 .f32) (r : Fin 64) (d : Fin 128) :
    k0_pay5 (F := Ideal) v (ix2 r d) = v (ix4 (0 : Fin 1) (0 : Fin 1) r d) :=
  shapeCast_11ab_ab_apply v _ _ _
theorem pay6_apply (v : Vec Ideal S1x1x64x128 .f32) (r : Fin 64) (d : Fin 128) :
    k0_pay6 (F := Ideal) v (ix2 r d) = v (ix4 (0 : Fin 1) (0 : Fin 1) r d) :=
  shapeCast_11ab_ab_apply v _ _ _
theorem pay26_apply (v : Vec Ideal S1x1x64x128 .f32) (r : Fin 64) (d : Fin 128) :
    k0_pay26 (F := Ideal) v (ix2 r d) = v (ix4 (0 : Fin 1) (0 : Fin 1) r d) :=
  shapeCast_11ab_ab_apply v _ _ _
theorem pay27_apply (v : Vec Ideal S1x1x64x128 .f32) (r : Fin 64) (d : Fin 128) :
    k0_pay27 (F := Ideal) v (ix2 r d) = v (ix4 (0 : Fin 1) (0 : Fin 1) r d) :=
  shapeCast_11ab_ab_apply v _ _ _

/-! ## The keys' scales and offsets -/

theorem pay7_apply (v : Vec Ideal S1x1x128x62 .f32) (d : Fin 128) (g : Fin 62) :
    k0_pay7 (F := Ideal) v (ix2 d g) = v (ix4 (0 : Fin 1) (0 : Fin 1) d g) :=
  shapeCast_11ab_ab_apply v _ _ _
theorem pay8_apply (v : Vec Ideal S1x1x128x62 .f32) (d : Fin 128) (g : Fin 62) :
    k0_pay8 (F := Ideal) v (ix2 d g) = v (ix4 (0 : Fin 1) (0 : Fin 1) d g) :=
  shapeCast_11ab_ab_apply v _ _ _
theorem cast128x62_apply (v : Vec Ideal S1x1x128x62 .f32) (d : Fin 128) (g : Fin 62) :
    shapeCast S128x62 v shapeCasts_S1x1x128x62_S128x62 (ix2 d g) = v (ix4 (0 : Fin 1) (0 : Fin 1) d g) :=
  shapeCast_11ab_ab_apply v _ _ _

/-! ## The values' scales and offsets -/

theorem pay9_apply (v : Vec Ideal S1x1x3968x2 .f32) (t : Fin 3968) (g : Fin 2) :
    k0_pay9 (F := Ideal) v (ix2 t g) = v (ix4 (0 : Fin 1) (0 : Fin 1) t g) :=
  shapeCast_11ab_ab_apply v _ _ _
theorem pay10_apply (v : Vec Ideal S1x1x3968x2 .f32) (t : Fin 3968) (g : Fin 2) :
    k0_pay10 (F := Ideal) v (ix2 t g) = v (ix4 (0 : Fin 1) (0 : Fin 1) t g) :=
  shapeCast_11ab_ab_apply v _ _ _
theorem pay28_apply (v : Vec Ideal S1x1x3968x2 .f32) (t : Fin 3968) (g : Fin 2) :
    k0_pay28 (F := Ideal) v (ix2 t g) = v (ix4 (0 : Fin 1) (0 : Fin 1) t g) :=
  shapeCast_11ab_ab_apply v _ _ _
theorem pay29_apply (v : Vec Ideal S1x1x3968x2 .f32) (t : Fin 3968) (g : Fin 2) :
    k0_pay29 (F := Ideal) v (ix2 t g) = v (ix4 (0 : Fin 1) (0 : Fin 1) t g) :=
  shapeCast_11ab_ab_apply v _ _ _

/-! ## The integer codes -/

theorem cast128x3968_apply (v : Vec Ideal S1x1x128x3968 .i32) (d : Fin 128) (t : Fin 3968) :
    shapeCast S128x3968 v shapeCasts_S1x1x128x3968_S128x3968 (ix2 d t) = v (ix4 (0 : Fin 1) (0 : Fin 1) d t) :=
  shapeCast_11ab_ab_apply v _ _ _
theorem cast3968x128_apply (v : Vec Ideal S1x1x3968x128 .i32) (t : Fin 3968) (d : Fin 128) :
    shapeCast S3968x128 v shapeCasts_S1x1x3968x128_S3968x128 (ix2 t d) = v (ix4 (0 : Fin 1) (0 : Fin 1) t d) :=
  shapeCast_11ab_ab_apply v _ _ _
theorem pay11_apply (v : Vec Ideal S1x1x3968x128 .i32) (t : Fin 3968) (d : Fin 128) :
    k0_pay11 (F := Ideal) v (ix2 t d) = v (ix4 (0 : Fin 1) (0 : Fin 1) t d) :=
  shapeCast_11ab_ab_apply v _ _ _
theorem pay30_apply (v : Vec Ideal S1x1x3968x128 .i32) (t : Fin 3968) (d : Fin 128) :
    k0_pay30 (F := Ideal) v (ix2 t d) = v (ix4 (0 : Fin 1) (0 : Fin 1) t d) :=
  shapeCast_11ab_ab_apply v _ _ _

end Cert.KerAttn

end
-- ==== Proof.KerLayout.lean ====
/-
  Two layout readings used by the softmax and the output row: a column `[a, 1]` broadcast along the lanes to `[a, b]`
  reads the column's entry of the same row, and a `[1, b]` row viewed as `[1, 1, 1, b]` reads the row's entry.
-/
import Idealize.ShloMosaic.Lib.ValueLayout
import Idealize.ShloMosaic.Lib.Pipeline.Value

namespace Cert.KerAttn

open Idealize.ShloMosaic ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row cast to `[1, 1, 1, b]` reads, at `(u, u', u'', i)`, the row at `i`. -/
theorem shapeCast_1b_111b_apply {b : ℕ} (x : (⟨2, ![1, b]⟩ : Shape).Idx → α)
    (h : (⟨2, ![1, b]⟩ : Shape).ShapeCasts ⟨4, ![1, 1, 1, b]⟩) (u u' u'' : Fin 1) (i : Fin b) :
    shapeCast ⟨4, ![1, 1, 1, b]⟩ x h (ix4 u u' u'' i) = x (ix2 (0 : Fin 1) i) :=
  shapeCast_apply x h _ _ (by
    have hu : u.val = 0 := by omega
    have hu' : u'.val = 0 := by omega
    have hu'' : u''.val = 0 := by omega
    rw [Shape.rowMajor_val_four, Shape.rowMajor_val_two]
    show 0 * b + i.val = ((u.val * 1 + u'.val) * 1 + u''.val) * b + i.val
    rw [hu, hu', hu''])

end Cert.KerAttn
-- ==== Proof.KerSoftmax.lean ====
/-
  The softmax of a row of logits given its maximum, read at an entry: the exponential of the entry less
  `max (−∞) M`, over the sum of those exponentials along the row.
-/
import proofs.«110720_j77506979824107_2_alg».proof.Proof.KerDefs
import proofs.«110720_j77506979824107_2_alg».proof.Proof.Spec
import proofs.«110720_j77506979824107_2_alg».proof.Proof.KerLayout
import Idealize.ShloMosaic.PureOps.Ideal.Laws

noncomputable section

namespace Cert.KerAttn

open Idealize.ShloMosaic Cert.KernelIdeal Cert.KernelIdeal.Gen ValueIdx

/-- The row of exponentials `exp (L − max (−∞) M)`. -/
def expVec (L : FVec Ideal S1x4033 .f32) (M : FVec Ideal S1 .f32) : FVec Ideal S1x4033 .f32 :=
  exp (subf L (broadcastTo S1x4033
    (shapeCast S1x1 (maximumf (broadcast S1 (Scalar.ofBits (F := Ideal) .f32 0xFF800000#32)) M) shapeCasts_S1_S1x1)
    broadcasts_S1x1_S1x4033))

/-- The softmax is the row of exponentials over its lane sum, broadcast back along the row. -/
theorem softmaxVec_eq (L : FVec Ideal S1x4033 .f32) (M : FVec Ideal S1 .f32) :
    softmaxVec (F := Ideal) L M
      = divf (expVec L M) (broadcastTo S1x4033
          (shapeCast S1x1 (multiReduction .add [1] S1 (expVec L M) 0x00000000#32 reduces_S1x4033_S1 (.inl rfl) rfl) shapeCasts_S1_S1x1)
          broadcasts_S1x1_S1x4033) := rfl

/-- The shift `max (−∞) M`, broadcast along the row. -/
theorem shift_apply (M : FVec Ideal S1 .f32) (j : Fin 4033) :
    broadcastTo S1x4033
        (shapeCast S1x1 (maximumf (broadcast S1 (Scalar.ofBits (F := Ideal) .f32 0xFF800000#32)) M) shapeCasts_S1_S1x1)
        broadcasts_S1x1_S1x4033 (ix2 0 j)
      = max Cert.Attn.negInf (M (ix1 0)) :=
  (broadcastTo_a1_ab_apply _ broadcasts_S1x1_S1x4033 (0 : Fin 1) j).trans
    (shapeCast_a_1a_apply _ shapeCasts_S1_S1x1 (0 : Fin 1) (0 : Fin 1))

theorem expVec_apply (L : FVec Ideal S1x4033 .f32) (M : FVec Ideal S1 .f32) (j : Fin 4033) :
    expVec L M (ix2 0 j) = Ideal.exp (L (ix2 0 j) - max Cert.Attn.negInf (M (ix1 0))) := by
  unfold expVec
  rw [show ∀ (v : FVec Ideal S1x4033 .f32) (i : S1x4033.Idx), exp v i = Ideal.exp (v i) from fun _ _ => rfl,
    subf_apply, shift_apply]

/-- The lane sum of a row: the sum of its 4033 entries. -/
theorem rowSum_apply (v : FVec Ideal S1x4033 .f32) :
    multiReduction .add [1] S1 v 0x00000000#32 reduces_S1x4033_S1 (.inl rfl) rfl (ix1 0) = ∑ k : Fin 4033, v (ix2 0 k) :=
  (Ideal.multiReduction_add_single v 0x00000000#32 reduces_S1x4033_S1 (.inl rfl) rfl (ix1 0)).trans
    (Finset.sum_congr rfl fun k _ => congrArg v (funext fun ax =>
      match ax with
      | ⟨0, _⟩ => Fin.ext rfl
      | ⟨1, _⟩ => Fin.ext rfl))

/-- The softmax at entry `j`. -/
theorem softmaxVec_apply (L : FVec Ideal S1x4033 .f32) (M : FVec Ideal S1 .f32) (j : Fin 4033) :
    softmaxVec (F := Ideal) L M (ix2 0 j) = Cert.Attn.weightM (fun j => L (ix2 0 j)) (M (ix1 0)) j := by
  rw [softmaxVec_eq, divf_apply]
  rw [show broadcastTo S1x4033
        (shapeCast S1x1 (multiReduction .add [1] S1 (expVec L M) 0x00000000#32 reduces_S1x4033_S1 (.inl rfl) rfl) shapeCasts_S1_S1x1)
        broadcasts_S1x1_S1x4033 (ix2 0 j) = ∑ k : Fin 4033, expVec L M (ix2 0 k) from
      (broadcastTo_a1_ab_apply _ broadcasts_S1x1_S1x4033 (0 : Fin 1) j).trans
        ((shapeCast_a_1a_apply _ shapeCasts_S1_S1x1 (0 : Fin 1) (0 : Fin 1)).trans (rowSum_apply _))]
  simp only [expVec_apply]
  rfl

end Cert.KerAttn

end
-- ==== Proof.KerMatmul.lean ====
/-
  Matrix products of the output row, read at an index: a one-row product into the zero accumulator is, at lane `e`,
  the sum over the contraction coordinate of the row's entry times the matrix's entry.
-/
import proofs.«110720_j77506979824107_2_alg».proof.Proof.KerDefs
import proofs.«110720_j77506979824107_2_alg».proof.Proof.Spec
import Idealize.ShloMosaic.Lib.ValueLayout
import Idealize.ShloMosaic.Lib.Pipeline.Value
import Idealize.ShloMosaic.PureOps.Ideal.Laws

noncomputable section

namespace Cert.KerAttn

open Idealize.ShloMosaic Cert.KernelIdeal Cert.KernelIdeal.Gen ValueIdx

theorem mm3968x64_lhs0 (i : S1x64.Idx) (q : dot_S1x3968_S3968x64_S1x64_1_0_0_1_n_n.contr.Idx) : (dot_S1x3968_S3968x64_S1x64_1_0_0_1_n_n.lhsIdx i q 0).val = (i 0).val := by
  unfold DotDims.lhsIdx
  rw [dif_neg (show ¬(0 : Fin S1x3968.rank) ∈ dot_S1x3968_S3968x64_S1x64_1_0_0_1_n_n.lhsBatch by decide),
    dif_pos (show (0 : Fin S1x3968.rank) ∈ dot_S1x3968_S3968x64_S1x64_1_0_0_1_n_n.lhsNonContracting by decide)]
  rfl
theorem mm3968x64_rhs1 (i : S1x64.Idx) (q : dot_S1x3968_S3968x64_S1x64_1_0_0_1_n_n.contr.Idx) : (dot_S1x3968_S3968x64_S1x64_1_0_0_1_n_n.rhsIdx i q 1).val = (i 1).val := by
  unfold DotDims.rhsIdx
  rw [dif_neg (show ¬(1 : Fin S3968x64.rank) ∈ dot_S1x3968_S3968x64_S1x64_1_0_0_1_n_n.rhsBatch by decide),
    dif_pos (show (1 : Fin S3968x64.rank) ∈ dot_S1x3968_S3968x64_S1x64_1_0_0_1_n_n.rhsNonContracting by decide)]
  rfl

/-- A [1,3968] row times a [3968,64] matrix, into zero, at lane `e`: the sum over the 3968 rows. -/
theorem mm3968x64_apply (a : FVec Ideal S1x3968 .f32) (b : FVec Ideal S3968x64 .f32) (e : Fin 64) :
    matmul dot_S1x3968_S3968x64_S1x64_1_0_0_1_n_n none a b (constant (F := Ideal) S1x64 .f32 0x00000000#32) (ix2 0 e)
      = ∑ t : Fin 3968, a (ix2 0 t) * b (ix2 t e) := by
  simp only [matmul]
  rw [Ideal.matmul_constant_zero_apply, ← Equiv.sum_comp (contrEquiv1 dot_S1x3968_S3968x64_S1x64_1_0_0_1_n_n 3968 rfl rfl).symm]
  refine Finset.sum_congr rfl fun k _ => ?_
  have hk := contrEquiv1_symm_val dot_S1x3968_S3968x64_S1x64_1_0_0_1_n_n 3968 rfl rfl k
  have el : dot_S1x3968_S3968x64_S1x64_1_0_0_1_n_n.lhsIdx (ix2 0 e) ((contrEquiv1 dot_S1x3968_S3968x64_S1x64_1_0_0_1_n_n 3968 rfl rfl).symm k) = ix2 0 k :=
    funext fun ax => Fin.ext (by
      match ax with
      | ⟨0, _⟩ => exact mm3968x64_lhs0 _ _
      | ⟨1, _⟩ => exact (dot_S1x3968_S3968x64_S1x64_1_0_0_1_n_n.lhsIdx_val_of_single rfl _ _).trans hk)
  have er : dot_S1x3968_S3968x64_S1x64_1_0_0_1_n_n.rhsIdx (ix2 0 e) ((contrEquiv1 dot_S1x3968_S3968x64_S1x64_1_0_0_1_n_n 3968 rfl rfl).symm k) = ix2 k e :=
    funext fun ax => Fin.ext (by
      match ax with
      | ⟨0, _⟩ => exact (dot_S1x3968_S3968x64_S1x64_1_0_0_1_n_n.rhsIdx_val_of_single rfl _ _).trans hk
      | ⟨1, _⟩ => exact mm3968x64_rhs1 _ _)
  rw [el, er]

theorem mm64x128_lhs0 (i : S1x128.Idx) (q : dot_S1x64_S64x128_S1x128_1_0_0_1_n_n.contr.Idx) : (dot_S1x64_S64x128_S1x128_1_0_0_1_n_n.lhsIdx i q 0).val = (i 0).val := by
  unfold DotDims.lhsIdx
  rw [dif_neg (show ¬(0 : Fin S1x64.rank) ∈ dot_S1x64_S64x128_S1x128_1_0_0_1_n_n.lhsBatch by decide),
    dif_pos (show (0 : Fin S1x64.rank) ∈ dot_S1x64_S64x128_S1x128_1_0_0_1_n_n.lhsNonContracting by decide)]
  rfl
theorem mm64x128_rhs1 (i : S1x128.Idx) (q : dot_S1x64_S64x128_S1x128_1_0_0_1_n_n.contr.Idx) : (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide),
    dif_pos (show (1 : Fin S64x128.rank) ∈ dot_S1x64_S64x128_S1x128_1_0_0_1_n_n.rhsNonContracting by decide)]
  rfl

/-- A [1,64] row times a [64,128] matrix, into zero, at lane `e`: the sum over the 64 rows. -/
theorem mm64x128_apply (a : FVec Ideal S1x64 .f32) (b : FVec Ideal S64x128 .f32) (e : Fin 128) :
    matmul dot_S1x64_S64x128_S1x128_1_0_0_1_n_n none a b (constant (F := Ideal) S1x128 .f32 0x00000000#32) (ix2 0 e)
      = ∑ t : Fin 64, a (ix2 0 t) * b (ix2 t e) := by
  simp only [matmul]
  rw [Ideal.matmul_constant_zero_apply, ← Equiv.sum_comp (contrEquiv1 dot_S1x64_S64x128_S1x128_1_0_0_1_n_n 64 rfl rfl).symm]
  refine Finset.sum_congr rfl fun k _ => ?_
  have hk := contrEquiv1_symm_val dot_S1x64_S64x128_S1x128_1_0_0_1_n_n 64 rfl rfl k
  have el : dot_S1x64_S64x128_S1x128_1_0_0_1_n_n.lhsIdx (ix2 0 e) ((contrEquiv1 dot_S1x64_S64x128_S1x128_1_0_0_1_n_n 64 rfl rfl).symm k) = ix2 0 k :=
    funext fun ax => Fin.ext (by
      match ax with
      | ⟨0, _⟩ => exact mm64x128_lhs0 _ _
      | ⟨1, _⟩ => exact (dot_S1x64_S64x128_S1x128_1_0_0_1_n_n.lhsIdx_val_of_single rfl _ _).trans hk)
  have er : dot_S1x64_S64x128_S1x128_1_0_0_1_n_n.rhsIdx (ix2 0 e) ((contrEquiv1 dot_S1x64_S64x128_S1x128_1_0_0_1_n_n 64 rfl rfl).symm k) = ix2 k e :=
    funext fun ax => Fin.ext (by
      match ax with
      | ⟨0, _⟩ => exact (dot_S1x64_S64x128_S1x128_1_0_0_1_n_n.rhsIdx_val_of_single rfl _ _).trans hk
      | ⟨1, _⟩ => exact mm64x128_rhs1 _ _)
  rw [el, er]

end Cert.KerAttn

end
-- ==== Proof.KerOutQuant.lean ====
/-
  The quantized stretch of the output row: the weights of the 3968 quantized positions against the dequantized
  values, taken in the two lane groups of 64 and joined. At lane `d` it is the sum over the positions of the weight
  times (code · the group's scale + the group's offset), the group being `d / 64`.
-/
import proofs.«110720_j77506979824107_2_alg».proof.Proof.KerMatmul
import proofs.«110720_j77506979824107_2_alg».proof.Proof.KerLayout

noncomputable section

namespace Cert.KerAttn

open Idealize.ShloMosaic Cert.KernelIdeal Cert.KernelIdeal.Gen ValueIdx

/-- The dequantized values of lanes 0–63: the codes converted, times the scale column of group 0, plus its offset column. -/
def deq0 (vsc vmn : FVec Ideal S3968x2 .f32) (vq : IVec S3968x128 32) : FVec Ideal S3968x64 .f32 :=
  addf (mulf (sitofp .f32 (extractStridedSlice S3968x64 ![0, 0] vq slices_S3968x128_o0_0_S3968x64))
      (broadcastTo S3968x64 (extractStridedSlice S3968x1 ![0, 0] vsc slices_S3968x2_o0_0_S3968x1) broadcasts_S3968x1_S3968x64))
    (broadcastTo S3968x64 (extractStridedSlice S3968x1 ![0, 0] vmn slices_S3968x2_o0_0_S3968x1) broadcasts_S3968x1_S3968x64)

/-- The dequantized values of lanes 64–127, with the columns of group 1. -/
def deq1 (vsc vmn : FVec Ideal S3968x2 .f32) (vq : IVec S3968x128 32) : FVec Ideal S3968x64 .f32 :=
  addf (mulf (sitofp .f32 (extractStridedSlice S3968x64 ![0, 64] vq slices_S3968x128_o0_64_S3968x64))
      (broadcastTo S3968x64 (extractStridedSlice S3968x1 ![0, 1] vsc slices_S3968x2_o0_1_S3968x1) broadcasts_S3968x1_S3968x64))
    (broadcastTo S3968x64 (extractStridedSlice S3968x1 ![0, 1] vmn slices_S3968x2_o0_1_S3968x1) broadcasts_S3968x1_S3968x64)

/-- The quantized stretch of the output row. -/
def quantVec (w : FVec Ideal S1x4033 .f32) (vsc vmn : FVec Ideal S3968x2 .f32) (vq : IVec S3968x128 32) : FVec Ideal S1x128 .f32 :=
  concatenate S1x128 1
    [⟨S1x64, matmul dot_S1x3968_S3968x64_S1x64_1_0_0_1_n_n none (extractStridedSlice S1x3968 ![0, 0] w slices_S1x4033_o0_0_S1x3968)
        (deq0 vsc vmn vq) (constant S1x64 .f32 0x00000000#32)⟩,
     ⟨S1x64, matmul dot_S1x3968_S3968x64_S1x64_1_0_0_1_n_n none (extractStridedSlice S1x3968 ![0, 0] w slices_S1x4033_o0_0_S1x3968)
        (deq1 vsc vmn vq) (constant S1x64 .f32 0x00000000#32)⟩]
    concatenates_S1x64_S1x64_S1x128_d1

theorem deq0_apply (vsc vmn : FVec Ideal S3968x2 .f32) (vq : IVec S3968x128 32) (t : Fin 3968) (e : Fin 64) :
    deq0 vsc vmn vq (ix2 t e)
      = Cert.Attn.code (vq (ix2 t (⟨e.val, by omega⟩ : Fin 128))) * vsc (ix2 t (0 : Fin 2)) + vmn (ix2 t (0 : Fin 2)) := by
  unfold deq0
  rw [addf_apply, mulf_apply, sitofp_apply]
  rw [show broadcastTo S3968x64 (extractStridedSlice S3968x1 ![0, 0] vsc slices_S3968x2_o0_0_S3968x1) broadcasts_S3968x1_S3968x64 (ix2 t e)
        = vsc (ix2 t (0 : Fin 2)) from
      (broadcastTo_a1_ab_apply _ broadcasts_S3968x1_S3968x64 t e).trans
        (slice2_axis1_apply 0 vsc slices_S3968x2_o0_0_S3968x1 t (0 : Fin 1) (0 : Fin 2) rfl)]
  rw [show broadcastTo S3968x64 (extractStridedSlice S3968x1 ![0, 0] vmn slices_S3968x2_o0_0_S3968x1) broadcasts_S3968x1_S3968x64 (ix2 t e)
        = vmn (ix2 t (0 : Fin 2)) from
      (broadcastTo_a1_ab_apply _ broadcasts_S3968x1_S3968x64 t e).trans
        (slice2_axis1_apply 0 vmn slices_S3968x2_o0_0_S3968x1 t (0 : Fin 1) (0 : Fin 2) rfl)]
  rw [slice2_axis1_apply 0 vq slices_S3968x128_o0_0_S3968x64 t e (⟨e.val, by omega⟩ : Fin 128) (Nat.zero_add _).symm]
  rfl

theorem deq1_apply (vsc vmn : FVec Ideal S3968x2 .f32) (vq : IVec S3968x128 32) (t : Fin 3968) (e : Fin 64) :
    deq1 vsc vmn vq (ix2 t e)
      = Cert.Attn.code (vq (ix2 t (⟨64 + e.val, by omega⟩ : Fin 128))) * vsc (ix2 t (1 : Fin 2)) + vmn (ix2 t (1 : Fin 2)) := by
  unfold deq1
  rw [addf_apply, mulf_apply, sitofp_apply]
  rw [show broadcastTo S3968x64 (extractStridedSlice S3968x1 ![0, 1] vsc slices_S3968x2_o0_1_S3968x1) broadcasts_S3968x1_S3968x64 (ix2 t e)
        = vsc (ix2 t (1 : Fin 2)) from
      (broadcastTo_a1_ab_apply _ broadcasts_S3968x1_S3968x64 t e).trans
        (slice2_axis1_apply 1 vsc slices_S3968x2_o0_1_S3968x1 t (0 : Fin 1) (1 : Fin 2) rfl)]
  rw [show broadcastTo S3968x64 (extractStridedSlice S3968x1 ![0, 1] vmn slices_S3968x2_o0_1_S3968x1) broadcasts_S3968x1_S3968x64 (ix2 t e)
        = vmn (ix2 t (1 : Fin 2)) from
      (broadcastTo_a1_ab_apply _ broadcasts_S3968x1_S3968x64 t e).trans
        (slice2_axis1_apply 1 vmn slices_S3968x2_o0_1_S3968x1 t (0 : Fin 1) (1 : Fin 2) rfl)]
  rw [slice2_axis1_apply 64 vq slices_S3968x128_o0_64_S3968x64 t e (⟨64 + e.val, by omega⟩ : Fin 128) rfl]
  rfl

/-- The slice of the weights over the quantized positions. -/
theorem sliceQ_apply (w : FVec Ideal S1x4033 .f32) (t : Fin 3968) :
    extractStridedSlice S1x3968 ![0, 0] w slices_S1x4033_o0_0_S1x3968 (ix2 0 t) = w (ix2 0 (Cert.Attn.posQ t)) :=
  slice2_axis1_apply 0 w slices_S1x4033_o0_0_S1x3968 (0 : Fin 1) t (Cert.Attn.posQ t) (Nat.zero_add _).symm

/-- The quantized stretch at lane `d`. -/
theorem quantVec_apply (w : FVec Ideal S1x4033 .f32) (vsc vmn : FVec Ideal S3968x2 .f32) (vq : IVec S3968x128 32) (d : Fin 128) :
    quantVec w vsc vmn vq (ix2 0 d)
      = ∑ t : Fin 3968, w (ix2 0 (Cert.Attn.posQ t))
          * (Cert.Attn.code (vq (ix2 t d)) * vsc (ix2 t (Cert.Attn.grpD d)) + vmn (ix2 t (Cert.Attn.grpD d))) := by
  unfold quantVec
  by_cases hd : d.val < 64
  · have hg : Cert.Attn.grpD d = (0 : Fin 2) := Fin.ext (by show d.val / 64 = 0; omega)
    refine (concatenate_pair_apply_left (1 : Fin S1x128.rank) _ _ concatenates_S1x64_S1x64_S1x128_d1 (ix2 0 d) rfl
      (ix2 0 (⟨d.val, hd⟩ : Fin 64)) (fun b => by
        match b with
        | ⟨0, _⟩ => rfl
        | ⟨1, _⟩ => rfl)).trans ?_
    rw [mm3968x64_apply, hg]
    refine Finset.sum_congr rfl fun t _ => ?_
    rw [sliceQ_apply, deq0_apply]
  · have hg : Cert.Attn.grpD d = (1 : Fin 2) := Fin.ext (by show d.val / 64 = 1; have := d.isLt; omega)
    refine (concatenate_pair_apply_right (1 : Fin S1x128.rank) _ _ concatenates_S1x64_S1x64_S1x128_d1 (ix2 0 d) rfl rfl
      (ix2 0 (⟨d.val - 64, by have := d.isLt; omega⟩ : Fin 64)) (fun b hb => by
        match b with
        | ⟨0, _⟩ => rfl
        | ⟨1, _⟩ => exact absurd rfl hb) (by show d.val - 64 + 64 = d.val; omega)).trans ?_
    rw [mm3968x64_apply, hg]
    refine Finset.sum_congr rfl fun t _ => ?_
    rw [sliceQ_apply, deq1_apply]
    have e : (⟨64 + (⟨d.val - 64, by have := d.isLt; omega⟩ : Fin 64).val, by have := d.isLt; omega⟩ : Fin 128) = d :=
      Fin.ext (by show 64 + (d.val - 64) = d.val; omega)
    rw [e]

end Cert.KerAttn

end
-- ==== Proof.KerOutResid.lean ====
/-
  The residual stretch of the output row: the weights of the 64 residual positions against the residual values, plus
  the new position's weight times the new value. At lane `d`: ∑ᵣ w (3968 + r) · Vf r d + w 4032 · v d.
-/
import proofs.«110720_j77506979824107_2_alg».proof.Proof.KerMatmul
import proofs.«110720_j77506979824107_2_alg».proof.Proof.KerLayout

noncomputable section

namespace Cert.KerAttn

open Idealize.ShloMosaic Cert.KernelIdeal Cert.KernelIdeal.Gen ValueIdx

/-- The residual stretch of the output row. -/
def residVec (w : FVec Ideal S1x4033 .f32) (vn : FVec Ideal S1x128 .f32) (vf : FVec Ideal S64x128 .f32) : FVec Ideal S1x128 .f32 :=
  addf (matmul dot_S1x64_S64x128_S1x128_1_0_0_1_n_n none (extractStridedSlice S1x64 ![0, 3968] w slices_S1x4033_o0_3968_S1x64) vf
      (constant S1x128 .f32 0x00000000#32))
    (mulf (broadcastTo S1x128 (extractStridedSlice S1x1 ![0, 4032] w slices_S1x4033_o0_4032_S1x1) broadcasts_S1x1_S1x128) vn)

/-- The slice of the weights over the residual positions. -/
theorem sliceR_apply (w : FVec Ideal S1x4033 .f32) (r : Fin 64) :
    extractStridedSlice S1x64 ![0, 3968] w slices_S1x4033_o0_3968_S1x64 (ix2 0 r) = w (ix2 0 (Cert.Attn.posR r)) :=
  slice2_axis1_apply 3968 w slices_S1x4033_o0_3968_S1x64 (0 : Fin 1) r (Cert.Attn.posR r) rfl

/-- The new position's weight, broadcast along the lanes. -/
theorem sliceN_apply (w : FVec Ideal S1x4033 .f32) (d : Fin 128) :
    broadcastTo S1x128 (extractStridedSlice S1x1 ![0, 4032] w slices_S1x4033_o0_4032_S1x1) broadcasts_S1x1_S1x128 (ix2 0 d)
      = w (ix2 0 Cert.Attn.posN) :=
  (broadcastTo_a1_ab_apply _ broadcasts_S1x1_S1x128 (0 : Fin 1) d).trans
    (slice2_axis1_apply 4032 w slices_S1x4033_o0_4032_S1x1 (0 : Fin 1) (0 : Fin 1) Cert.Attn.posN rfl)

/-- The residual stretch at lane `d`. -/
theorem residVec_apply (w : FVec Ideal S1x4033 .f32) (vn : FVec Ideal S1x128 .f32) (vf : FVec Ideal S64x128 .f32) (d : Fin 128) :
    residVec w vn vf (ix2 0 d)
      = (∑ r : Fin 64, w (ix2 0 (Cert.Attn.posR r)) * vf (ix2 r d)) + w (ix2 0 Cert.Attn.posN) * vn (ix2 0 d) := by
  unfold residVec
  rw [addf_apply, mulf_apply, mm64x128_apply, sliceN_apply]
  refine congrArg (· + _) (Finset.sum_congr rfl fun r _ => ?_)
  rw [sliceR_apply]

end Cert.KerAttn

end
-- ==== Proof.KerOut.lean ====
/-
  The head's output row at a lane: the quantized stretch plus the residual stretch, viewed as `[1, 1, 1, 128]`, is the
  output function of the weights read along their row.
-/
import proofs.«110720_j77506979824107_2_alg».proof.Proof.KerOutQuant
import proofs.«110720_j77506979824107_2_alg».proof.Proof.KerOutResid

noncomputable section

namespace Cert.KerAttn

open Idealize.ShloMosaic Cert.KernelIdeal Cert.KernelIdeal.Gen ValueIdx

/-- The output row is the sum of its two stretches, recast. -/
theorem outVec_eq (w : FVec Ideal S1x4033 .f32) (vn : FVec Ideal S1x128 .f32) (vf : FVec Ideal S64x128 .f32)
    (vsc vmn : FVec Ideal S3968x2 .f32) (vq : IVec S3968x128 32) :
    outVec (F := Ideal) w vn vf vsc vmn vq
      = shapeCast S1x1x1x128 (addf (quantVec w vsc vmn vq) (residVec w vn vf)) shapeCasts_S1x128_S1x1x1x128 := rfl

/-- The head's output row at lane `d`. -/
theorem outVec_apply (w : FVec Ideal S1x4033 .f32) (vn : FVec Ideal S1x128 .f32) (vf : FVec Ideal S64x128 .f32)
    (vsc vmn : FVec Ideal S3968x2 .f32) (vq : IVec S3968x128 32) (d : Fin 128) :
    outVec (F := Ideal) w vn vf vsc vmn vq (ix4 0 0 0 d)
      = Cert.Attn.outOf (fun j => w (ix2 0 j)) (fun d => vn (ix2 0 d)) (fun r d => vf (ix2 r d)) (fun t g => vsc (ix2 t g))
          (fun t g => vmn (ix2 t g)) (fun t d => vq (ix2 t d)) d := by
  rw [outVec_eq]
  refine (shapeCast_1b_111b_apply _ shapeCasts_S1x128_S1x1x1x128 0 0 0 d).trans ?_
  rw [addf_apply, quantVec_apply, residVec_apply]
  rfl

end Cert.KerAttn

end
-- ==== Proof.HeadValue.lean ====
/-
  One head of the kernel body, end to end: from the eleven vectors the body loads for the head (query, new key,
  new value, residual keys and values, the key groups' scales and offsets, the value groups' scales and offsets, the
  key and value codes) to lane `d` of the row it stores — the specification's `headOut` of `logitsFactored`.
  Both heads of a block run the same arithmetic; the body's text orders it differently for the second head, so
  there is one statement per head. Each is the chain: the stored row is `outVec` of the weights; the weights are
  `softmaxVec` of the logits and their maximum; the logits are `logitsVec` of the scaled query; and each of the
  three, read at an index, is the specification's term.
-/
import proofs.«110720_j77506979824107_2_alg».proof.Proof.Spec
import proofs.«110720_j77506979824107_2_alg».proof.Proof.KerDefs
import proofs.«110720_j77506979824107_2_alg».proof.Proof.KerLogits
import proofs.«110720_j77506979824107_2_alg».proof.Proof.KerCasts
import proofs.«110720_j77506979824107_2_alg».proof.Proof.KerSoftmax
import proofs.«110720_j77506979824107_2_alg».proof.Proof.KerOut
import Idealize.ShloMosaic.Lib.ValueIdx

noncomputable section

namespace Cert.KerAttn

open Idealize.ShloMosaic Idealize.SL.Sem Cert.KernelIdeal Cert.KernelIdeal.Gen ValueIdx

/-- One head's output lane from the vectors the body loads for it. -/
def headSpec (v0 v4 v6 : Vec Ideal S1x1x1x128 .f32) (v8 v10 : Vec Ideal S1x1x64x128 .f32) (v12 v14 : Vec Ideal S1x1x128x62 .f32)
    (v16 v18 : Vec Ideal S1x1x3968x2 .f32) (v20 : Vec Ideal S1x1x128x3968 .i32) (v22 : Vec Ideal S1x1x3968x128 .i32) (d : Fin 128) : EReal :=
  Cert.Attn.headOut
    (Cert.Attn.logitsFactored (fun d => v0 (ix4 0 0 0 d)) (fun d => v4 (ix4 0 0 0 d)) (fun r d => v8 (ix4 0 0 r d))
      (fun d g => v12 (ix4 0 0 d g)) (fun d g => v14 (ix4 0 0 d g)) (fun d t => v20 (ix4 0 0 d t)))
    (fun d => v6 (ix4 0 0 0 d)) (fun r d => v10 (ix4 0 0 r d)) (fun t g => v16 (ix4 0 0 t g)) (fun t g => v18 (ix4 0 0 t g))
    (fun t d => v22 (ix4 0 0 t d)) d

/-- The first head's stored row. -/
theorem head0_value (v0 v4 v6 : Vec Ideal S1x1x1x128 .f32) (v8 v10 : Vec Ideal S1x1x64x128 .f32) (v12 v14 : Vec Ideal S1x1x128x62 .f32)
    (v16 v18 : Vec Ideal S1x1x3968x2 .f32) (v20 : Vec Ideal S1x1x128x3968 .i32) (v22 : Vec Ideal S1x1x3968x128 .i32) (d : Fin 128) :
    k0_pay22 (F := Ideal) (k0_pay4 v6) (k0_pay6 v10)
        (k0_pay13 (k0_pay2 v0) (k0_pay3 v4) (k0_pay5 v8) (k0_pay7 v12) (k0_pay8 v14) v20)
        (k0_pay14 (k0_pay2 v0) (k0_pay3 v4) (k0_pay5 v8) (k0_pay7 v12) (k0_pay8 v14) v20)
        (k0_pay15 (k0_pay2 v0) (k0_pay3 v4) (k0_pay5 v8) (k0_pay7 v12) (k0_pay8 v14) v20)
        (k0_pay16 v22) (k0_pay17 v22) (k0_pay18 (k0_pay9 v16)) (k0_pay19 (k0_pay10 v18)) (k0_pay20 (k0_pay10 v18)) (k0_pay21 (k0_pay9 v16))
        (ix4 0 0 0 d)
      = headSpec v0 v4 v6 v8 v10 v12 v14 v16 v18 v20 v22 d := by
  have e := pay22_eq (F := Ideal) (k0_pay4 v6) (k0_pay6 v10) (k0_pay12 (k0_pay2 v0) (k0_pay3 v4) (k0_pay5 v8) (k0_pay7 v12) (k0_pay8 v14) v20) (k0_pay9 v16) (k0_pay10 v18) v22
  refine (congrFun e (ix4 0 0 0 d)).trans ?_
  rw [outVec_apply]
  unfold headSpec Cert.Attn.headOut
  simp only [pay12_eq, softmaxVec_apply, maxVec_apply, logitsVec_apply, pay2_apply, pay3_apply, pay4_apply, pay5_apply, pay6_apply, pay7_apply, pay8_apply, pay9_apply, pay10_apply, cast128x3968_apply, cast3968x128_apply]
  have h20 : ∀ (d : Fin 128) (t : Fin 3968), shapeCast S128x3968 v20 shapeCasts_S1x1x128x3968_S128x3968 (ix2 d t) = v20 (ix4 0 0 d t) := cast128x3968_apply v20
  have h22 : ∀ (t : Fin 3968) (d : Fin 128), shapeCast S3968x128 v22 shapeCasts_S1x1x3968x128_S3968x128 (ix2 t d) = v22 (ix4 0 0 t d) := cast3968x128_apply v22
  simp only [h20, h22]
  rfl

/-- The second head's stored row. -/
theorem head1_value (v0 v4 v6 : Vec Ideal S1x1x1x128 .f32) (v8 v10 : Vec Ideal S1x1x64x128 .f32) (v12 v14 : Vec Ideal S1x1x128x62 .f32)
    (v16 v18 : Vec Ideal S1x1x3968x2 .f32) (v20 : Vec Ideal S1x1x128x3968 .i32) (v22 : Vec Ideal S1x1x3968x128 .i32) (d : Fin 128) :
    k0_pay1 (F := Ideal) (k0_pay25 v6) (k0_pay27 v10) (k0_pay28 v16) (k0_pay29 v18) (k0_pay30 v22)
        (k0_pay31 (k0_pay23 v0) (k0_pay24 v4) (k0_pay26 v8) v12 v14 v20)
        (k0_pay32 (k0_pay23 v0) (k0_pay24 v4) (k0_pay26 v8) v12 v14 v20)
        (ix4 0 0 0 d)
      = headSpec v0 v4 v6 v8 v10 v12 v14 v16 v18 v20 v22 d := by
  rw [pay1_eq, outVec_apply]
  unfold headSpec Cert.Attn.headOut
  simp only [softmaxVec_apply, pay32_eq, maxVec_apply, pay31_eq, logitsVec_apply, pay23_apply, pay24_apply, pay25_apply, pay26_apply, pay27_apply, pay28_apply, pay29_apply, pay30_apply, cast128x62_apply, cast128x3968_apply]
  have h20 : ∀ (d : Fin 128) (t : Fin 3968), shapeCast S128x3968 v20 shapeCasts_S1x1x128x3968_S128x3968 (ix2 d t) = v20 (ix4 0 0 d t) := cast128x3968_apply v20
  have h12 : ∀ (d : Fin 128) (g : Fin 62), shapeCast S128x62 v12 shapeCasts_S1x1x128x62_S128x62 (ix2 d g) = v12 (ix4 0 0 d g) := cast128x62_apply v12
  have h14 : ∀ (d : Fin 128) (g : Fin 62), shapeCast S128x62 v14 shapeCasts_S1x1x128x62_S128x62 (ix2 d g) = v14 (ix4 0 0 d g) := cast128x62_apply v14
  simp only [h20, h12, h14]
  rfl

end Cert.KerAttn

end
-- ==== Proof.BlockValue.lean ====
/-
  What the body leaves in the output block: the block has two rows (the point's two heads); row `i`, lane `d` is
  the specification's head output of row `i` of every input block. The body stores the two rows separately, each from
  the vectors it loaded through the rectangle of that head.
-/
import proofs.«110720_j77506979824107_2_alg».proof.Proof.Gen.KernelIdeal.Frame
import Idealize.ShloMosaic.Lib.Pipeline.Value
import Idealize.ShloMosaic.Lib.ValueIdx
import proofs.«110720_j77506979824107_2_alg».proof.Proof.HeadValue

set_option maxRecDepth 16384

noncomputable section

namespace Cert.KerAttn

open Idealize.ShloMosaic Idealize.ShloMosaic.TcCoe Idealize.SL.Sem Cert.KernelIdeal Cert.KernelIdeal.Gen

open ValueIdx

/-! ## The rectangles the body loads and stores through: head `i` of a block, whole on the last two axes -/

theorem r0_0_idx (p : Fin 1) (q : Fin 128) : r0_0.idx (ix4 0 0 p q : S1x1x1x128.Idx) = (ix4 0 0 p q : S1x2x1x128.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_1_idx (p : Fin 64) (q : Fin 128) : r0_1.idx (ix4 0 0 p q : S1x1x64x128.Idx) = (ix4 0 0 p q : S1x2x64x128.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_2_idx (p : Fin 128) (q : Fin 62) : r0_2.idx (ix4 0 0 p q : S1x1x128x62.Idx) = (ix4 0 0 p q : S1x2x128x62.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_3_idx (p : Fin 3968) (q : Fin 2) : r0_3.idx (ix4 0 0 p q : S1x1x3968x2.Idx) = (ix4 0 0 p q : S1x2x3968x2.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_4_idx (p : Fin 128) (q : Fin 3968) : r0_4.idx (ix4 0 0 p q : S1x1x128x3968.Idx) = (ix4 0 0 p q : S1x2x128x3968.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_5_idx (p : Fin 3968) (q : Fin 128) : r0_5.idx (ix4 0 0 p q : S1x1x3968x128.Idx) = (ix4 0 0 p q : S1x2x3968x128.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_6_idx (p : Fin 1) (q : Fin 128) : r0_6.idx (ix4 0 0 p q : S1x1x1x128.Idx) = (ix4 0 1 p q : S1x2x1x128.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_7_idx (p : Fin 64) (q : Fin 128) : r0_7.idx (ix4 0 0 p q : S1x1x64x128.Idx) = (ix4 0 1 p q : S1x2x64x128.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_8_idx (p : Fin 128) (q : Fin 62) : r0_8.idx (ix4 0 0 p q : S1x1x128x62.Idx) = (ix4 0 1 p q : S1x2x128x62.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_9_idx (p : Fin 3968) (q : Fin 2) : r0_9.idx (ix4 0 0 p q : S1x1x3968x2.Idx) = (ix4 0 1 p q : S1x2x3968x2.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_10_idx (p : Fin 128) (q : Fin 3968) : r0_10.idx (ix4 0 0 p q : S1x1x128x3968.Idx) = (ix4 0 1 p q : S1x2x128x3968.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem r0_11_idx (p : Fin 3968) (q : Fin 128) : r0_11.idx (ix4 0 0 p q : S1x1x3968x128.Idx) = (ix4 0 1 p q : S1x2x3968x128.Idx) := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

/-- An index of a one-head vector is (0, 0, 0, lane). -/
theorem eq_lane (x : S1x1x1x128.Idx) : x = ix4 0 0 0 (x 3) := by
  have h0 : (x 0).val < 1 := (x 0).isLt
  have h1 : (x 1).val < 1 := (x 1).isLt
  have h2 : (x 2).val < 1 := (x 2).isLt
  funext a; apply Fin.ext
  match a with
  | ⟨0, _⟩ => show (x 0).val = 0; omega
  | ⟨1, _⟩ => show (x 1).val = 0; omega
  | ⟨2, _⟩ => show (x 2).val = 0; omega
  | ⟨3, _⟩ => rfl

/-- The output block as one function of the input blocks: row `y 1` (the head), lane `y 3`. -/
def blockSpec (x0 x1 x2 : Vec Ideal S1x2x1x128 .f32) (x3 x4 : Vec Ideal S1x2x64x128 .f32) (x5 x6 : Vec Ideal S1x2x128x62 .f32)
    (x7 x8 : Vec Ideal S1x2x3968x2 .f32) (x9 : Vec Ideal S1x2x128x3968 .i32) (x10 : Vec Ideal S1x2x3968x128 .i32) :
    Vec Ideal S1x2x1x128 .f32 := fun y =>
  Cert.Attn.headOut
    (Cert.Attn.logitsFactored (fun d => x0 (ix4 0 (y 1) 0 d)) (fun d => x1 (ix4 0 (y 1) 0 d)) (fun r d => x3 (ix4 0 (y 1) r d))
      (fun d g => x5 (ix4 0 (y 1) d g)) (fun d g => x6 (ix4 0 (y 1) d g)) (fun d t => x9 (ix4 0 (y 1) d t)))
    (fun d => x2 (ix4 0 (y 1) 0 d)) (fun r d => x4 (ix4 0 (y 1) r d)) (fun t g => x7 (ix4 0 (y 1) t g)) (fun t g => x8 (ix4 0 (y 1) t g))
    (fun t d => x10 (ix4 0 (y 1) t d)) (y 3)

/-- The second head's store holds row 1 of `blockSpec`. -/
theorem piece1_eq (x0 x1 x2 : Vec Ideal S1x2x1x128 .f32) (x3 x4 : Vec Ideal S1x2x64x128 .f32) (x5 x6 : Vec Ideal S1x2x128x62 .f32)
    (x7 x8 : Vec Ideal S1x2x3968x2 .f32) (x9 : Vec Ideal S1x2x128x3968 .i32) (x10 : Vec Ideal S1x2x3968x128 .i32) (x : S1x1x1x128.Idx) :
    (k0_pay1 (F := Ideal) (k0_pay25 (View.ld x2 r0_6)) (k0_pay27 (View.ld x4 r0_7)) (k0_pay28 (View.ld x7 r0_9)) (k0_pay29 (View.ld x8 r0_9)) (k0_pay30 (View.ld x10 r0_11))
        (k0_pay31 (k0_pay23 (View.ld x0 r0_6)) (k0_pay24 (View.ld x1 r0_6)) (k0_pay26 (View.ld x3 r0_7)) (View.ld x5 r0_8) (View.ld x6 r0_8) (View.ld x9 r0_10))
        (k0_pay32 (k0_pay23 (View.ld x0 r0_6)) (k0_pay24 (View.ld x1 r0_6)) (k0_pay26 (View.ld x3 r0_7)) (View.ld x5 r0_8) (View.ld x6 r0_8) (View.ld x9 r0_10))) x
      = blockSpec x0 x1 x2 x3 x4 x5 x6 x7 x8 x9 x10 (r0_6.idx x) := by
  obtain ⟨d, rfl⟩ : ∃ d : Fin 128, x = ix4 0 0 0 d := ⟨x 3, eq_lane x⟩
  rw [r0_6_idx, head1_value]
  unfold headSpec blockSpec
  simp only [View.ld, r0_6_idx, r0_7_idx, r0_8_idx, r0_9_idx, r0_10_idx, r0_11_idx]

/-- The first head's store holds row 0 of `blockSpec`. -/
theorem piece0_eq (x0 x1 x2 : Vec Ideal S1x2x1x128 .f32) (x3 x4 : Vec Ideal S1x2x64x128 .f32) (x5 x6 : Vec Ideal S1x2x128x62 .f32)
    (x7 x8 : Vec Ideal S1x2x3968x2 .f32) (x9 : Vec Ideal S1x2x128x3968 .i32) (x10 : Vec Ideal S1x2x3968x128 .i32) (x : S1x1x1x128.Idx) :
    (k0_pay22 (F := Ideal) (k0_pay4 (View.ld x2 r0_0)) (k0_pay6 (View.ld x4 r0_1))
        (k0_pay13 (k0_pay2 (View.ld x0 r0_0)) (k0_pay3 (View.ld x1 r0_0)) (k0_pay5 (View.ld x3 r0_1)) (k0_pay7 (View.ld x5 r0_2)) (k0_pay8 (View.ld x6 r0_2)) (View.ld x9 r0_4))
        (k0_pay14 (k0_pay2 (View.ld x0 r0_0)) (k0_pay3 (View.ld x1 r0_0)) (k0_pay5 (View.ld x3 r0_1)) (k0_pay7 (View.ld x5 r0_2)) (k0_pay8 (View.ld x6 r0_2)) (View.ld x9 r0_4))
        (k0_pay15 (k0_pay2 (View.ld x0 r0_0)) (k0_pay3 (View.ld x1 r0_0)) (k0_pay5 (View.ld x3 r0_1)) (k0_pay7 (View.ld x5 r0_2)) (k0_pay8 (View.ld x6 r0_2)) (View.ld x9 r0_4))
        (k0_pay16 (View.ld x10 r0_5)) (k0_pay17 (View.ld x10 r0_5)) (k0_pay18 (k0_pay9 (View.ld x7 r0_3))) (k0_pay19 (k0_pay10 (View.ld x8 r0_3))) (k0_pay20 (k0_pay10 (View.ld x8 r0_3))) (k0_pay21 (k0_pay9 (View.ld x7 r0_3)))) x
      = blockSpec x0 x1 x2 x3 x4 x5 x6 x7 x8 x9 x10 (r0_0.idx x) := by
  obtain ⟨d, rfl⟩ : ∃ d : Fin 128, x = ix4 0 0 0 d := ⟨x 3, eq_lane x⟩
  rw [r0_0_idx, head0_value]
  unfold headSpec blockSpec
  simp only [View.ld, r0_0_idx, r0_1_idx, r0_2_idx, r0_3_idx, r0_4_idx, r0_5_idx]

/-- The body's two stores leave `blockSpec` of the input blocks. -/
theorem out0_11_eq (x0 x1 x2 : Vec Ideal S1x2x1x128 .f32) (x3 x4 : Vec Ideal S1x2x64x128 .f32) (x5 x6 : Vec Ideal S1x2x128x62 .f32)
    (x7 x8 : Vec Ideal S1x2x3968x2 .f32) (x9 : Vec Ideal S1x2x128x3968 .i32) (x10 : Vec Ideal S1x2x3968x128 .i32) :
    out0_11 (F := Ideal) x0 x1 x2 x3 x4 x5 x6 x7 x8 x9 x10 = blockSpec x0 x1 x2 x3 x4 x5 x6 x7 x8 x9 x10 := by
  funext y
  unfold out0_11
  refine View.canon_apply_of_pieces (Val := Elt Ideal) (e := .f32) (blockSpec x0 x1 x2 x3 x4 x5 x6 x7 x8 x9 x10) _ ?_ y (cover0_11 _ _ y)
  intro p hp x
  simp only [List.mem_cons, List.mem_nil_iff, or_false] at hp
  rcases hp with rfl | rfl
  · exact piece1_eq x0 x1 x2 x3 x4 x5 x6 x7 x8 x9 x10 x
  · exact piece0_eq x0 x1 x2 x3 x4 x5 x6 x7 x8 x9 x10 x

end Cert.KerAttn

end
-- ==== Proof.ArrayValue.lean ====
/-
  From blocks to the array. The output's blocks tile the [4,32,1,128] array (point (b, g) writes batch b, heads 2g
  and 2g + 1), each block is the restriction of ONE whole-array function — entry (b, h, 0, d) is the specification's
  head output of batch b, head h of every operand —, so after the run the array holds that function; the program's
  result is the array with its two middle axes exchanged back.
-/
import proofs.«110720_j77506979824107_2_alg».proof.Proof.BlockRead
import proofs.«110720_j77506979824107_2_alg».proof.Proof.BlockValue

set_option maxRecDepth 16384

noncomputable section

namespace Cert.KerAttn

open Idealize.ShloMosaic Idealize.ShloMosaic.TcCoe Idealize.SL.Sem Cert.KernelIdeal Cert.KernelIdeal.Gen ValueIdx

variable (m : (ℓ : Loc nD τ sig) → Buf (Elt Ideal) ℓ) (ρ : Dev nD → PrngReg)

/-- The output array as one function of the operand arrays: entry (b, h, 0, d) from batch b, head h of each. -/
def arraySpec (A0 A1 A2 : S4x32x1x128.Idx → Elt Ideal .f32) (A3 A4 : S4x32x64x128.Idx → Elt Ideal .f32)
    (A5 A6 : S4x32x128x62.Idx → Elt Ideal .f32) (A7 A8 : S4x32x3968x2.Idx → Elt Ideal .f32)
    (A9 : S4x32x128x3968.Idx → Elt Ideal .i32) (A10 : S4x32x3968x128.Idx → Elt Ideal .i32) : S4x32x1x128.Idx → Elt Ideal .f32 := fun i =>
  Cert.Attn.headOut
    (Cert.Attn.logitsFactored (fun d => A0 (ix4 (i 0) (i 1) 0 d)) (fun d => A1 (ix4 (i 0) (i 1) 0 d)) (fun r d => A3 (ix4 (i 0) (i 1) r d))
      (fun d g => A5 (ix4 (i 0) (i 1) d g)) (fun d g => A6 (ix4 (i 0) (i 1) d g)) (fun d t => A9 (ix4 (i 0) (i 1) d t)))
    (fun d => A2 (ix4 (i 0) (i 1) 0 d)) (fun r d => A4 (ix4 (i 0) (i 1) r d)) (fun t g => A7 (ix4 (i 0) (i 1) t g))
    (fun t g => A8 (ix4 (i 0) (i 1) t g)) (fun t d => A10 (ix4 (i 0) (i 1) t d)) (i 3)

/-- `arraySpec` of the arrays as the region finds them. -/
abbrev outArray (c : Dev nD) : S4x32x1x128.Idx → Elt Ideal .f32 :=
  arraySpec (V m c main_v0) (V m c main_v1) (V m c main_v2) (V m c main_arg3) (V m c main_arg4) (V m c main_arg5)
    (V m c main_arg6) (V m c main_arg7) (V m c main_arg8) (V m c main_arg9) (V m c main_arg10)

/-- What point `t` writes back is block `t` of `outArray`. -/
theorem flushed_eq (c : Dev nD) (t : Fin cfg0.N) :
    (dats m 0 c).flushed 11 t = ((cfg0.win 11).blk t).view.read (Elt Ideal) (outArray m c) := by
  show (cfg0.win 11).cut (grid0.coords t) ((dats m 0 c).after 11 t) = _
  rw [after0_11, out0_11_eq]
  obtain ⟨⟨b0, b1, b2, b3⟩, e0, e1, e2, e3, e4, e5, e6, e7, e8, e9, e10⟩ := idx_facts t
  funext j
  have hj0 : (j 0).val < 1 := (j 0).isLt
  have hj1 : (j 1).val < 2 := (j 1).isLt
  have hj2 : (j 2).val < 1 := (j 2).isLt
  have hj3 : (j 3).val < 128 := (j 3).isLt
  show blockSpec (iblk m c 0 t) (iblk m c 1 t) (iblk m c 2 t) (iblk m c 3 t) (iblk m c 4 t) (iblk m c 5 t) (iblk m c 6 t)
      (iblk m c 7 t) (iblk m c 8 t) (iblk m c 9 t) (iblk m c 10 t) j
    = outArray m c (((cfg0.win 11).blk t).view.emb j)
  generalize hk : ((cfg0.win 11).blk t).view.emb j = k
  have k0 : (k 0).val = win0_11.index t 0 * 1 + 1 * (j 0).val := by rw [← hk]; rfl
  have k1 : (k 1).val = win0_11.index t 1 * 2 + 1 * (j 1).val := by rw [← hk]; rfl
  have k3 : (k 3).val = win0_11.index t 3 * 128 + 1 * (j 3).val := by rw [← hk]; rfl
  have hlane : j 3 = k 3 := Fin.ext (by show (j 3).val = (k 3).val; omega)
  unfold blockSpec outArray arraySpec
  rw [hlane]
  have f0 : (fun d : Fin 128 => (iblk m c 0 t : Vec Ideal S1x2x1x128 .f32) (ix4 0 (j 1) 0 d)) = fun d => V m c main_v0 (ix4 (k 0) (k 1) 0 d) :=
    funext fun d => iblk0_apply m c t _ _ (by show (k 0).val = _ * 1 + 0; have := e0 0; omega) (by show (k 1).val = _ * 2 + (j 1).val; have := e0 1; omega)
      (by show 0 = _ * 1 + 0; have := e0 2; omega) (by show d.val = _ * 128 + d.val; have := e0 3; omega)
  have f1 : (fun d : Fin 128 => (iblk m c 1 t : Vec Ideal S1x2x1x128 .f32) (ix4 0 (j 1) 0 d)) = fun d => V m c main_v1 (ix4 (k 0) (k 1) 0 d) :=
    funext fun d => iblk1_apply m c t _ _ (by show (k 0).val = _ * 1 + 0; have := e1 0; omega) (by show (k 1).val = _ * 2 + (j 1).val; have := e1 1; omega)
      (by show 0 = _ * 1 + 0; have := e1 2; omega) (by show d.val = _ * 128 + d.val; have := e1 3; omega)
  have f2 : (fun d : Fin 128 => (iblk m c 2 t : Vec Ideal S1x2x1x128 .f32) (ix4 0 (j 1) 0 d)) = fun d => V m c main_v2 (ix4 (k 0) (k 1) 0 d) :=
    funext fun d => iblk2_apply m c t _ _ (by show (k 0).val = _ * 1 + 0; have := e2 0; omega) (by show (k 1).val = _ * 2 + (j 1).val; have := e2 1; omega)
      (by show 0 = _ * 1 + 0; have := e2 2; omega) (by show d.val = _ * 128 + d.val; have := e2 3; omega)
  have f3 : (fun (r : Fin 64) (d : Fin 128) => (iblk m c 3 t : Vec Ideal S1x2x64x128 .f32) (ix4 0 (j 1) r d)) = fun r d => V m c main_arg3 (ix4 (k 0) (k 1) r d) :=
    funext fun r => funext fun d => iblk3_apply m c t _ _ (by show (k 0).val = _ * 1 + 0; have := e3 0; omega) (by show (k 1).val = _ * 2 + (j 1).val; have := e3 1; omega)
      (by show r.val = _ * 64 + r.val; have := e3 2; omega) (by show d.val = _ * 128 + d.val; have := e3 3; omega)
  have f4 : (fun (r : Fin 64) (d : Fin 128) => (iblk m c 4 t : Vec Ideal S1x2x64x128 .f32) (ix4 0 (j 1) r d)) = fun r d => V m c main_arg4 (ix4 (k 0) (k 1) r d) :=
    funext fun r => funext fun d => iblk4_apply m c t _ _ (by show (k 0).val = _ * 1 + 0; have := e4 0; omega) (by show (k 1).val = _ * 2 + (j 1).val; have := e4 1; omega)
      (by show r.val = _ * 64 + r.val; have := e4 2; omega) (by show d.val = _ * 128 + d.val; have := e4 3; omega)
  have f5 : (fun (d : Fin 128) (g : Fin 62) => (iblk m c 5 t : Vec Ideal S1x2x128x62 .f32) (ix4 0 (j 1) d g)) = fun d g => V m c main_arg5 (ix4 (k 0) (k 1) d g) :=
    funext fun d => funext fun g => iblk5_apply m c t _ _ (by show (k 0).val = _ * 1 + 0; have := e5 0; omega) (by show (k 1).val = _ * 2 + (j 1).val; have := e5 1; omega)
      (by show d.val = _ * 128 + d.val; have := e5 2; omega) (by show g.val = _ * 62 + g.val; have := e5 3; omega)
  have f6 : (fun (d : Fin 128) (g : Fin 62) => (iblk m c 6 t : Vec Ideal S1x2x128x62 .f32) (ix4 0 (j 1) d g)) = fun d g => V m c main_arg6 (ix4 (k 0) (k 1) d g) :=
    funext fun d => funext fun g => iblk6_apply m c t _ _ (by show (k 0).val = _ * 1 + 0; have := e6 0; omega) (by show (k 1).val = _ * 2 + (j 1).val; have := e6 1; omega)
      (by show d.val = _ * 128 + d.val; have := e6 2; omega) (by show g.val = _ * 62 + g.val; have := e6 3; omega)
  have f7 : (fun (s : Fin 3968) (g : Fin 2) => (iblk m c 7 t : Vec Ideal S1x2x3968x2 .f32) (ix4 0 (j 1) s g)) = fun s g => V m c main_arg7 (ix4 (k 0) (k 1) s g) :=
    funext fun s => funext fun g => iblk7_apply m c t _ _ (by show (k 0).val = _ * 1 + 0; have := e7 0; omega) (by show (k 1).val = _ * 2 + (j 1).val; have := e7 1; omega)
      (by show s.val = _ * 3968 + s.val; have := e7 2; omega) (by show g.val = _ * 2 + g.val; have := e7 3; omega)
  have f8 : (fun (s : Fin 3968) (g : Fin 2) => (iblk m c 8 t : Vec Ideal S1x2x3968x2 .f32) (ix4 0 (j 1) s g)) = fun s g => V m c main_arg8 (ix4 (k 0) (k 1) s g) :=
    funext fun s => funext fun g => iblk8_apply m c t _ _ (by show (k 0).val = _ * 1 + 0; have := e8 0; omega) (by show (k 1).val = _ * 2 + (j 1).val; have := e8 1; omega)
      (by show s.val = _ * 3968 + s.val; have := e8 2; omega) (by show g.val = _ * 2 + g.val; have := e8 3; omega)
  have f9 : (fun (d : Fin 128) (s : Fin 3968) => (iblk m c 9 t : Vec Ideal S1x2x128x3968 .i32) (ix4 0 (j 1) d s)) = fun d s => V m c main_arg9 (ix4 (k 0) (k 1) d s) :=
    funext fun d => funext fun s => iblk9_apply m c t _ _ (by show (k 0).val = _ * 1 + 0; have := e9 0; omega) (by show (k 1).val = _ * 2 + (j 1).val; have := e9 1; omega)
      (by show d.val = _ * 128 + d.val; have := e9 2; omega) (by show s.val = _ * 3968 + s.val; have := e9 3; omega)
  have f10 : (fun (s : Fin 3968) (d : Fin 128) => (iblk m c 10 t : Vec Ideal S1x2x3968x128 .i32) (ix4 0 (j 1) s d)) = fun s d => V m c main_arg10 (ix4 (k 0) (k 1) s d) :=
    funext fun s => funext fun d => iblk10_apply m c t _ _ (by show (k 0).val = _ * 1 + 0; have := e10 0; omega) (by show (k 1).val = _ * 2 + (j 1).val; have := e10 1; omega)
      (by show s.val = _ * 3968 + s.val; have := e10 2; omega) (by show d.val = _ * 128 + d.val; have := e10 3; omega)
  rw [f0, f1, f2, f3, f4, f5, f6, f7, f8, f9, f10]

/-- Every index of the output array is in some point's block. -/
theorem covered (i : S4x32x1x128.Idx) :
    ∃ t : Fin cfg0.N, (cfg0.win 11).flush t = true ∧ i ∈ ((cfg0.win 11).blk t).view.set := by
  have hi0 : (i 0).val < 4 := (i 0).isLt
  have hi1 : (i 1).val < 32 := (i 1).isLt
  have hi2 : (i 2).val < 1 := (i 2).isLt
  have hi3 : (i 3).val < 128 := (i 3).isLt
  obtain ⟨t, ht⟩ := idx_onto ⟨(i 0).val, hi0⟩ ⟨(i 1).val / 2, by omega⟩
  have q0 : win0_11.index t (0 : Fin 4) = (i 0).val := congrFun ht 0
  have q1 : win0_11.index t (1 : Fin 4) = (i 1).val / 2 := congrFun ht 1
  have q2 : win0_11.index t (2 : Fin 4) = 0 := congrFun ht 2
  have q3 : win0_11.index t (3 : Fin 4) = 0 := congrFun ht 3
  refine ⟨t, flush0_11 t, ?_⟩
  show i ∈ ((View.whole main_v3).slice (win0_11.rect t)).set
  rw [View.set_slice_whole, Rect.mem_set_unit]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 2 ≤ (i 1).val ∧ (i 1).val < win0_11.index t (1 : Fin 4) * 2 + 2; omega
  | ⟨2, _⟩ => show win0_11.index t (2 : Fin 4) * 1 ≤ (i 2).val ∧ (i 2).val < win0_11.index t (2 : Fin 4) * 1 + 1; omega
  | ⟨3, _⟩ => show win0_11.index t (3 : Fin 4) * 128 ≤ (i 3).val ∧ (i 3).val < win0_11.index t (3 : Fin 4) * 128 + 128; omega

/-- The output array after the run. -/
theorem final (c : Dev nD) : (dats m 0 c).arrAt 11 cfg0.N = outArray m c :=
  (dats m 0 c).arrAt_eq_of_cover 11 (outArray m c) (fun t _ => flushed_eq m c t) covered

/-- The program's result: the output array with its two middle axes exchanged back. -/
abbrev result (c : Dev nD) : S4x1x32x128.Idx → Elt Ideal .f32 :=
  transpose S4x1x32x128 [0, 2, 1, 3] (outArray m c) transposes_S4x32x1x128_S4x1x32x128_0_2_1_3

/-- The run: every weakly fair execution terminates with the result at `result` and the arguments unchanged (the
    arguments' clauses are the generated frame's, read off the same run). -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v4 (Pipeline.mem_restRefs_of main_v4 (by decide) (by decide))).trans
        ((tail_eq m c).trans (congrArg (fun X => transpose S4x1x32x128 [0, 2, 1, 3] X transposes_S4x32x1x128_S4x1x32x128_0_2_1_3) (final m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩) (run_main m ρ)

end Cert.KerAttn

end
-- ==== Proof.ResultValue.lean ====
/-
  The kernel program's result, read at an index: entry (b, 0, h, d) is the specification's head output of batch b,
  head h of the ARGUMENT arrays — the exchange of the middle axes before the kernel and the one after it cancel.
-/
import proofs.«110720_j77506979824107_2_alg».proof.Proof.ArrayValue

set_option maxRecDepth 16384

noncomputable section

namespace Cert.KerAttn

open Idealize.ShloMosaic Idealize.ShloMosaic.TcCoe Idealize.SL.Sem Cert.KernelIdeal Cert.KernelIdeal.Gen ValueIdx

variable (m : (ℓ : Loc nD τ sig) → Buf (Elt Ideal) ℓ)

/-- `arraySpec` at entry (b, h, 0, d), with the coordinates read off. -/
theorem arraySpec_apply (A0 A1 A2 : S4x32x1x128.Idx → Elt Ideal .f32) (A3 A4 : S4x32x64x128.Idx → Elt Ideal .f32)
    (A5 A6 : S4x32x128x62.Idx → Elt Ideal .f32) (A7 A8 : S4x32x3968x2.Idx → Elt Ideal .f32)
    (A9 : S4x32x128x3968.Idx → Elt Ideal .i32) (A10 : S4x32x3968x128.Idx → Elt Ideal .i32) (b : Fin 4) (h : Fin 32) (d : Fin 128) :
    arraySpec A0 A1 A2 A3 A4 A5 A6 A7 A8 A9 A10 (ix4 b h 0 d)
      = Cert.Attn.headOut
          (Cert.Attn.logitsFactored (fun d => A0 (ix4 b h 0 d)) (fun d => A1 (ix4 b h 0 d)) (fun r d => A3 (ix4 b h r d))
            (fun d g => A5 (ix4 b h d g)) (fun d g => A6 (ix4 b h d g)) (fun d t => A9 (ix4 b h d t)))
          (fun d => A2 (ix4 b h 0 d)) (fun r d => A4 (ix4 b h r d)) (fun t g => A7 (ix4 b h t g))
          (fun t g => A8 (ix4 b h t g)) (fun t d => A10 (ix4 b h t d)) d := rfl

theorem result_apply (c : Dev nD) (b : Fin 4) (h : Fin 32) (d : Fin 128) :
    result m c (ix4 b 0 h d)
      = Cert.Attn.headOut
          (Cert.Attn.logitsFactored (fun d => (m ((c.tc : Thread nD τ).loc main_arg0) : S4x1x32x128.Idx → Elt Ideal .f32) (ix4 b 0 h d))
            (fun d => (m ((c.tc : Thread nD τ).loc main_arg1) : S4x1x32x128.Idx → Elt Ideal .f32) (ix4 b 0 h d))
            (fun r d => (m ((c.tc : Thread nD τ).loc main_arg3) : S4x32x64x128.Idx → Elt Ideal .f32) (ix4 b h r d))
            (fun d g => (m ((c.tc : Thread nD τ).loc main_arg5) : S4x32x128x62.Idx → Elt Ideal .f32) (ix4 b h d g))
            (fun d g => (m ((c.tc : Thread nD τ).loc main_arg6) : S4x32x128x62.Idx → Elt Ideal .f32) (ix4 b h d g))
            (fun d t => (m ((c.tc : Thread nD τ).loc main_arg9) : S4x32x128x3968.Idx → Elt Ideal .i32) (ix4 b h d t)))
          (fun d => (m ((c.tc : Thread nD τ).loc main_arg2) : S4x1x32x128.Idx → Elt Ideal .f32) (ix4 b 0 h d))
          (fun r d => (m ((c.tc : Thread nD τ).loc main_arg4) : S4x32x64x128.Idx → Elt Ideal .f32) (ix4 b h r d))
          (fun t g => (m ((c.tc : Thread nD τ).loc main_arg7) : S4x32x3968x2.Idx → Elt Ideal .f32) (ix4 b h t g))
          (fun t g => (m ((c.tc : Thread nD τ).loc main_arg8) : S4x32x3968x2.Idx → Elt Ideal .f32) (ix4 b h t g))
          (fun t d => (m ((c.tc : Thread nD τ).loc main_arg10) : S4x32x3968x128.Idx → Elt Ideal .i32) (ix4 b h t d)) d := by
  unfold result
  rw [transpose_apply [0, 2, 1, 3] _ transposes_S4x32x1x128_S4x1x32x128_0_2_1_3 (ix4 b 0 h d) (ix4 b h 0 d) (fun a => match a with
    | ⟨0, _⟩ => rfl
    | ⟨1, _⟩ => rfl
    | ⟨2, _⟩ => rfl
    | ⟨3, _⟩ => rfl)]
  refine (arraySpec_apply _ _ _ _ _ _ _ _ _ _ _ b h d).trans ?_
  have g0 : (fun d : Fin 128 => (V m c main_v0 : S4x32x1x128.Idx → Elt Ideal .f32) (ix4 b h 0 d))
      = fun d => (m ((c.tc : Thread nD τ).loc main_arg0) : S4x1x32x128.Idx → Elt Ideal .f32) (ix4 b 0 h d) := funext fun d => V_main_v0_apply m c b h d
  have g1 : (fun d : Fin 128 => (V m c main_v1 : S4x32x1x128.Idx → Elt Ideal .f32) (ix4 b h 0 d))
      = fun d => (m ((c.tc : Thread nD τ).loc main_arg1) : S4x1x32x128.Idx → Elt Ideal .f32) (ix4 b 0 h d) := funext fun d => V_main_v1_apply m c b h d
  have g2 : (fun d : Fin 128 => (V m c main_v2 : S4x32x1x128.Idx → Elt Ideal .f32) (ix4 b h 0 d))
      = fun d => (m ((c.tc : Thread nD τ).loc main_arg2) : S4x1x32x128.Idx → Elt Ideal .f32) (ix4 b 0 h d) := funext fun d => V_main_v2_apply m c b h d
  rw [g0, g1, g2, V_main_arg3, V_main_arg4, V_main_arg5, V_main_arg6, V_main_arg7, V_main_arg8, V_main_arg9, V_main_arg10]

end Cert.KerAttn

end
-- ==== Proof.RefLogits.lean ====
/-
  The reference's logits, read at an index.

  The reference dequantizes the key (code × group scale + group offset, through a reshape of the 3968 positions
  into 62 groups of 64 and back), takes the 3968 dot products with the query, takes 65 more against the residual
  keys followed by the new key, lays the two rows end to end and multiplies by the scale word. Entry by entry this
  is the specification's `logitsPlain`.
-/
import proofs.«110720_j77506979824107_2_alg».proof.Proof.Gen.ReferenceIdeal.Read
import proofs.«110720_j77506979824107_2_alg».proof.Proof.Spec

noncomputable section

namespace Cert.RefAttn

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- Position `t` of the flat axis of 3968 falls in group `t / 64` at offset `t % 64`. -/
theorem idx_v11 (b : Fin 4) (h : Fin 32) (d : Fin 128) (t : Fin 3968) :
    idx_main_v11 (ix4 b h d t) = ix5 b h d (grpT t) (⟨t.val % 64, Nat.mod_lt _ (by omega)⟩ : Fin 64) := by
  have hb := b.isLt; have hh := h.isLt; have hd := d.isLt; have ht := t.isLt
  funext a
  match a with
  | ⟨0, _⟩ => exact Fin.ext (by show (((b.val * 32 + h.val) * 128 + d.val) * 3968 + t.val) / 16252928 = b.val; omega)
  | ⟨1, _⟩ => exact Fin.ext (by show (((b.val * 32 + h.val) * 128 + d.val) * 3968 + t.val) / 507904 % 32 = h.val; omega)
  | ⟨2, _⟩ => exact Fin.ext (by show (((b.val * 32 + h.val) * 128 + d.val) * 3968 + t.val) / 3968 % 128 = d.val; omega)
  | ⟨3, _⟩ => exact Fin.ext (by show (((b.val * 32 + h.val) * 128 + d.val) * 3968 + t.val) / 64 % 62 = t.val / 64; omega)
  | ⟨4, _⟩ => exact Fin.ext (by show (((b.val * 32 + h.val) * 128 + d.val) * 3968 + t.val) % 64 = t.val % 64; omega)

/-- Group `t / 64`, offset `t % 64` is position `t` of the flat axis again. -/
theorem idx_v4 (b : Fin 4) (h : Fin 32) (d : Fin 128) (t : Fin 3968) :
    idx_main_v4 (ix5 b h d (grpT t) (⟨t.val % 64, Nat.mod_lt _ (by omega)⟩ : Fin 64)) = ix4 b h d t := by
  have hb := b.isLt; have hh := h.isLt; have hd := d.isLt; have ht := t.isLt
  funext a
  match a with
  | ⟨0, _⟩ => exact Fin.ext (by show ((((b.val * 32 + h.val) * 128 + d.val) * 62 + t.val / 64) * 64 + t.val % 64) / 16252928 = b.val; omega)
  | ⟨1, _⟩ => exact Fin.ext (by show ((((b.val * 32 + h.val) * 128 + d.val) * 62 + t.val / 64) * 64 + t.val % 64) / 507904 % 32 = h.val; omega)
  | ⟨2, _⟩ => exact Fin.ext (by show ((((b.val * 32 + h.val) * 128 + d.val) * 62 + t.val / 64) * 64 + t.val % 64) / 3968 % 128 = d.val; omega)
  | ⟨3, _⟩ => exact Fin.ext (by show ((((b.val * 32 + h.val) * 128 + d.val) * 62 + t.val / 64) * 64 + t.val % 64) % 3968 = t.val; omega)

/-- The two broadcasts of a per-group array read it at the group, whatever the offset. -/
theorem idx_v5_v6 (b : Fin 4) (h : Fin 32) (d : Fin 128) (g : Fin 62) (e : Fin 64) :
    idx_main_v5 (idx_main_v6 (ix5 b h d g e)) = ix4 b h d g := by
  funext a
  match a with
  | ⟨0, _⟩ => rfl
  | ⟨1, _⟩ => rfl
  | ⟨2, _⟩ => rfl
  | ⟨3, _⟩ => rfl

theorem idx_v8_v9 (b : Fin 4) (h : Fin 32) (d : Fin 128) (g : Fin 62) (e : Fin 64) :
    idx_main_v8 (idx_main_v9 (ix5 b h d g e)) = ix4 b h d g := by
  funext a
  match a with
  | ⟨0, _⟩ => rfl
  | ⟨1, _⟩ => rfl
  | ⟨2, _⟩ => rfl
  | ⟨3, _⟩ => rfl

/-- The dequantized key at lane `d`, position `t`: the code times its group's scale plus its group's offset. -/
theorem key_deq (x5 x6 : (⟨S4x32x128x62, .f32⟩ : BufTy).Contents (Elt Ideal))
    (x9 : (⟨S4x32x128x3968, .i32⟩ : BufTy).Contents (Elt Ideal)) (b : Fin 4) (h : Fin 32) (d : Fin 128) (t : Fin 3968) :
    val_main_v11 (F := Ideal) x5 x6 x9 (ix4 b h d t)
      = code (x9 (ix4 b h d t)) * x5 (ix4 b h d (grpT t)) + x6 (ix4 b h d (grpT t)) := by
  rw [val_main_v11_apply, val_main_v10_apply, val_main_v7_apply, val_main_v9_apply, val_main_v8_apply,
    val_main_v6_apply, val_main_v5_apply, val_main_v4_apply, val_main_v3_apply, idx_v11, idx_v4, idx_v5_v6, idx_v8_v9]
  rfl

/-- The transposed query (or key, or value) row: head `h` of batch `b`. -/
theorem idx_v0 (b : Fin 4) (h : Fin 32) (k : Fin 128) : idx_main_v0 (ix4 b h (0 : Fin 1) k) = ix4 b (0 : Fin 1) h k := by
  funext a
  match a with
  | ⟨0, _⟩ => rfl
  | ⟨1, _⟩ => rfl
  | ⟨2, _⟩ => rfl
  | ⟨3, _⟩ => rfl

theorem lidx_v12 (b : Fin 4) (h : Fin 32) (t : Fin 3968) (k : Fin 128) :
    lidx_main_v12 (ix4 b h (0 : Fin 1) t) k = ix4 b h (0 : Fin 1) k := by
  funext a
  match a with
  | ⟨0, _⟩ => rfl
  | ⟨1, _⟩ => rfl
  | ⟨2, _⟩ => rfl
  | ⟨3, _⟩ => rfl

theorem ridx_v12 (b : Fin 4) (h : Fin 32) (t : Fin 3968) (k : Fin 128) :
    ridx_main_v12 (ix4 b h (0 : Fin 1) t) k = ix4 b h k t := by
  funext a
  match a with
  | ⟨0, _⟩ => rfl
  | ⟨1, _⟩ => rfl
  | ⟨2, _⟩ => rfl
  | ⟨3, _⟩ => rfl

/-- The query against the dequantized key at position `t`. -/
theorem logit_quant (x0 : (⟨S4x1x32x128, .f32⟩ : BufTy).Contents (Elt Ideal)) (x5 x6 : (⟨S4x32x128x62, .f32⟩ : BufTy).Contents (Elt Ideal))
    (x9 : (⟨S4x32x128x3968, .i32⟩ : BufTy).Contents (Elt Ideal)) (b : Fin 4) (h : Fin 32) (t : Fin 3968) :
    val_main_v12 (F := Ideal) x0 x5 x6 x9 (ix4 b h (0 : Fin 1) t)
      = ∑ d : Fin 128, x0 (ix4 b (0 : Fin 1) h d) * (code (x9 (ix4 b h d t)) * x5 (ix4 b h d (grpT t)) + x6 (ix4 b h d (grpT t))) := by
  rw [val_main_v12_apply]
  refine Finset.sum_congr rfl fun k _ => ?_
  rw [val_main_v0_apply, lidx_v12, idx_v0, ridx_v12, key_deq]

/-- 64 rows followed by one more, read at a row below 64: the first piece. -/
theorem concat65_lt (A : S4x32x64x128.Idx → EReal) (B : S4x32x1x128.Idx → EReal) (b : Fin 4) (h : Fin 32) (r : Fin 65) (d : Fin 128)
    (hr : r.val < 64) :
    concatenate S4x32x65x128 2 [⟨S4x32x64x128, A⟩, ⟨S4x32x1x128, B⟩] concatenates_S4x32x64x128_S4x32x1x128_S4x32x65x128_d2 (ix4 b h r d)
      = A (ix4 b h (⟨r.val, hr⟩ : Fin 64) d) :=
  concatenate_pair_apply_left 2 A B concatenates_S4x32x64x128_S4x32x1x128_S4x32x65x128_d2 (ix4 b h r d) rfl
    (ix4 b h (⟨r.val, hr⟩ : Fin 64) d) (fun c => match c with
      | ⟨0, _⟩ => rfl
      | ⟨1, _⟩ => rfl
      | ⟨2, _⟩ => rfl
      | ⟨3, _⟩ => rfl)

/-- 64 rows followed by one more, read at row 64: the second piece. -/
theorem concat65_ge (A : S4x32x64x128.Idx → EReal) (B : S4x32x1x128.Idx → EReal) (b : Fin 4) (h : Fin 32) (r : Fin 65) (d : Fin 128)
    (hr : ¬ r.val < 64) :
    concatenate S4x32x65x128 2 [⟨S4x32x64x128, A⟩, ⟨S4x32x1x128, B⟩] concatenates_S4x32x64x128_S4x32x1x128_S4x32x65x128_d2 (ix4 b h r d)
      = B (ix4 b h (0 : Fin 1) d) :=
  concatenate_pair_apply_right 2 A B concatenates_S4x32x64x128_S4x32x1x128_S4x32x65x128_d2 (ix4 b h r d) rfl rfl
    (ix4 b h (0 : Fin 1) d) (fun c => match c with
      | ⟨0, _⟩ => fun _ => rfl
      | ⟨1, _⟩ => fun _ => rfl
      | ⟨2, _⟩ => fun hc => absurd rfl hc
      | ⟨3, _⟩ => fun _ => rfl)
    (by have := r.isLt; show 0 + 64 = r.val; omega)

theorem lidx_v14 (b : Fin 4) (h : Fin 32) (r : Fin 65) (k : Fin 128) :
    lidx_main_v14 (ix4 b h (0 : Fin 1) r) k = ix4 b h (0 : Fin 1) k := by
  funext a
  match a with
  | ⟨0, _⟩ => rfl
  | ⟨1, _⟩ => rfl
  | ⟨2, _⟩ => rfl
  | ⟨3, _⟩ => rfl

theorem ridx_v14 (b : Fin 4) (h : Fin 32) (r : Fin 65) (k : Fin 128) :
    ridx_main_v14 (ix4 b h (0 : Fin 1) r) k = ix4 b h r k := by
  funext a
  match a with
  | ⟨0, _⟩ => rfl
  | ⟨1, _⟩ => rfl
  | ⟨2, _⟩ => rfl
  | ⟨3, _⟩ => rfl

/-- The query against residual key `r` (a row below 64 of the 65). -/
theorem logit_resid (x0 x1 : (⟨S4x1x32x128, .f32⟩ : BufTy).Contents (Elt Ideal)) (x3 : (⟨S4x32x64x128, .f32⟩ : BufTy).Contents (Elt Ideal))
    (b : Fin 4) (h : Fin 32) (r : Fin 65) (hr : r.val < 64) :
    val_main_v14 (F := Ideal) x0 x1 x3 (ix4 b h (0 : Fin 1) r)
      = ∑ d : Fin 128, x0 (ix4 b (0 : Fin 1) h d) * x3 (ix4 b h (⟨r.val, hr⟩ : Fin 64) d) := by
  rw [val_main_v14_apply]
  refine Finset.sum_congr rfl fun k _ => ?_
  rw [val_main_v0_apply, lidx_v14, idx_v0, ridx_v14]
  unfold val_main_v13
  rw [concat65_lt _ _ b h r k hr]

/-- The query against the new key (row 64 of the 65). -/
theorem logit_new (x0 x1 : (⟨S4x1x32x128, .f32⟩ : BufTy).Contents (Elt Ideal)) (x3 : (⟨S4x32x64x128, .f32⟩ : BufTy).Contents (Elt Ideal))
    (b : Fin 4) (h : Fin 32) (r : Fin 65) (hr : ¬ r.val < 64) :
    val_main_v14 (F := Ideal) x0 x1 x3 (ix4 b h (0 : Fin 1) r)
      = ∑ d : Fin 128, x0 (ix4 b (0 : Fin 1) h d) * x1 (ix4 b (0 : Fin 1) h d) := by
  rw [val_main_v14_apply]
  refine Finset.sum_congr rfl fun k _ => ?_
  rw [val_main_v0_apply, lidx_v14, idx_v0, ridx_v14]
  unfold val_main_v13
  rw [concat65_ge _ _ b h r k hr, val_main_v1_apply]
  exact congrArg (fun i => _ * x1 i) (idx_v0 b h k)

/-- The row of 4033 logits below 3968: the first piece. -/
theorem concat4033_lt (A : S4x32x1x3968.Idx → EReal) (B : S4x32x1x65.Idx → EReal) (b : Fin 4) (h : Fin 32) (j : Fin 4033)
    (hj : j.val < 3968) :
    concatenate S4x32x1x4033 3 [⟨S4x32x1x3968, A⟩, ⟨S4x32x1x65, B⟩] concatenates_S4x32x1x3968_S4x32x1x65_S4x32x1x4033_d3 (ix4 b h (0 : Fin 1) j)
      = A (ix4 b h (0 : Fin 1) (⟨j.val, hj⟩ : Fin 3968)) :=
  concatenate_pair_apply_left 3 A B concatenates_S4x32x1x3968_S4x32x1x65_S4x32x1x4033_d3 (ix4 b h (0 : Fin 1) j) rfl
    (ix4 b h (0 : Fin 1) (⟨j.val, hj⟩ : Fin 3968)) (fun c => match c with
      | ⟨0, _⟩ => rfl
      | ⟨1, _⟩ => rfl
      | ⟨2, _⟩ => rfl
      | ⟨3, _⟩ => rfl)

/-- The row of 4033 logits from 3968 on: the second piece, 3968 less. -/
theorem concat4033_ge (A : S4x32x1x3968.Idx → EReal) (B : S4x32x1x65.Idx → EReal) (b : Fin 4) (h : Fin 32) (j : Fin 4033)
    (hj : ¬ j.val < 3968) :
    concatenate S4x32x1x4033 3 [⟨S4x32x1x3968, A⟩, ⟨S4x32x1x65, B⟩] concatenates_S4x32x1x3968_S4x32x1x65_S4x32x1x4033_d3 (ix4 b h (0 : Fin 1) j)
      = B (ix4 b h (0 : Fin 1) (⟨j.val - 3968, by have := j.isLt; omega⟩ : Fin 65)) :=
  concatenate_pair_apply_right 3 A B concatenates_S4x32x1x3968_S4x32x1x65_S4x32x1x4033_d3 (ix4 b h (0 : Fin 1) j) rfl rfl
    (ix4 b h (0 : Fin 1) (⟨j.val - 3968, by have := j.isLt; omega⟩ : Fin 65)) (fun c => match c with
      | ⟨0, _⟩ => fun _ => rfl
      | ⟨1, _⟩ => fun _ => rfl
      | ⟨2, _⟩ => fun _ => rfl
      | ⟨3, _⟩ => fun hc => absurd rfl hc)
    (by show j.val - 3968 + 3968 = j.val; omega)

/-- The reference's scaled logits are the specification's `logitsPlain`. -/
theorem ref_logits (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) (j : Fin 4033) :
    val_main_v17 (F := Ideal) x0 x1 x3 x5 x6 x9 (ix4 b h (0 : Fin 1) j)
      = logitsPlain (fun d => x0 (ix4 b (0 : Fin 1) h d)) (fun d => x1 (ix4 b (0 : Fin 1) h d)) (fun r d => x3 (ix4 b h r d))
          (fun d g => x5 (ix4 b h d g)) (fun d g => x6 (ix4 b h d g)) (fun d t => x9 (ix4 b h d t)) j := by
  rw [val_main_v17_apply, val_main_v16_apply, val_main_cst_apply]
  unfold logitsPlain row val_main_v15
  by_cases hj : j.val < 3968
  · rw [concat4033_lt _ _ b h j hj, dif_pos hj, logit_quant]; rfl
  · rw [concat4033_ge _ _ b h j hj, dif_neg hj]
    by_cases hj2 : j.val < 4032
    · rw [dif_pos hj2, logit_resid x0 x1 x3 b h _ (by show j.val - 3968 < 64; omega)]; rfl
    · rw [dif_neg hj2, logit_new x0 x1 x3 b h _ (by show ¬ j.val - 3968 < 64; omega)]; rfl

end Cert.RefAttn

end
-- ==== Proof.RefSoftmax.lean ====
/-
  The reference's softmax weights, read at an index.

  The reference takes the row's maximum by a reduction from −∞, takes the maximum with −∞ once more, subtracts it
  from every logit, exponentiates, sums the row from zero and divides. Entry by entry this is the specification's
  `weight` of the row of logits.
-/
import proofs.«110720_j77506979824107_2_alg».proof.Proof.Gen.ReferenceIdeal.Read
import proofs.«110720_j77506979824107_2_alg».proof.Proof.Spec
import proofs.«110720_j77506979824107_2_alg».proof.Proof.RefLogits

noncomputable section

namespace Cert.RefAttn

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- The reference's row of scaled logits for head `h` of batch `b`. -/
def refRow (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) : Fin 4033 → EReal :=
  fun j => val_main_v17 (F := Ideal) x0 x1 x3 x5 x6 x9 (ix4 b h (0 : Fin 1) j)

/-- The two broadcasts of a per-row scalar read it at the row, whatever the position. -/
theorem idx_v21_v22 (b : Fin 4) (h : Fin 32) (j : Fin 4033) :
    idx_main_v21 (idx_main_v22 (ix4 b h (0 : Fin 1) j)) = ix3 b h (0 : Fin 1) := by
  funext a
  match a with
  | ⟨0, _⟩ => rfl
  | ⟨1, _⟩ => rfl
  | ⟨2, _⟩ => rfl

theorem idx_v26_v27 (b : Fin 4) (h : Fin 32) (j : Fin 4033) :
    idx_main_v26 (idx_main_v27 (ix4 b h (0 : Fin 1) j)) = ix3 b h (0 : Fin 1) := by
  funext a
  match a with
  | ⟨0, _⟩ => rfl
  | ⟨1, _⟩ => rfl
  | ⟨2, _⟩ => rfl

theorem idx_v25 (b : Fin 4) (h : Fin 32) (k : Fin 4033) :
    idx_main_v25 (ix3 b h (0 : Fin 1)) k = ix4 b h (0 : Fin 1) k := by
  funext a
  match a with
  | ⟨0, _⟩ => rfl
  | ⟨1, _⟩ => rfl
  | ⟨2, _⟩ => rfl
  | ⟨3, _⟩ => rfl

/-- The host's reduction with a maximum body over the row, from −∞, is the fold of `max` from −∞ over the row. -/
theorem ref_rowMax (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) :
    val_main_v18 (F := Ideal) x0 x1 x3 x5 x6 x9 (ix3 b h (0 : Fin 1)) = foldMax (refRow x0 x1 x3 x5 x6 x9 b h) := by
  unfold val_main_v18 foldMax refRow
  generalize val_main_v17 (F := Ideal) x0 x1 x3 x5 x6 x9 = y
  refine (Host.reduce_eq_fold_single (FloatOps.maximumf (F := Ideal) (φ := .f32)) y _ reducesTo_S4x32x1x4033_S4x32x1_d3 (by decide) h_S_
    (ix3 b h (0 : Fin 1))).trans ?_
  refine congrArg (fun f : Fin 4033 → EReal => (Finset.univ : Finset (Fin 4033)).fold max negInf f) (funext fun k => ?_)
  exact congrArg y (funext fun a => Fin.ext (by match a with | ⟨0, _⟩ => rfl | ⟨1, _⟩ => rfl | ⟨2, _⟩ => rfl | ⟨3, _⟩ => rfl))

/-- What the reference subtracts from every logit of the row. -/
theorem ref_shift (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) (j : Fin 4033) :
    val_main_v22 (F := Ideal) x0 x1 x3 x5 x6 x9 (ix4 b h (0 : Fin 1) j) = max negInf (foldMax (refRow x0 x1 x3 x5 x6 x9 b h)) := by
  rw [val_main_v22_apply, val_main_v21_apply, idx_v21_v22, val_main_v20_apply, ref_rowMax, val_main_v19_apply, val_main_cst_1_apply]
  rfl

/-- The exponential of a shifted logit. -/
theorem ref_exp (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) (j : Fin 4033) :
    val_main_v24 (F := Ideal) x0 x1 x3 x5 x6 x9 (ix4 b h (0 : Fin 1) j)
      = Ideal.exp (refRow x0 x1 x3 x5 x6 x9 b h j - max negInf (foldMax (refRow x0 x1 x3 x5 x6 x9 b h))) := by
  rw [val_main_v24_apply, val_main_v23_apply, ref_shift]
  rfl

/-- The row's sum of exponentials. -/
theorem ref_den (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) :
    val_main_v25 (F := Ideal) x0 x1 x3 x5 x6 x9 (ix3 b h (0 : Fin 1))
      = ∑ k : Fin 4033, Ideal.exp (refRow x0 x1 x3 x5 x6 x9 b h k - max negInf (foldMax (refRow x0 x1 x3 x5 x6 x9 b h))) := by
  rw [val_main_v25_apply, val_main_cst_2_apply, Ideal.ofBits_def, Ideal.ofBits_zero_f32, zero_add]
  refine Finset.sum_congr rfl fun k _ => ?_
  rw [idx_v25, ref_exp]

/-- The reference's softmax weights are the specification's `weight` of its row of logits. -/
theorem ref_weight_row (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) (j : Fin 4033) :
    val_main_v28 (F := Ideal) x0 x1 x3 x5 x6 x9 (ix4 b h (0 : Fin 1) j) = weight (refRow x0 x1 x3 x5 x6 x9 b h) j := by
  rw [val_main_v28_apply, val_main_v27_apply, val_main_v26_apply, idx_v26_v27, ref_den, ref_exp]
  rfl

/-- The reference's row of logits is the specification's `logitsPlain`. -/
theorem refRow_eq (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) :
    refRow x0 x1 x3 x5 x6 x9 b h
      = logitsPlain (fun d => x0 (ix4 b (0 : Fin 1) h d)) (fun d => x1 (ix4 b (0 : Fin 1) h d)) (fun r d => x3 (ix4 b h r d))
          (fun d g => x5 (ix4 b h d g)) (fun d g => x6 (ix4 b h d g)) (fun d t => x9 (ix4 b h d t)) :=
  funext fun j => ref_logits x0 x1 x3 x5 x6 x9 b h j

/-- The reference's softmax weights, in the specification's words. -/
theorem ref_weight (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) (j : Fin 4033) :
    val_main_v28 (F := Ideal) x0 x1 x3 x5 x6 x9 (ix4 b h (0 : Fin 1) j)
      = weight (logitsPlain (fun d => x0 (ix4 b (0 : Fin 1) h d)) (fun d => x1 (ix4 b (0 : Fin 1) h d)) (fun r d => x3 (ix4 b h r d))
          (fun d g => x5 (ix4 b h d g)) (fun d g => x6 (ix4 b h d g)) (fun d t => x9 (ix4 b h d t))) j := by
  rw [ref_weight_row, refRow_eq]

end Cert.RefAttn

end
-- ==== Proof.RefValue.lean ====
/-
  The reference's result, read at an index.

  The reference dequantizes the values (code × group scale + group offset, through a reshape of the 128 lanes into
  2 groups of 64 and back), multiplies the first 3968 weights into them, multiplies the last 65 weights into the 64
  residual values followed by the new value, adds the two and transposes back. Entry by entry this is the
  specification's `headOut` of `logitsPlain`.
-/
import proofs.«110720_j77506979824107_2_alg».proof.Proof.Gen.ReferenceIdeal.Read
import proofs.«110720_j77506979824107_2_alg».proof.Proof.Spec
import proofs.«110720_j77506979824107_2_alg».proof.Proof.RefSoftmax

noncomputable section

namespace Cert.RefAttn

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- Lane `d` of the flat axis of 128 falls in group `d / 64` at offset `d % 64`. -/
theorem idx_v38 (b : Fin 4) (h : Fin 32) (t : Fin 3968) (d : Fin 128) :
    idx_main_v38 (ix4 b h t d) = ix5 b h t (grpD d) (⟨d.val % 64, Nat.mod_lt _ (by omega)⟩ : Fin 64) := by
  have hb := b.isLt; have hh := h.isLt; have hd := d.isLt; have ht := t.isLt
  funext a
  match a with
  | ⟨0, _⟩ => exact Fin.ext (by show (((b.val * 32 + h.val) * 3968 + t.val) * 128 + d.val) / 16252928 = b.val; omega)
  | ⟨1, _⟩ => exact Fin.ext (by show (((b.val * 32 + h.val) * 3968 + t.val) * 128 + d.val) / 507904 % 32 = h.val; omega)
  | ⟨2, _⟩ => exact Fin.ext (by show (((b.val * 32 + h.val) * 3968 + t.val) * 128 + d.val) / 128 % 3968 = t.val; omega)
  | ⟨3, _⟩ => exact Fin.ext (by show (((b.val * 32 + h.val) * 3968 + t.val) * 128 + d.val) / 64 % 2 = d.val / 64; omega)
  | ⟨4, _⟩ => exact Fin.ext (by show (((b.val * 32 + h.val) * 3968 + t.val) * 128 + d.val) % 64 = d.val % 64; omega)

/-- Group `d / 64`, offset `d % 64` is lane `d` of the flat axis again. -/
theorem idx_v31 (b : Fin 4) (h : Fin 32) (t : Fin 3968) (d : Fin 128) :
    idx_main_v31 (ix5 b h t (grpD d) (⟨d.val % 64, Nat.mod_lt _ (by omega)⟩ : Fin 64)) = ix4 b h t d := by
  have hb := b.isLt; have hh := h.isLt; have hd := d.isLt; have ht := t.isLt
  funext a
  match a with
  | ⟨0, _⟩ => exact Fin.ext (by show ((((b.val * 32 + h.val) * 3968 + t.val) * 2 + d.val / 64) * 64 + d.val % 64) / 16252928 = b.val; omega)
  | ⟨1, _⟩ => exact Fin.ext (by show ((((b.val * 32 + h.val) * 3968 + t.val) * 2 + d.val / 64) * 64 + d.val % 64) / 507904 % 32 = h.val; omega)
  | ⟨2, _⟩ => exact Fin.ext (by show ((((b.val * 32 + h.val) * 3968 + t.val) * 2 + d.val / 64) * 64 + d.val % 64) / 128 % 3968 = t.val; omega)
  | ⟨3, _⟩ => exact Fin.ext (by show ((((b.val * 32 + h.val) * 3968 + t.val) * 2 + d.val / 64) * 64 + d.val % 64) % 128 = d.val; omega)

theorem idx_v32_v33 (b : Fin 4) (h : Fin 32) (t : Fin 3968) (g : Fin 2) (e : Fin 64) :
    idx_main_v32 (idx_main_v33 (ix5 b h t g e)) = ix4 b h t g := by
  funext a
  match a with
  | ⟨0, _⟩ => rfl
  | ⟨1, _⟩ => rfl
  | ⟨2, _⟩ => rfl
  | ⟨3, _⟩ => rfl

theorem idx_v35_v36 (b : Fin 4) (h : Fin 32) (t : Fin 3968) (g : Fin 2) (e : Fin 64) :
    idx_main_v35 (idx_main_v36 (ix5 b h t g e)) = ix4 b h t g := by
  funext a
  match a with
  | ⟨0, _⟩ => rfl
  | ⟨1, _⟩ => rfl
  | ⟨2, _⟩ => rfl
  | ⟨3, _⟩ => rfl

/-- The dequantized value at position `t`, lane `d`: the code times its group's scale plus its group's offset. -/
theorem val_deq (x7 x8 : (⟨S4x32x3968x2, .f32⟩ : BufTy).Contents (Elt Ideal)) (x10 : (⟨S4x32x3968x128, .i32⟩ : BufTy).Contents (Elt Ideal))
    (b : Fin 4) (h : Fin 32) (t : Fin 3968) (d : Fin 128) :
    val_main_v38 (F := Ideal) x7 x8 x10 (ix4 b h t d)
      = code (x10 (ix4 b h t d)) * x7 (ix4 b h t (grpD d)) + x8 (ix4 b h t (grpD d)) := by
  rw [val_main_v38_apply, val_main_v37_apply, val_main_v34_apply, val_main_v36_apply, val_main_v35_apply,
    val_main_v33_apply, val_main_v32_apply, val_main_v31_apply, val_main_v30_apply, idx_v38, idx_v31, idx_v32_v33, idx_v35_v36]
  rfl

theorem idx_v39 (b : Fin 4) (h : Fin 32) (t : Fin 3968) :
    idx_main_v39 (ix4 b h (0 : Fin 1) t) = ix4 b h (0 : Fin 1) (posQ t) := by
  funext a
  match a with
  | ⟨0, _⟩ => rfl
  | ⟨1, _⟩ => rfl
  | ⟨2, _⟩ => rfl
  | ⟨3, _⟩ => rfl

theorem lidx_v40 (b : Fin 4) (h : Fin 32) (d : Fin 128) (k : Fin 3968) :
    lidx_main_v40 (ix4 b h (0 : Fin 1) d) k = ix4 b h (0 : Fin 1) k := by
  funext a
  match a with
  | ⟨0, _⟩ => rfl
  | ⟨1, _⟩ => rfl
  | ⟨2, _⟩ => rfl
  | ⟨3, _⟩ => rfl

theorem ridx_v40 (b : Fin 4) (h : Fin 32) (d : Fin 128) (k : Fin 3968) :
    ridx_main_v40 (ix4 b h (0 : Fin 1) d) k = ix4 b h k d := by
  funext a
  match a with
  | ⟨0, _⟩ => rfl
  | ⟨1, _⟩ => rfl
  | ⟨2, _⟩ => rfl
  | ⟨3, _⟩ => rfl

/-- The first 3968 weights against the dequantized values. -/
theorem out_quant (x0 x1 : (⟨S4x1x32x128, .f32⟩ : BufTy).Contents (Elt Ideal)) (x3 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (x7 x8 : (⟨S4x32x3968x2, .f32⟩ : BufTy).Contents (Elt Ideal)) (x10 : (⟨S4x32x3968x128, .i32⟩ : BufTy).Contents (Elt Ideal))
    (b : Fin 4) (h : Fin 32) (d : Fin 128) :
    val_main_v40 (F := Ideal) x0 x1 x3 x5 x6 x7 x8 x9 x10 (ix4 b h (0 : Fin 1) d)
      = ∑ t : Fin 3968, val_main_v28 (F := Ideal) x0 x1 x3 x5 x6 x9 (ix4 b h (0 : Fin 1) (posQ t))
          * (code (x10 (ix4 b h t d)) * x7 (ix4 b h t (grpD d)) + x8 (ix4 b h t (grpD d))) := by
  rw [val_main_v40_apply]
  refine Finset.sum_congr rfl fun k _ => ?_
  rw [lidx_v40, ridx_v40, val_main_v39_apply, idx_v39, val_deq]

theorem idx_v41 (b : Fin 4) (h : Fin 32) (r : Fin 65) :
    idx_main_v41 (ix4 b h (0 : Fin 1) r) = ix4 b h (0 : Fin 1) (⟨3968 + r.val, by have := r.isLt; omega⟩ : Fin 4033) := by
  funext a
  match a with
  | ⟨0, _⟩ => rfl
  | ⟨1, _⟩ => rfl
  | ⟨2, _⟩ => rfl
  | ⟨3, _⟩ => rfl

theorem lidx_v42 (b : Fin 4) (h : Fin 32) (d : Fin 128) (k : Fin 65) :
    lidx_main_v42 (ix4 b h (0 : Fin 1) d) k = ix4 b h (0 : Fin 1) k := by
  funext a
  match a with
  | ⟨0, _⟩ => rfl
  | ⟨1, _⟩ => rfl
  | ⟨2, _⟩ => rfl
  | ⟨3, _⟩ => rfl

theorem ridx_v42 (b : Fin 4) (h : Fin 32) (d : Fin 128) (k : Fin 65) :
    ridx_main_v42 (ix4 b h (0 : Fin 1) d) k = ix4 b h k d := by
  funext a
  match a with
  | ⟨0, _⟩ => rfl
  | ⟨1, _⟩ => rfl
  | ⟨2, _⟩ => rfl
  | ⟨3, _⟩ => rfl

/-- The last 65 weights against the 64 residual values and the new value. -/
theorem out_resid (x0 x1 x2 : (⟨S4x1x32x128, .f32⟩ : BufTy).Contents (Elt Ideal)) (x3 x4 : (⟨S4x32x64x128, .f32⟩ : BufTy).Contents (Elt Ideal))
    (x5 x6 : (⟨S4x32x128x62, .f32⟩ : BufTy).Contents (Elt Ideal)) (x9 : (⟨S4x32x128x3968, .i32⟩ : BufTy).Contents (Elt Ideal))
    (b : Fin 4) (h : Fin 32) (d : Fin 128) :
    val_main_v42 (F := Ideal) x0 x1 x2 x3 x4 x5 x6 x9 (ix4 b h (0 : Fin 1) d)
      = (∑ r : Fin 64, val_main_v28 (F := Ideal) x0 x1 x3 x5 x6 x9 (ix4 b h (0 : Fin 1) (posR r)) * x4 (ix4 b h r d))
        + val_main_v28 (F := Ideal) x0 x1 x3 x5 x6 x9 (ix4 b h (0 : Fin 1) posN) * x2 (ix4 b (0 : Fin 1) h d) := by
  rw [val_main_v42_apply, Fin.sum_univ_castSucc]
  refine congrArg₂ (· + ·) (Finset.sum_congr rfl fun r _ => ?_) ?_
  · rw [lidx_v42, ridx_v42, val_main_v41_apply, idx_v41]
    unfold val_main_v29
    rw [concat65_lt _ _ b h (Fin.castSucc r) d r.isLt]
    rfl
  · rw [lidx_v42, ridx_v42, val_main_v41_apply, idx_v41]
    unfold val_main_v29
    rw [concat65_ge _ _ b h (Fin.last 64) d (by simp), val_main_v2_apply]
    exact congrArg (fun i => _ * x2 i) (idx_v0 b h d)

theorem idx_v44 (b : Fin 4) (h : Fin 32) (d : Fin 128) : idx_main_v44 (ix4 b (0 : Fin 1) h d) = ix4 b h (0 : Fin 1) d := by
  funext a
  match a with
  | ⟨0, _⟩ => rfl
  | ⟨1, _⟩ => rfl
  | ⟨2, _⟩ => rfl
  | ⟨3, _⟩ => rfl

/-- The reference program's result, read at an index, is the specification's head output of `logitsPlain`. -/
theorem ref_value (x0 x1 x2 : (⟨S4x1x32x128, .f32⟩ : BufTy).Contents (Elt Ideal)) (x3 x4 : (⟨S4x32x64x128, .f32⟩ : BufTy).Contents (Elt Ideal))
    (x5 x6 : (⟨S4x32x128x62, .f32⟩ : BufTy).Contents (Elt Ideal)) (x7 x8 : (⟨S4x32x3968x2, .f32⟩ : BufTy).Contents (Elt Ideal))
    (x9 : (⟨S4x32x128x3968, .i32⟩ : BufTy).Contents (Elt Ideal)) (x10 : (⟨S4x32x3968x128, .i32⟩ : BufTy).Contents (Elt Ideal))
    (b : Fin 4) (h : Fin 32) (d : Fin 128) :
    Cert.ReferenceIdeal.Read.val_main_v44 (F := Ideal) x0 x1 x2 x3 x4 x5 x6 x7 x8 x9 x10 (ValueIdx.ix4 b 0 h d)
      = Cert.Attn.headOut (Cert.Attn.logitsPlain (fun d => x0 (ix4 b 0 h d)) (fun d => x1 (ix4 b 0 h d)) (fun r d => x3 (ix4 b h r d))
            (fun d g => x5 (ix4 b h d g)) (fun d g => x6 (ix4 b h d g)) (fun d t => x9 (ix4 b h d t)))
          (fun d => x2 (ix4 b 0 h d)) (fun r d => x4 (ix4 b h r d)) (fun t g => x7 (ix4 b h t g)) (fun t g => x8 (ix4 b h t g))
          (fun t d => x10 (ix4 b h t d)) d := by
  rw [val_main_v44_apply, idx_v44, val_main_v43_apply, out_quant, out_resid]
  unfold headOut outOf
  simp only [ref_weight]
  rfl

end Cert.RefAttn

end
-- ==== Proof.Algebra.lean ====
/-
  On real entries the two ways of taking the logits agree: scaling the query first and splitting the
  dequantized key into scaled codes and offset, `∑ (q·s)·(c·σ) + ∑ (q·s)·μ`, is `(∑ q·(c·σ + μ))·s` by
  distributivity in ℝ; the extended reals do not distribute at the infinities, so the identity is taken in ℝ and
  carried back along the coercion.
-/
import proofs.«110720_j77506979824107_2_alg».proof.Proof.Spec

noncomputable section

namespace Cert.Attn

open Idealize.ShloMosaic

/-- The scale word denotes a real number. -/
theorem scale_real : ∃ s : ℝ, scale = (s : EReal) := by
  unfold scale Ideal.ofBits Ideal.ieee
  simp
  exact ⟨_, (EReal.coe_mul _ _).symm⟩

/-- The coercion ℝ → EReal commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logits agree on real entries. -/
theorem logits_eq (q k : Fin 128 → EReal) (Kf : Fin 64 → Fin 128 → EReal) (ksc kmn : Fin 128 → Fin 62 → EReal)
    (kq : Fin 128 → Fin 3968 → BitVec 32)
    (hq : ∀ d, ∃ r : ℝ, q d = (r : EReal)) (hk : ∀ d, ∃ r : ℝ, k d = (r : EReal))
    (hKf : ∀ r d, ∃ x : ℝ, Kf r d = (x : EReal)) (hksc : ∀ d g, ∃ x : ℝ, ksc d g = (x : EReal))
    (hkmn : ∀ d g, ∃ x : ℝ, kmn d g = (x : EReal)) :
    logitsFactored q k Kf ksc kmn kq = logitsPlain q k Kf ksc kmn kq := by
  obtain ⟨s, hs⟩ := scale_real
  choose q' hq' using hq
  choose k' hk' using hk
  choose Kf' hKf' using hKf
  choose ksc' hksc' using hksc
  choose kmn' hkmn' using hkmn
  funext j
  unfold logitsFactored logitsPlain logitsScaled row
  simp only [hs, hq', hk', hKf', hksc', hkmn', code]
  split_ifs with h1 h2
  · simp only [← EReal.coe_mul, ← EReal.coe_add, ← coe_sum]
    congr 1
    rw [← Finset.sum_add_distrib, Finset.sum_mul]
    exact Finset.sum_congr rfl fun d _ => by ring
  · simp only [← EReal.coe_mul, ← coe_sum]
    congr 1
    rw [Finset.sum_mul]
    exact Finset.sum_congr rfl fun d _ => by ring
  · simp only [← EReal.coe_mul, ← coe_sum]
    congr 1
    rw [Finset.sum_mul]
    exact Finset.sum_congr rfl fun d _ => by ring

end Cert.Attn

end
-- ==== Proof.Finite.lean ====
/-
  From the precondition to real entries. The precondition is the conjunction, over the nine float arguments, of
  "every entry's absolute value is below +∞"; an extended real whose absolute value is below +∞ is a real number.
  Only the five arguments the logits are made of are needed: the query, the new key, the residual keys, and the
  key groups' scales and offsets.
-/
import proofs.«110720_j77506979824107_2_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.Attn

open Idealize.ShloMosaic Cert.Pre_finite_inputs

/-- An extended real whose absolute value compares below the word of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

instance : Subsingleton S_.Idx := ⟨fun a b => funext fun d => d.elim0⟩

variable [Cert.Pre_finite_inputs.Facts]

/-- Under the precondition the query, the new key, the residual keys and the key groups' scales and offsets hold
    real numbers. -/
theorem real_of_pre (a0 a1 a2 : FVec Ideal S4x1x32x128 .f32) (a3 a4 : FVec Ideal S4x32x64x128 .f32)
    (a5 a6 : FVec Ideal S4x32x128x62 .f32) (a7 a8 : FVec Ideal S4x32x3968x2 .f32)
    (a9 : IVec S4x32x128x3968 32) (a10 : IVec S4x32x3968x128 32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a5 i = (r : EReal)) ∧ (∀ i, ∃ r : ℝ, a6 i = (r : EReal)) := by
  have h0 := congrFun h ValueIdx.ix0
  dsimp only [fn, fn_part1, fn_part2, andi] at h0
  simp only [IntOp.andi_eq_one] at h0
  obtain ⟨⟨⟨⟨⟨⟨⟨⟨e0, e1⟩, -⟩, e3⟩, -⟩, e5⟩, e6⟩, -⟩, -⟩ := h0
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e3 i),
    fun i => real_of_abs_lt_inf _ (Host.reduce_andi_all _ _ _ _ _ e5 i),
    fun i => real_of_abs_lt_inf _ (Host.reduce_andi_all _ _ _ _ _ e6 i)⟩

end Cert.Attn

end
-- ==== Proof.lean ====
/-
  Single-query attention over a group-quantized key/value cache: the kernel against its jnp reference, over the
  extended reals, under the precondition that every float input is finite.

  Both programs compute, for each batch and head, softmax weights over 4033 logits (3968 quantized keys, 64 residual
  keys, the new key) and the weighted sum of the dequantized values, the residual values and the new value
  (Proof/Spec.lean). They differ in one place: the kernel multiplies the query by the scale word first and splits each
  dequantized key `code · σ + μ` into its two terms, `∑ (q·s)·(c·σ) + ∑ (q·s)·μ`, where the reference takes
  `(∑ q·(c·σ + μ))·s`. These agree by distributivity in ℝ — not on the extended reals at the infinities —, which is
  where the precondition is used: the query, the keys, and the key groups' scales and offsets are real numbers
  (Proof/Finite.lean, Proof/Algebra.lean). Everything else is the same sum in another grouping: the kernel takes two
  heads per grid point, each output lane group of 64 by its own matrix product, and the 65 residual rows as 64 + 1.

  The kernel's side: each stretch of the body read at an index (Proof/KerLogits*.lean, KerSoftmax.lean, KerOut*.lean
  over the terms of KerDefs.lean), one head end to end (HeadValue.lean), the output block (BlockValue.lean), the blocks
  in the arrays (BlockRead.lean), the array after the run and the program's result (ArrayValue.lean,
  ResultValue.lean). The reference's side: its run's term read at an index (RefLogits.lean, RefSoftmax.lean,
  RefValue.lean). The ideal pass rewrote nothing, so `preserves` is trivial.
-/
import proofs.«110720_j77506979824107_2_alg».proof.Defs
import proofs.«110720_j77506979824107_2_alg».proof.Proof.Gen.Kernel
import proofs.«110720_j77506979824107_2_alg».proof.Proof.Gen.Kernel.Frame
import proofs.«110720_j77506979824107_2_alg».proof.Proof.Gen.KernelIdeal
import proofs.«110720_j77506979824107_2_alg».proof.Proof.Gen.KernelIdeal.Frame
import proofs.«110720_j77506979824107_2_alg».proof.Proof.Gen.ReferenceIdeal
import proofs.«110720_j77506979824107_2_alg».proof.Proof.Gen.Pre_finite_inputs
import proofs.«110720_j77506979824107_2_alg».proof.Proof.Gen.ReferenceIdeal.Run
import proofs.«110720_j77506979824107_2_alg».proof.Proof.Gen.ReferenceIdeal.Read
import proofs.«110720_j77506979824107_2_alg».proof.Proof.ResultValue
import proofs.«110720_j77506979824107_2_alg».proof.Proof.RefValue
import proofs.«110720_j77506979824107_2_alg».proof.Proof.Algebra
import proofs.«110720_j77506979824107_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- An index of the result is (batch, 0, head, lane). -/
theorem eq_bhd (i : Cert.KernelIdeal.S4x1x32x128.Idx) : i = ix4 (i 0) 0 (i 2) (i 3) := by
  have h1 : (i 1).val < 1 := (i 1).isLt
  funext a; apply Fin.ext
  match a with
  | ⟨0, _⟩ => rfl
  | ⟨1, _⟩ => show (i 1).val = 0; omega
  | ⟨2, _⟩ => rfl
  | ⟨3, _⟩ => rfl

/-- The two idealized programs, from memories agreeing on the arguments, end with equal results: at every (batch, head,
    lane) both are the specification's head output, of logits that agree on the real entries the precondition gives. -/
theorem algebraic : Cert.algebraic_KernelIdeal_ReferenceIdeal := by
  intro m ρ m' ρ' hpre hagree
  refine ⟨fun c => Cert.KerAttn.result m c, Cert.KerAttn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  obtain ⟨a0, a1, a2, a3, a4, a5, a6, a7, a8, a9, a10⟩ := hagree c
  rw [a0, a1, a2, a3, a4, a5, a6, a7, a8, a9, a10]
  obtain ⟨r0, r1, r3, r5, r6⟩ := Cert.Attn.real_of_pre _ _ _ _ _ _ _ _ _ _ _ (hpre c)
  funext i
  obtain ⟨b, h, d, rfl⟩ : ∃ (b : Fin 4) (h : Fin 32) (d : Fin 128), i = ix4 b 0 h d := ⟨i 0, i 2, i 3, eq_bhd i⟩
  refine (Cert.RefAttn.ref_value _ _ _ _ _ _ _ _ _ _ _ b h d).trans ?_
  refine Eq.trans ?_ (Cert.KerAttn.result_apply m c b h d).symm
  rw [Cert.Attn.logits_eq _ _ _ _ _ _ (fun d => r0 _) (fun d => r1 _) (fun r d => r3 _) (fun d g => r5 _) (fun d g => r6 _)]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
